-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) (main_arg2 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S4096x256 .f32 := Host.absf main_arg2
  let main_cst_2 : FVec F S_ .f32 := constant S_ .f32 0x7F800000#32
  let main_v10 : FVec F S4096x256 .f32 := broadcastInDim S4096x256 ![] bcast_S_S4096x256 main_cst_2
  let main_v11 : IVec S4096x256 1 := cmpf .olt main_v9 main_v10
  let main_c_3 : IVec S_ 1 := constantI S_ 1 1#1
  let main_v12 : IVec S_ 1 := (fun x v => Host.reduce IntOp.andi x v reducesTo_S4096x256_S_d0_1 h_S_) main_v11 main_c_3
  let main_v13 : IVec S_ 1 := andi main_v8 main_v12
  main_v13
-- ==== Kernel.lean ====
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S8192 : Shape := ⟨1, ![8192]⟩
abbrev S8192x256 : Shape := ⟨2, ![8192, 256]⟩
abbrev S8192x1 : Shape := ⟨2, ![8192, 1]⟩
abbrev S512x256 : Shape := ⟨2, ![512, 256]⟩
abbrev S2048x256 : Shape := ⟨2, ![2048, 256]⟩
abbrev S512x1 : Shape := ⟨2, ![512, 1]⟩
abbrev S512x2048 : Shape := ⟨2, ![512, 2048]⟩
abbrev S512 : Shape := ⟨1, ![512]⟩

abbrev nBuf : Space → Nat
  | .hbm => 41
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S4096x256, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x256, .f32⟩
  | .hbm, ⟨12, _⟩ => ⟨S4096x256, .f32⟩
  | .hbm, ⟨13, _⟩ => ⟨S4096x256, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x256, .f32⟩
  | .hbm, ⟨22, _⟩ => ⟨S4096x256, .f32⟩
  | .hbm, ⟨23, _⟩ => ⟨S4096x256, .f32⟩
  | .hbm, ⟨24, _⟩ => ⟨S_, .f32⟩
  | .hbm, ⟨25, _⟩ => ⟨S4096, .f32⟩
  | .hbm, ⟨26, _⟩ => ⟨S8192, .f32⟩
  | .hbm, ⟨27, _⟩ => ⟨S8192x256, .f32⟩
  | .hbm, ⟨28, _⟩ => ⟨S8192x256, .bf16⟩
  | .hbm, ⟨29, _⟩ => ⟨S8192x1, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S8192, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .local _ .vmem, ⟨0, _⟩ => ⟨S512x256, .bf16⟩
  | .local _ .vmem, ⟨1, _⟩ => ⟨S512x256, .bf16⟩
  | .local _ .vmem, ⟨2, _⟩ => ⟨S2048x256, .bf16⟩
  | .local _ .vmem, ⟨3, _⟩ => ⟨S2048x256, .bf16⟩
  | .local _ .vmem, ⟨4, _⟩ => ⟨S512x1, .f32⟩
  | .local _ .vmem, ⟨5, _⟩ => ⟨S512x1, .f32⟩
  | .local _ .vmem, ⟨6, _⟩ => ⟨S512x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def k0_cond3 (i : grid0.Coords) : BitVec 1 :=
  let arg1 : BitVec 32 := BitVec.ofNat 32 (i 1).val
  let c3_i32 : BitVec 32 := 3#32
  let v27 : BitVec 1 := Scalar.cmpi .eq arg1 c3_i32
  let v28 : BitVec 32 := Scalar.extui v27
  let c0_i32_13 : BitVec 32 := 0#32
  let v29 : BitVec 1 := Scalar.cmpi .ne v28 c0_i32_13
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  concatenates_S4096_S4096_S8192_d0 : Shape.Concatenates [S4096, S4096] S8192 0
  concatenates_S4096x256_S4096x256_S8192x256_d0 : Shape.Concatenates [S4096x256, S4096x256] S8192x256 0
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  reduces_S512x2048_S512 : S512x2048.Reduces [1] S512
  shapeCasts_S512_S512x1 : S512.ShapeCasts S512x1
  iota_S512x2048_d0_w32 : S512x2048.Iotas .tc 32 [0]
  iota_S512x2048_d1_w32 : S512x2048.Iotas .tc 32 [1]
  shapeCasts_S8192x1_S8192 : S8192x1.ShapeCasts S8192
  bcast_S_S8192 : S_.BroadcastsInDim S8192 (![] : Fin 0 → Fin S8192.rank)
  reducesTo_S8192_S_d0 : S8192.ReducesTo [0] S_
  dot_S512x256_S2048x256_S512x2048_1_1_0_0_n_n_wf : DotDims.WF S512x256 S2048x256 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x256.size a
  hwx0_0 : ∀ i : grid0.Coords, EltTy.bits .bf16 = 32 ∨ (Rect.block (s := S8192x256) S512x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S8192x256.size a
  hwx0_1 : ∀ i : grid0.Coords, EltTy.bits .bf16 = 32 ∨ (Rect.block (s := S8192x256) S2048x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)

variable [Facts₀]

def dot_S512x256_S2048x256_S512x2048_1_1_0_0_n_n : DotDims S512x256 S2048x256 S512x2048 where
  lhsContracting := [1]
  rhsContracting := [1]
  lhsNonContracting := [0]
  rhsNonContracting := [0]
  lhsBatch := []
  rhsBatch := []
  wf := dot_S512x256_S2048x256_S512x2048_1_1_0_0_n_n_wf

abbrev win0_0 : Pipeline.Window sig grid0 :=
  Pipeline.Window.ofSpec (Memref.whole main_v14) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond3 i == 1#1) | ⟨_ + 3, h⟩ => absurd h (Nat.not_lt.2 (Nat.le_add_left _ _))

class Facts : Prop extends Facts₀ where

variable [Facts]
-- ==== ReferenceIdeal.lean ====
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S8192x256 : Shape := ⟨2, ![8192, 256]⟩
abbrev S256x8192 : Shape := ⟨2, ![256, 8192]⟩
abbrev S8192x8192 : Shape := ⟨2, ![8192, 8192]⟩
abbrev S4096x2 : Shape := ⟨2, ![4096, 2]⟩
abbrev S8192 : Shape := ⟨1, ![8192]⟩

abbrev nBuf : Space → Nat
  | .hbm => 100
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S4096x256, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x256, .f32⟩
  | .hbm, ⟨12, _⟩ => ⟨S4096x256, .f32⟩
  | .hbm, ⟨13, _⟩ => ⟨S4096x256, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x256, .f32⟩
  | .hbm, ⟨22, _⟩ => ⟨S4096x256, .f32⟩
  | .hbm, ⟨23, _⟩ => ⟨S8192x256, .f32⟩
  | .hbm, ⟨24, _⟩ => ⟨S256x8192, .f32⟩
  | .hbm, ⟨25, _⟩ => ⟨S8192x8192, .f32⟩
  | .hbm, ⟨26, _⟩ => ⟨S4096, .i32⟩
  | .hbm, ⟨27, _⟩ => ⟨S4096, .i32⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S_, .i32⟩
  | .hbm, ⟨32, _⟩ => ⟨S4096, .i32⟩
  | .hbm, ⟨33, _⟩ => ⟨S4096, .i1⟩
  | .hbm, ⟨34, _⟩ => ⟨S_, .i32⟩
  | .hbm, ⟨35, _⟩ => ⟨S4096, .i32⟩
  | .hbm, ⟨36, _⟩ => ⟨S4096, .i32⟩
  | .hbm, ⟨37, _⟩ => ⟨S4096, .i32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S_, .i32⟩
  | .hbm, ⟨42, _⟩ => ⟨S4096, .i32⟩
  | .hbm, ⟨43, _⟩ => ⟨S4096, .i32⟩
  | .hbm, ⟨44, _⟩ => ⟨S4096, .i32⟩
  | .hbm, ⟨45, _⟩ => ⟨S4096x1, .i32⟩
  | .hbm, ⟨46, _⟩ => ⟨S4096x1, .i32⟩
  | .hbm, ⟨47, _⟩ => ⟨S4096x2, .i32⟩
  | .hbm, ⟨48, _⟩ => ⟨S4096, .f32⟩
  | .hbm, ⟨49, _⟩ => ⟨S4096, .i32⟩
  | .hbm, ⟨50, _⟩ => ⟨S4096, .i32⟩
  | .hbm, ⟨51, _⟩ => ⟨S_, .i32⟩
  | .hbm, ⟨52, _⟩ => ⟨S4096, .i32⟩
  | .hbm, ⟨53, _⟩ => ⟨S4096, .i32⟩
  | .hbm, ⟨54, _⟩ => ⟨S_, .i32⟩
  | .hbm, ⟨55, _⟩ => ⟨S4096, .i32⟩
  | .hbm, ⟨56, _⟩ => ⟨S4096, .i1⟩
  | .hbm, ⟨57, _⟩ => ⟨S_, .i32⟩
  | .hbm, ⟨58, _⟩ => ⟨S4096, .i32⟩
  | .hbm, ⟨59, _⟩ => ⟨S4096, .i32⟩
  | .hbm, ⟨60, _⟩ => ⟨S4096, .i32⟩
  | .hbm, ⟨61, _⟩ => ⟨S_, .i32⟩
  | .hbm, ⟨62, _⟩ => ⟨S4096, .i32⟩
  | .hbm, ⟨63, _⟩ => ⟨S4096, .i1⟩
  | .hbm, ⟨64, _⟩ => ⟨S_, .i32⟩
  | .hbm, ⟨65, _⟩ => ⟨S4096, .i32⟩
  | .hbm, ⟨66, _⟩ => ⟨S4096, .i32⟩
  | .hbm, ⟨67, _⟩ => ⟨S4096, .i32⟩
  | .hbm, ⟨68, _⟩ => ⟨S4096x1, .i32⟩
  | .hbm, ⟨69, _⟩ => ⟨S4096x1, .i32⟩
  | .hbm, ⟨70, _⟩ => ⟨S4096x2, .i32⟩
  | .hbm, ⟨71, _⟩ => ⟨S4096, .f32⟩
  | .hbm, ⟨72, _⟩ => ⟨S8192, .f32⟩
  | .hbm, ⟨73, _⟩ => ⟨S8192x8192, .i32⟩
  | .hbm, ⟨74, _⟩ => ⟨S8192x8192, .i32⟩
  | .hbm, ⟨75, _⟩ => ⟨S_, .i32⟩
  | .hbm, ⟨76, _⟩ => ⟨S8192x8192, .i32⟩
  | .hbm, ⟨77, _⟩ => ⟨S8192x8192, .i32⟩
  | .hbm, ⟨78, _⟩ => ⟨S8192x8192, .i1⟩
  | .hbm, ⟨79, _⟩ => ⟨S8192x8192, .f32⟩
  | .hbm, ⟨80, _⟩ => ⟨S_, .f32⟩
  | .hbm, ⟨81, _⟩ => ⟨S8192x8192, .f32⟩
  | .hbm, ⟨82, _⟩ => ⟨S8192x8192, .f32⟩
  | .hbm, ⟨83, _⟩ => ⟨S_, .f32⟩
  | .hbm, ⟨84, _⟩ => ⟨S8192x8192, .f32⟩
  | .hbm, ⟨85, _⟩ => ⟨S8192x8192, .f32⟩
  | .hbm, ⟨86, _⟩ => ⟨S8192x8192, .f32⟩
  | .hbm, ⟨87, _⟩ => ⟨S8192x8192, .f32⟩
  | .hbm, ⟨88, _⟩ => ⟨S_, .f32⟩
  | .hbm, ⟨89, _⟩ => ⟨S8192, .f32⟩
  | .hbm, ⟨90, _⟩ => ⟨S_, .f32⟩
  | .hbm, ⟨91, _⟩ => ⟨S8192, .f32⟩
  | .hbm, ⟨92, _⟩ => ⟨S8192, .f32⟩
  | .hbm, ⟨93, _⟩ => ⟨S8192, .f32⟩
  | .hbm, ⟨94, _⟩ => ⟨S8192, .f32⟩
  | .hbm, ⟨95, _⟩ => ⟨S8192, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_call2_v0 : Ref sig .tc := ⟨.hbm, 26, rfl⟩
abbrev main_call2_v1 : Ref sig .tc := ⟨.hbm, 27, rfl⟩
abbrev main_call2_c : Ref sig .tc := ⟨.hbm, 28, rfl⟩
abbrev main_call2_v2 : Ref sig .tc := ⟨.hbm, 29, rfl⟩
abbrev main_call2_v3 : Ref sig .tc := ⟨.hbm, 30, rfl⟩
abbrev main_call2_c_0 : Ref sig .tc := ⟨.hbm, 31, rfl⟩
abbrev main_call2_v4 : Ref sig .tc := ⟨.hbm, 32, rfl⟩
abbrev main_call2_v5 : Ref sig .tc := ⟨.hbm, 33, rfl⟩
abbrev main_call2_c_1 : Ref sig .tc := ⟨.hbm, 34, rfl⟩
abbrev main_call2_v6 : Ref sig .tc := ⟨.hbm, 35, rfl⟩
abbrev main_call2_v7 : Ref sig .tc := ⟨.hbm, 36, rfl⟩
abbrev main_call2_v8 : Ref sig .tc := ⟨.hbm, 37, rfl⟩
abbrev main_call2_c_2 : Ref sig .tc := ⟨.hbm, 38, rfl⟩
abbrev main_call2_v9 : Ref sig .tc := ⟨.hbm, 39, rfl⟩
abbrev main_call2_v10 : Ref sig .tc := ⟨.hbm, 40, rfl⟩
abbrev main_call2_c_3 : Ref sig .tc := ⟨.hbm, 41, rfl⟩
abbrev main_call2_v11 : Ref sig .tc := ⟨.hbm, 42, rfl⟩
abbrev main_call2_v12 : Ref sig .tc := ⟨.hbm, 43, rfl⟩
abbrev main_call2_v13 : Ref sig .tc := ⟨.hbm, 44, rfl⟩
abbrev main_call2_v14 : Ref sig .tc := ⟨.hbm, 45, rfl⟩
abbrev main_call2_v15 : Ref sig .tc := ⟨.hbm, 46, rfl⟩
abbrev main_call2_v16 : Ref sig .tc := ⟨.hbm, 47, rfl⟩
abbrev main_v13 : Ref sig .tc := ⟨.hbm, 48, rfl⟩
abbrev main_call3_v0 : Ref sig .tc := ⟨.hbm, 49, rfl⟩
abbrev main_call3_v1 : Ref sig .tc := ⟨.hbm, 50, rfl⟩
abbrev main_call3_c : Ref sig .tc := ⟨.hbm, 51, rfl⟩
abbrev main_call3_v2 : Ref sig .tc := ⟨.hbm, 52, rfl⟩
abbrev main_call3_v3 : Ref sig .tc := ⟨.hbm, 53, rfl⟩
abbrev main_call3_c_0 : Ref sig .tc := ⟨.hbm, 54, rfl⟩
abbrev main_call3_v4 : Ref sig .tc := ⟨.hbm, 55, rfl⟩
abbrev main_call3_v5 : Ref sig .tc := ⟨.hbm, 56, rfl⟩
abbrev main_call3_c_1 : Ref sig .tc := ⟨.hbm, 57, rfl⟩
abbrev main_call3_v6 : Ref sig .tc := ⟨.hbm, 58, rfl⟩
abbrev main_call3_v7 : Ref sig .tc := ⟨.hbm, 59, rfl⟩
abbrev main_call3_v8 : Ref sig .tc := ⟨.hbm, 60, rfl⟩
abbrev main_call3_c_2 : Ref sig .tc := ⟨.hbm, 61, rfl⟩
abbrev main_call3_v9 : Ref sig .tc := ⟨.hbm, 62, rfl⟩
abbrev main_call3_v10 : Ref sig .tc := ⟨.hbm, 63, rfl⟩
abbrev main_call3_c_3 : Ref sig .tc := ⟨.hbm, 64, rfl⟩
abbrev main_call3_v11 : Ref sig .tc := ⟨.hbm, 65, rfl⟩
abbrev main_call3_v12 : Ref sig .tc := ⟨.hbm, 66, rfl⟩
abbrev main_call3_v13 : Ref sig .tc := ⟨.hbm, 67, rfl⟩
abbrev main_call3_v14 : Ref sig .tc := ⟨.hbm, 68, rfl⟩
abbrev main_call3_v15 : Ref sig .tc := ⟨.hbm, 69, rfl⟩
abbrev main_call3_v16 : Ref sig .tc := ⟨.hbm, 70, rfl⟩
abbrev main_v14 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩
abbrev main_c : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev main_cst_1 : Ref sig .tc := ⟨.hbm, 80, rfl⟩
abbrev main_v22 : Ref sig .tc := ⟨.hbm, 81, rfl⟩
abbrev main_v23 : Ref sig .tc := ⟨.hbm, 82, rfl⟩
abbrev main_cst_2 : Ref sig .tc := ⟨.hbm, 83, rfl⟩
abbrev main_v24 : Ref sig .tc := ⟨.hbm, 84, rfl⟩
abbrev main_v25 : Ref sig .tc := ⟨.hbm, 85, rfl⟩
abbrev main_v26 : Ref sig .tc := ⟨.hbm, 86, rfl⟩
abbrev main_v27 : Ref sig .tc := ⟨.hbm, 87, rfl⟩
abbrev main_cst_3 : Ref sig .tc := ⟨.hbm, 88, rfl⟩
abbrev main_v28 : Ref sig .tc := ⟨.hbm, 89, rfl⟩
abbrev main_cst_4 : Ref sig .tc := ⟨.hbm, 90, rfl⟩
abbrev main_v29 : Ref sig .tc := ⟨.hbm, 91, rfl⟩
abbrev main_v30 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_cst_5 : Ref sig .tc := ⟨.hbm, 96, rfl⟩
abbrev main_v34 : Ref sig .tc := ⟨.hbm, 97, rfl⟩
abbrev main_cst_6 : Ref sig .tc := ⟨.hbm, 98, rfl⟩
abbrev main_v35 : Ref sig .tc := ⟨.hbm, 99, rfl⟩

abbrev nD : Nat := 1
abbrev τ : Topo := Topo.v7x

variable {F : FTy → Type} [FloatOps F]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  concatenates_S4096x256_S4096x256_S8192x256_d0 : Shape.Concatenates [S4096x256, S4096x256] S8192x256 0
  transposes_S8192x256_S256x8192_1_0 : S8192x256.Transposes [1, 0] S256x8192
  bcast_S_S4096 : S_.BroadcastsInDim S4096 (![] : Fin 0 → Fin S4096.rank)
  concatenates_S4096x1_S4096x1_S4096x2_d1 : Shape.Concatenates [S4096x1, S4096x1] S4096x2 1
  concatenates_S4096_S4096_S8192_d0 : Shape.Concatenates [S4096, S4096] S8192 0
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x256_S256x8192_S8192x8192_1_0_0_1_n_n_wf : DotDims.WF S8192x256 S256x8192 S8192x8192 [1] [0] [0] [1] [] []
  gather_S8192x8192_S4096x2_S4096_n_01_n_n_01_1_11_wf : GatherDims.WF S8192x8192 S4096x2 S4096 [] [0, 1] [] [0, 1] [] 1 ![1, 1]

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def gather_S8192x8192_S4096x2_S4096_n_01_n_n_01_1_11 : GatherDims S8192x8192 S4096x2 S4096 where
  offsetDims := []
  collapsedSliceDims := [0, 1]
  operandBatchingDims := []
  startIndicesBatchingDims := []
  startIndexMap := [0, 1]
  indexVectorDim := 1
  sliceSizes := ![1, 1]
  wf := gather_S8192x8192_S4096x2_S4096_n_01_n_n_01_1_11_wf

class Facts : Prop extends Facts₀ where

variable [Facts]
-- ==== Proof.BData.lean ====
/-
  The tiled row-sum kernel on its 16 × 4 grid, as data: the three conditions of its body in closed form over the grid,
  one grid step as a pure function of the two staged blocks and the running sum, the running sum after every point by
  recursion on the point, and the pipeline's proof data built from them.

  A point is (i, j): row block i of 512 rows, column tile j of 2048 columns.  The body zeroes the running sum when
  j = 0, adds the tile's row sums, subtracts the diagonal terms when the tile meets the diagonal (i / 4 = j), and copies
  the running sum to the output block when j = 3.  So the running sum after point (i, j) depends on the points (i, 0..j)
  only, and the output block of row block i is the running sum after point (i, 3).
-/
import proofs.«159884_j32023276159237_2_alg».proof.Proof.Gen.Kernel.Launch
import proofs.«159884_j32023276159237_2_alg».proof.Proof.Gen.Kernel.Skeleton
import proofs.«159884_j32023276159237_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- The four stretches of host operations before the region. -/
abbrev preOps : List (List (HloOp τ sig (Elt F))) := [hostOps0, hostOps0_1, hostOps0_2, hostOps0_3]

/-- Core `c`'s buffer contents when the region is entered: after the host operations before it. -/
abbrev V0 (c : Dev nD) : Valuation τ sig (Elt F) := StableHlo.after (List.flatten (preOps (F := F))) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's three conditions -/

/-- "This is the first column tile": the running sum is zeroed. -/
abbrev cond1 (i : grid0.Coords) : Prop :=
  (Scalar.cmpi .ne (Scalar.extui (Scalar.cmpi .eq (BitVec.ofNat 32 (i 1).val) 0#32)) 0#32) = 1#1
/-- "The tile's rows and columns overlap": the diagonal terms are subtracted. -/
abbrev cond2 (i : grid0.Coords) : Prop :=
  (Scalar.cmpi .ne (Scalar.extui (Scalar.andi
    (Scalar.cmpi .slt (Scalar.muli (BitVec.ofNat 32 (i 0).val) 512#32) (Scalar.addi (Scalar.muli (BitVec.ofNat 32 (i 1).val) 2048#32) 2048#32))
    (Scalar.cmpi .slt (Scalar.muli (BitVec.ofNat 32 (i 1).val) 2048#32) (Scalar.addi (Scalar.muli (BitVec.ofNat 32 (i 0).val) 512#32) 512#32)))) 0#32) = 1#1
/-- "This is the last column tile": the running sum is copied out. -/
abbrev cond3 (i : grid0.Coords) : Prop := k0_cond3 i = 1#1

/-- Point `t` is (t / 4, t % 4): the first tile is t % 4 = 0, -/
theorem hcond1 : ∀ t : Fin cfg0.N, cond1 (grid0.coords t) ↔ t.val % 4 = 0 :=
  (by decide +kernel : ∀ t : Fin grid0.N, cond1 (grid0.coords t) ↔ t.val % 4 = 0)
/-- the tile meets the diagonal when the row block's tile number (t / 4) / 4 is the tile t % 4, -/
theorem hcond2 : ∀ t : Fin cfg0.N, cond2 (grid0.coords t) ↔ t.val / 4 / 4 = t.val % 4 :=
  (by decide +kernel : ∀ t : Fin grid0.N, cond2 (grid0.coords t) ↔ t.val / 4 / 4 = t.val % 4)
/-- and the last tile is t % 4 = 3. -/
theorem hcond3 : ∀ t : Fin cfg0.N, cond3 (grid0.coords t) ↔ t.val % 4 = 3 :=
  (by decide +kernel : ∀ t : Fin grid0.N, cond3 (grid0.coords t) ↔ t.val % 4 = 3)

/-! ## One grid step, and the running sum after every point -/

/-- The running sum after the body at grid coordinates `i`, from the staged row block `x0`, the staged column tile
    `x1` and the running sum `a` before: zeroed first if this is the first tile, the tile's row sums added, the diagonal
    terms subtracted if the tile meets the diagonal. -/
def accNew (i : grid0.Coords) (x0 : Vec F S512x256 .bf16) (x1 : Vec F S2048x256 .bf16) (a : Vec F S512x1 .f32) : Vec F S512x1 .f32 :=
  if cond2 i then k0_pay4 i x0 x1 (k0_pay3 x0 x1 (if cond1 i then k0_pay1 (F := F) else a))
  else k0_pay3 x0 x1 (if cond1 i then k0_pay1 (F := F) else a)

/-- In a first tile the running sum before does not matter. -/
theorem accNew_first (i : grid0.Coords) (h : cond1 i) (x0 : Vec F S512x256 .bf16) (x1 : Vec F S2048x256 .bf16) (a a' : Vec F S512x1 .f32) :
    accNew i x0 x1 a = accNew i x0 x1 a' := by
  unfold accNew; rw [if_pos h, if_pos h]

/-- The running sum after point `n`. -/
def accAt (c : Dev nD) : (n : ℕ) → n < cfg0.N → Vec F S512x1 .f32
  | 0, hn => accNew (grid0.coords ⟨0, hn⟩) (iblk m c 0 ⟨0, hn⟩) (iblk m c 1 ⟨0, hn⟩) (k0_pay1 (F := F))
  | n + 1, hn => accNew (grid0.coords ⟨n + 1, hn⟩) (iblk m c 0 ⟨n + 1, hn⟩) (iblk m c 1 ⟨n + 1, hn⟩) (accAt c n (Nat.lt_of_succ_lt hn))

theorem accAt_zero (c : Dev nD) (hn : 0 < cfg0.N) :
    accAt m c 0 hn = accNew (grid0.coords ⟨0, hn⟩) (iblk m c 0 ⟨0, hn⟩) (iblk m c 1 ⟨0, hn⟩) (k0_pay1 (F := F)) := rfl

theorem accAt_succ (c : Dev nD) (n : ℕ) (hn : n + 1 < cfg0.N) :
    accAt m c (n + 1) hn = accNew (grid0.coords ⟨n + 1, hn⟩) (iblk m c 0 ⟨n + 1, hn⟩) (iblk m c 1 ⟨n + 1, hn⟩) (accAt m c n (Nat.lt_of_succ_lt hn)) := rfl

/-- At a point that is not the first, the running sum is one step from the point before. -/
theorem accAt_pos (c : Dev nD) (t : Fin cfg0.N) (hz : t.val ≠ 0) :
    accAt m c t.val t.isLt = accNew (grid0.coords t) (iblk m c 0 t) (iblk m c 1 t) (accAt m c (t.val - 1) (Nat.lt_of_le_of_lt (Nat.sub_le _ _) t.isLt)) := by
  obtain ⟨n, hn⟩ := t
  cases n with
  | zero => exact absurd rfl hz
  | succ n => rfl

/-! ## The scratch buffer and the invariant -/

/-- The scratch operand: a whole scoped buffer of the kernel's own. -/
abbrev scM : Memref sig .tc .vmem S512x1 .f32 := Memref.whole cc0_scratch0

/-- The class's invariant with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The region invariant before position `n`: before the first point the scratch at anything; afterwards the scratch
    at the running sum the point before left; the generator register at some state throughout. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-! ## The pipeline's proof data -/

/-- The proof data on core `c`: the arrays as the region finds them; after the body each input's buffer at its block
    and the output's at the running sum; the invariant above; nothing owed; the one array the two input windows share
    held by halves, the output's outright. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => accAt m c t.val t.isLt
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = accAt m c t.val t.isLt := by dsimp only [dats]

end Cert.Kernel.Frm

end
-- ==== Proof.BBody.lean ====
/-
  The body of the tiled row-sum kernel as one triple. Every store of the body covers a whole 512 × 1 buffer, so what
  a buffer holds after a run of stores is the last store's payload, and a load after a store reads that payload; with
  these two facts the symbolic run of the body, in each of the eight cases of its three conditions, ends with the
  scratch at one step of the running sum and the output's buffer at the same sum exactly when the tile is the last.
-/
import proofs.«159884_j32023276159237_2_alg».proof.Proof.BData
import Idealize.ShloMosaic.Lib.Pipeline.Value

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Reading back whole-buffer stores -/

theorem zeroOff : (![0, 0] : Fin 2 → Nat) = fun _ => 0 := by
  funext a; match a with | ⟨0, _⟩ => rfl | ⟨1, _⟩ => rfl

/-- After a run of stores whose LAST covers the whole 512 × 1 buffer, the buffer reads that store's payload. -/
theorem read_writes_head {sp : Space} (v : View sig .tc sp S512x1 .f32) (f : v.ty.Contents (Elt F))
    (w : Vec F S512x1 .f32) (L : List (View.Piece (Elt F) S512x1 .f32)) :
    v.read (Elt F) (v.writes (Elt F) f ((⟨Rect.unit (s := S512x1) ![0, 0] S512x1.size inb_S512x1_S512x1_0_0, w⟩ : View.Piece (Elt F) S512x1 .f32) :: L)) = w := by
  rw [View.read_writes_eq_canon _ _ _ (fun y => ⟨_, List.mem_cons_self, View.mem_set_unit_zero zeroOff inb_S512x1_S512x1_0_0 y⟩),
    View.canon_cons_unit_zero zeroOff]

/-- A load of the whole buffer after such a run reads that payload too. -/
theorem readCov_head {sp : Space} (v : View sig .tc sp S512x1 .f32)
    (w : Vec F S512x1 .f32) (L : List (View.Piece (Elt F) S512x1 .f32)) :
    v.readCov ((⟨Rect.unit (s := S512x1) ![0, 0] S512x1.size inb_S512x1_S512x1_0_0, w⟩ : View.Piece (Elt F) S512x1 .f32) :: L)
      (Rect.unit (s := S512x1) ![0, 0] S512x1.size inb_S512x1_S512x1_0_0).toLoadRect = w := by
  rw [View.readCov_eq_canon_ld _ _ _ (fun y => ⟨_, List.mem_cons_self, View.mem_set_unit_zero zeroOff inb_S512x1_S512x1_0_0 y⟩),
    View.canon_cons_unit_zero zeroOff, View.ld_unit_zero zeroOff]

/-- A load of a whole buffer nothing was stored into reads its contents. -/
theorem readAt_whole {sp : Space} {S : Shape} {e : EltTy} {mr : Memref sig .tc sp S e} (h : mr.IsWhole) (X : S.Idx → Elt F e)
    {off : Fin S.rank → Nat} (hoff : off = fun _ => 0) (inb : ∀ a, off a + S.size a ≤ S.size a) :
    mr.view.readAt (Elt F) (Rect.unit (s := S) off S.size inb).toLoadRect (h.unread X) = X := by
  rw [View.readAt_eq_ld, h.read_unread, View.ld_unit_zero hoff]

/-! ## The body's triple -/

set_option maxHeartbeats 16000000 in
/-- The body at grid coordinates `i` on any whole memrefs: from the row block `x0`, the column tile `x1`, the output's
    buffer at `d` and the scratch at `a`, it runs to the inputs as they were, the scratch at one step from `a`, and the
    output's buffer at that same running sum if this is the last tile, untouched otherwise. -/
theorem kernelRun (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512x1 .f32) (harg4 : arg4.IsWhole) (arg5 : Memref sig .tc .vmem S512x1 .f32) (harg5 : arg5.IsWhole)
    (x0 : Vec F S512x256 .bf16) (x1 : Vec F S2048x256 .bf16) (d : Vec F S512x1 .f32) (a : Vec F S512x1 .f32)
    (E : Set ℕ) (K : PUnit → sProp 𝕄) :
    iprop(owns (c : Thread nD τ) arg2 fullShare x0 ∗ owns (c : Thread nD τ) arg3 fullShare x1 ∗ owns (c : Thread nD τ) arg4 fullShare d ∗ owns (c : Thread nD τ) arg5 fullShare a
        ∗ (iprop(owns (c : Thread nD τ) arg2 fullShare x0 ∗ owns (c : Thread nD τ) arg3 fullShare x1
            ∗ owns (c : Thread nD τ) arg4 fullShare (if cond3 i then accNew i x0 x1 a else d) ∗ owns (c : Thread nD τ) arg5 fullShare (accNew i x0 x1 a)) -∗ K ⟨⟩))
      ⊢ wp frame (wpE (defs₀ (F := F)) Variants.none c none) E (cc0__denom_kernel i arg2 harg2 arg3 harg3 arg4 harg4 arg5 harg5) K := by
  have hz256 : (![0, 0] : Fin 2 → Nat) = fun _ => 0 := zeroOff
  by_cases h1 : cond1 i <;> by_cases h2 : cond2 i <;> by_cases h3 : cond3 i
  all_goals
    simp only [cc0__denom_kernel_eq_skeleton]; unfold cc0__denom_kernel_skel
    unfold owns
    iintro ⟨⟨%f0, %hf0, H0⟩, ⟨%f1, %hf1, H1⟩, ⟨%f4, %hf4, H4⟩, ⟨%f5, %hf5, H5⟩, Hk⟩
    obtain rfl := harg2.eq_unread hf0; obtain rfl := harg3.eq_unread hf1; obtain rfl := harg4.eq_unread hf4; obtain rfl := harg5.eq_unread hf5
    sl_exec (disch := first | exact h1 | exact h2 | exact h3)
    sl_step
    iapply Hk
    isplitl [H0]
    · iexists _; isplitr; · ipureintro; exact hf0
      iexact H0
    isplitl [H1]
    · iexists _; isplitr; · ipureintro; exact hf1
      iexact H1
    isplitl [H4]
    · iexists _; isplitr; swap; · iexact H4
      ipureintro
      first
        | (rw [if_neg h3]; exact hf4)
        | (rw [if_pos h3]; sl_unfold_words; unfold accNew
           (first | rw [if_pos h2] | rw [if_neg h2]); (first | rw [if_pos h1] | rw [if_neg h1])
           rw [read_writes_head]
           repeat (rw [readCov_head])
           simp only [readAt_whole harg2 x0 hz256, readAt_whole harg3 x1 hz256, readAt_whole harg5 a hz256])
    · iexists _; isplitr; swap; · iexact H5
      ipureintro
      sl_unfold_words; unfold accNew
      (first | rw [if_pos h2] | rw [if_neg h2]); (first | rw [if_pos h1] | rw [if_neg h1])
      rw [read_writes_head]
      repeat (rw [readCov_head])
      simp only [readAt_whole harg2 x0 hz256, readAt_whole harg3 x1 hz256, readAt_whole harg5 a hz256]

end Cert.Kernel.Frm

end
-- ==== Proof.BOblig.lean ====
/-
  The body obligation of the tiled row-sum kernel: at every grid point, handed the two staged blocks, the output's
  buffer and the invariant, the body runs to the invariant at the next point with the running sum advanced one step
  (the body's triple), the output's buffer at the running sum when the point is a last tile and untouched otherwise.
-/
import proofs.«159884_j32023276159237_2_alg».proof.Proof.BBody

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the windows are idle and when the output is written back -/

theorem liveAt0 : ∀ t : Fin cfg0.N, cfg0.idle 0 (grid0.coords t) = false := fun _ => rfl
theorem liveAt1 : ∀ t : Fin cfg0.N, cfg0.idle 1 (grid0.coords t) = false := fun _ => rfl
/-- At a last tile the output window is live: the body stores the running sum into it. -/
theorem liveAt2 : ∀ t : Fin cfg0.N, cond3 (grid0.coords t) → cfg0.idle 2 (grid0.coords t) = false := by decide +kernel
/-- Elsewhere it is idle: the body stores nothing into it, -/
theorem idleAt2 : ∀ t : Fin cfg0.N, ¬cond3 (grid0.coords t) → cfg0.idle 2 (grid0.coords t) = true := by decide +kernel
/-- and the pipeline does not write its block back there. -/
theorem noFlush2 : ∀ t : Fin cfg0.N, ¬cond3 (grid0.coords t) → (cfg0.win 2).flush t = false := by decide +kernel

/-! ## What the body finds in the input windows -/

/-- Each input's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)

theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)

/-! ## The obligation at a generic point -/

/-- Each window's current staging memref at point `t`, as the pipeline passes it, and its wholeness. -/
abbrev ms0 (t : Fin cfg0.N) : Memref sig .tc .vmem S512x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .f32 := win0_2.stage (cfg0.slots t 2)
abbrev hs2 (t : Fin cfg0.N) : (ms2 t).IsWhole := hstage0_2 ((cfg0.slots t 2).cast nbuf0_2)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point. The inputs' memrefs hold their blocks; the invariant hands the body the scratch at the running
    sum the point before left (at anything at the first point, where the body zeroes it first) and takes it back one
    step on; at a last tile the output's buffer comes back at that running sum, elsewhere as it was handed over. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [liveAt0 t], after0_0]
  rw [show (dats m 0 c).leavesExact 1 t = owns (c : Thread nD τ) (ms1 t) fullShare ((dats m 0 c).after 1 t) from by
    unfold Dat.leavesExact; rw [liveAt1 t], after0_1]
  have hN : t.val < 64 := lt_of_lt_of_eq t.isLt (show cfg0.N = 64 from N_0)
  by_cases h3 : cond3 (grid0.coords t)
  · -- a last tile: not the first point; the output is live
    have hz : t.val ≠ 0 := fun h => by have := (hcond3 t).mp h3; omega
    rw [show (dats m 0 c).leavesExact 2 t = owns (c : Thread nD τ) (ms2 t) fullShare ((dats m 0 c).after 2 t) from by
      unfold Dat.leavesExact; rw [liveAt2 t h3], after0_2]
    rw [accAt_pos m c t hz, PhiS_castSucc m c t, PhiS_pos m c _ _ hz]
    iintro ⟨⟨HS, Hg⟩, Ho, ⟨%d0, H0⟩, ⟨%d1, H1⟩, ⟨%d2, H2⟩⟩
    iapply (kernelRun c (grid0.coords t) (ms0 t) (hs0 t) (ms1 t) (hs1 t) (ms2 t) (hs2 t) scM (Memref.isWhole_whole _) (iblk m c 0 t) (iblk m c 1 t) _ _ Set.univ _)
    isplitl [H0]; · iexact H0
    isplitl [H1]; · iexact H1
    isplitl [H2]; · iexact H2
    isplitl [HS]; · iexact HS
    rw [if_pos h3]
    iintro ⟨H0, H1, H2, HS⟩
    isplitl [HS Hg]
    · isplitl [HS]; · iexact HS
      iexact Hg
    isplitl [Ho]; · iexact Ho
    isplitl [H0]; · iexact H0
    isplitl [H1]; · iexact H1
    iexact H2
  · -- not a last tile: the output is idle and not written back
    rw [Dat.leavesExact_idle (dats m 0 c) 2 t (idleAt2 t h3) (noFlush2 t h3)]
    by_cases hz : t.val = 0
    · -- the first point: the scratch holds anything, and the body zeroes it before use
      have h1 : cond1 (grid0.coords t) := (hcond1 t).mpr (by rw [hz])
      have e0 : accAt m c t.val t.isLt = accNew (grid0.coords t) (iblk m c 0 t) (iblk m c 1 t) (k0_pay1 (F := F)) := by
        obtain ⟨n, hn⟩ := t
        have hn0 : n = 0 := hz
        subst hn0; rfl
      rw [e0, PhiS_castSucc m c t, PhiS_zero m c _ _ hz, PhiA_eq]
      iintro ⟨⟨⟨%a0, HS⟩, Hg⟩, Ho, ⟨%d0, H0⟩, ⟨%d1, H1⟩, ⟨%d2, H2⟩⟩
      rw [accNew_first (grid0.coords t) h1 (iblk m c 0 t) (iblk m c 1 t) (k0_pay1 (F := F)) a0]
      iapply (kernelRun c (grid0.coords t) (ms0 t) (hs0 t) (ms1 t) (hs1 t) (ms2 t) (hs2 t) scM (Memref.isWhole_whole _) (iblk m c 0 t) (iblk m c 1 t) _ _ Set.univ _)
      isplitl [H0]; · iexact H0
      isplitl [H1]; · iexact H1
      isplitl [H2]; · iexact H2
      isplitl [HS]; · iexact HS
      rw [if_neg h3]
      iintro ⟨H0, H1, H2, HS⟩
      isplitl [HS Hg]
      · isplitl [HS]; · iexact HS
        iexact Hg
      isplitl [Ho]; · iexact Ho
      isplitl [H0]; · iexact H0
      isplitl [H1]; · iexact H1
      iexists _; iexact H2
    · rw [accAt_pos m c t hz, PhiS_castSucc m c t, PhiS_pos m c _ _ hz]
      iintro ⟨⟨HS, Hg⟩, Ho, ⟨%d0, H0⟩, ⟨%d1, H1⟩, ⟨%d2, H2⟩⟩
      iapply (kernelRun c (grid0.coords t) (ms0 t) (hs0 t) (ms1 t) (hs1 t) (ms2 t) (hs2 t) scM (Memref.isWhole_whole _) (iblk m c 0 t) (iblk m c 1 t) _ _ Set.univ _)
      isplitl [H0]; · iexact H0
      isplitl [H1]; · iexact H1
      isplitl [H2]; · iexact H2
      isplitl [HS]; · iexact HS
      rw [if_neg h3]
      iintro ⟨H0, H1, H2, HS⟩
      isplitl [HS Hg]
      · isplitl [HS]; · iexact HS
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the running sum's name is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

end Cert.Kernel.Frm

end
-- ==== Proof.BArr.lean ====
/-
  The arrays the region is handed, two ways of holding them.

  The launch hands the region the DISTINCT buffers behind the windows' arrays, each whole at the full share: here the two
  buffers `main_v14` and `main_v15`.  The pipeline holds one points-to per WINDOW: windows 0 and 1 are input windows on
  the same array `main_v14`, held at the left and the right half of the full share, and window 2 is the output window on
  `main_v15`, held at the full share.  A points-to at the full share is the two points-tos at its left and right halves
  (same element set, same contents), so the two ways of holding the arrays are interchangeable.
-/
import proofs.«159884_j32023276159237_2_alg».proof.Proof.BData

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows' arrays are the two buffers `main_v14` and `main_v15`. -/
theorem image_arrRef : Finset.univ.image (Pipeline.arrRef spec0) = {main_v14, main_v15} := by decide

/-! ## The shares: an input window holds its own, the output window the full share -/

theorem share0 (c : Dev nD) : (dats m 0 c).share 0 = fullShare.left := rfl
theorem share1 (c : Dev nD) : (dats m 0 c).share 1 = fullShare.right := rfl
theorem share2 (c : Dev nD) : (dats m 0 c).share 2 = fullShare := rfl

/-! ## Each window's points-to, over the buffer behind it -/

section
variable (c : Dev nD) (W : (b : Ref sig .tc) → Buf (Elt F) ((c : Thread nD τ).loc b))

/-- The distinct buffers behind the windows' arrays: `main_v14` and `main_v15`, each whole at the full share. -/
theorem arrBufs_eq :
    (Pipeline.arrBufs spec0 c W : sProp 𝕄)
      = iprop(((c.tc : Thread nD τ).loc main_v14 ↦{fullShare} W main_v14) ∗ ((c.tc : Thread nD τ).loc main_v15 ↦{fullShare} W main_v15)) := by
  unfold Pipeline.arrBufs
  rw [image_arrRef, bigSep_insert (by decide), bigSep_singleton] <;> rfl

variable (Fw : (w : Fin cfg0.W) → Buf (Elt F) ((cfg0.win w).arr.view.loc (c.tc : Thread nD τ)))
  (hF : ∀ w, Fw w = W (Pipeline.arrRef spec0 w))
include hF

/-- Window 0 holds all of `main_v14` at the left half of the full share. -/
theorem win0_pt :
    ((cfg0.win 0).arr.view.loc (c.tc : Thread nD τ) ↦[(cfg0.win 0).arr.view.set]{(dats m 0 c).share 0} Fw 0 : sProp 𝕄)
      = ((c.tc : Thread nD τ).loc main_v14 ↦{fullShare.left} W main_v14) := by
  rw [(arr_whole0 0).set_eq_univ, share0, hF 0]

/-- Window 1 holds all of `main_v14` at the right half of the full share. -/
theorem win1_pt :
    ((cfg0.win 1).arr.view.loc (c.tc : Thread nD τ) ↦[(cfg0.win 1).arr.view.set]{(dats m 0 c).share 1} Fw 1 : sProp 𝕄)
      = ((c.tc : Thread nD τ).loc main_v14 ↦{fullShare.right} W main_v14) := by
  rw [(arr_whole0 1).set_eq_univ, share1, hF 1]

/-- Window 2 holds all of `main_v15` at the full share. -/
theorem win2_pt :
    ((cfg0.win 2).arr.view.loc (c.tc : Thread nD τ) ↦[(cfg0.win 2).arr.view.set]{(dats m 0 c).share 2} Fw 2 : sProp 𝕄)
      = ((c.tc : Thread nD τ).loc main_v15 ↦{fullShare} W main_v15) := by
  rw [(arr_whole0 2).set_eq_univ, share2, hF 2]

/-- The three windows' points-tos: the two halves of `main_v14` and all of `main_v15`. -/
theorem arrays_eq3 :
    ((dats m 0 c).arrays Fw : sProp 𝕄)
      = iprop(((c.tc : Thread nD τ).loc main_v14 ↦{fullShare.left} W main_v14)
          ∗ ((c.tc : Thread nD τ).loc main_v14 ↦{fullShare.right} W main_v14)
          ∗ ((c.tc : Thread nD τ).loc main_v15 ↦{fullShare} W main_v15)) := by
  unfold Dat.arrays
  rw [bigSep_W0, win0_pt m c W Fw hF, win1_pt m c W Fw hF, win2_pt m c W Fw hF] <;> rfl

/-- From the two buffers whole to the three windows: `main_v14` is split into its two halves. -/
theorem arrays_of_bufs : (Pipeline.arrBufs spec0 c W : sProp 𝕄) ⊢ (dats m 0 c).arrays Fw := by
  rw [arrBufs_eq c W, arrays_eq3 m c W Fw hF]
  iintro ⟨HA, HB⟩
  ihave HA := (pointsTo_share (PosShare.mem_left_op_right fullShare)).1 $$ HA
  icases HA with ⟨HA₁, HA₂⟩
  isplitl [HA₁]; · iexact HA₁
  isplitl [HA₂]; · iexact HA₂
  iexact HB

/-- From the three windows back to the two buffers whole: the two halves of `main_v14` are rejoined. -/
theorem bufs_of_arrays : (dats m 0 c).arrays Fw ⊢ (Pipeline.arrBufs spec0 c W : sProp 𝕄) := by
  rw [arrBufs_eq c W, arrays_eq3 m c W Fw hF]
  iintro ⟨HA₁, HA₂, HB⟩
  ihave HA := (pointsTo_share (PosShare.mem_left_op_right fullShare)).2 $$ [HA₁ HA₂]
  · isplitl [HA₁]; · iexact HA₁
    iexact HA₂
  isplitl [HA]; · iexact HA
  iexact HB

end

end Cert.Kernel.Frm

end
-- ==== Proof.Spec.lean ====
/-
  The contrastive loss both programs compute, written twice over the extended reals, once in the arrangement of each
  program, as plain functions of the two argument arrays that matter (the third argument is read by neither result).

  Rows of `query` and `pos` are divided by their Euclidean norm clipped below at a small constant, and stacked into
  one array `z` of 8192 rows.  With `sim r c = ∑ k, z r k * z c k`:
    • one arrangement sums `exp (sim r c * 2)` over the columns in four tiles of 2048, and in the one tile that meets
      the diagonal subtracts the diagonal term, selected by comparing row and column numbers; the positive pair of row
      `r` is the inner product of the normalised `query` and `pos` rows numbered `r mod 4096`;
    • the other multiplies `exp (sim r c / (1/2))` by `1 - [r = c]` and sums over all 8192 columns; the positive pair of
      row `r` is the entry of `sim` 4096 places off the diagonal.
  Both end with the mean over the 8192 rows of `-(positive / (1/2) - log denominator)`.
-/
import Idealize.ShloMosaic.PureOps.Ideal
import Idealize.ShloMosaic.Lib.ValueIdx

noncomputable section

open scoped BigOperators

namespace Cert.Loss

open Idealize.ShloMosaic Idealize.ShloMosaic.ValueIdx

/-- An argument array: 4096 rows of 256 extended reals. -/
abbrev Arr : Type := (⟨2, ![4096, 256]⟩ : Shape).Idx → EReal

/-- The float words the programs name, as the extended reals they denote. -/
def zero : EReal := Ideal.ofBits .f32 0x00000000#32
def eps : EReal := Ideal.ofBits .f32 0x2B8CBCCC#32
def two : EReal := Ideal.ofBits .f32 0x40000000#32
def half : EReal := Ideal.ofBits .f32 0x3F000000#32
def one : EReal := Ideal.ofBits .f32 0x3F800000#32
def count : EReal := Ideal.ofBits .f32 0x46000000#32

/-- The clipped Euclidean norm of row `r`. -/
def nrm (x : Arr) (r : Fin 4096) : EReal :=
  max (Ideal.sqrt (zero + ∑ k : Fin 256, x (ix2 r k) * x (ix2 r k))) eps

/-- Row `r` divided by its clipped norm. -/
def unit (x : Arr) (r : Fin 4096) (k : Fin 256) : EReal := Ideal.div (x (ix2 r k)) (nrm x r)

/-- The stacked array: the normalised rows of `q`, then those of `p`. -/
def z (q p : Arr) (r : Fin 8192) (k : Fin 256) : EReal :=
  if h : r.val < 4096 then unit q ⟨r.val, h⟩ k else unit p ⟨r.val - 4096, by omega⟩ k

/-- The inner product of rows `r` and `c` of the stacked array. -/
def sim (q p : Arr) (r c : Fin 8192) : EReal := ∑ k : Fin 256, z q p r k * z q p c k

/-! ## The tiled arrangement -/

/-- Column `c` of tile `j`. -/
def col (j : Fin 4) (c : Fin 2048) : Fin 8192 := ⟨2048 * j.val + c.val, by omega⟩

/-- One entry of the exponentiated, doubled similarity. -/
def expK (q p : Arr) (r c : Fin 8192) : EReal := Ideal.exp (sim q p r c * two)

/-- Row `r`'s sum over tile `j`. -/
def partK (q p : Arr) (r : Fin 8192) (j : Fin 4) : EReal := ∑ c : Fin 2048, expK q p r (col j c)

/-- Row `r`'s diagonal term as tile `j` selects it: the entries whose column number equals the row number, zero elsewhere. -/
def diagK (q p : Arr) (r : Fin 8192) (j : Fin 4) : EReal :=
  ∑ c : Fin 2048, if r.val = (col j c).val then expK q p r (col j c) else zero

/-- One tile's step of the running sum: add the tile's sum; in the tile that meets the diagonal subtract the diagonal term. -/
def stepK (q p : Arr) (r : Fin 8192) (a : EReal) (j : Fin 4) : EReal :=
  if r.val / 2048 = j.val then (a + partK q p r j) - diagK q p r j else a + partK q p r j

/-- The denominator of row `r`: the four steps from zero. -/
def denomK (q p : Arr) (r : Fin 8192) : EReal :=
  stepK q p r (stepK q p r (stepK q p r (stepK q p r zero 0) 1) 2) 3

/-- The positive pair of row `r`. -/
def posK (q p : Arr) (r : Fin 8192) : EReal :=
  zero + ∑ k : Fin 256, unit q ⟨r.val % 4096, Nat.mod_lt _ (by norm_num)⟩ k * unit p ⟨r.val % 4096, Nat.mod_lt _ (by norm_num)⟩ k

/-- The loss in the tiled arrangement. -/
def lossK (q p : Arr) : EReal :=
  Ideal.div (zero + ∑ r : Fin 8192, -(Ideal.div (posK q p r) half - Ideal.log (denomK q p r))) count

/-! ## The masked arrangement -/

/-- The positive pair of row `r`: the entry of `sim` 4096 places off the diagonal. -/
def posR (q p : Arr) (r : Fin 8192) : EReal :=
  if h : r.val < 4096 then sim q p r ⟨r.val + 4096, by omega⟩ else sim q p r ⟨r.val - 4096, by omega⟩

/-- One off the diagonal, zero on it. -/
def maskR (r c : Fin 8192) : EReal := one - (if r = c then (1 : EReal) else 0)

/-- The denominator of row `r`. -/
def denomR (q p : Arr) (r : Fin 8192) : EReal :=
  zero + ∑ c : Fin 8192, maskR r c * Ideal.exp (Ideal.div (sim q p r c) half)

/-- The loss in the masked arrangement. -/
def lossR (q p : Arr) : EReal :=
  Ideal.div (zero + ∑ r : Fin 8192, -(Ideal.div (posR q p r) half - Ideal.log (denomR q p r))) count

end Cert.Loss

end
-- ==== Proof.BHostTail.lean ====
/-
  The host operations after the region, read at the result.  From the region's output column D (8192 × 1) and the
  array Pz of positive pairs (8192 entries), the eleven operations compute the mean over the 8192 rows r of
  -(Pz r / (1/2) - log (D r)): the column is reshaped to a row, the positive pairs are divided by the broadcast
  constant one half, the logarithm is subtracted, the difference negated, all 8192 entries added up from zero, and the
  total divided by the constant 8192.
-/
import proofs.«159884_j32023276159237_2_alg».proof.Proof.BData
import proofs.«159884_j32023276159237_2_alg».proof.Proof.Spec
import Idealize.ShloMosaic.Lib.IdealHost
import Idealize.ShloMosaic.Lib.Pipeline.Value
import Idealize.ShloMosaic.Lib.StableHlo.Run

set_option maxRecDepth 16384

noncomputable section

open scoped BigOperators

namespace Cert.Kernel.HostTail

open Cert.Kernel Cert.Kernel.Gen
open Idealize.ShloMosaic Idealize.ShloMosaic.ValueIdx Idealize.ShloMosaic.StableHlo

/-- A rank-1 index set is its one coordinate's range, so a sum over it is the sum over the coordinate. -/
theorem sum_idx1 {M : Type*} [AddCommMonoid M] {n : Nat} (f : (⟨1, ![n]⟩ : Shape).Idx → M) :
    ∑ i, f i = ∑ a : Fin n, f (ix1 a) :=
  (Equiv.sum_comp (⟨fun a => ix1 a, fun i => i 0, fun _ => rfl, fun i => (eq_ix1 i).symm⟩ : Fin n ≃ (⟨1, ![n]⟩ : Shape).Idx) f).symm

/-- The column [8192, 1] reshaped to [8192] reads, at r, the column's entry of row r. -/
theorem reshape_col_apply {α : Type} (x : S8192x1.Idx → α) (h : S8192x1.ShapeCasts S8192) (r : Fin 8192) :
    shapeCast S8192 x h (ix1 r) = x (ix2 r 0) :=
  shapeCast_apply x h (ix1 r) (ix2 r 0) (by
    rw [Shape.rowMajor_val_two, Shape.rowMajor_val_one]
    show r.val * 1 + 0 = r.val
    omega)

/-- The result of the host operations after the region, from any valuation whose output column is D and whose array
    of positive pairs is Pz: the mean over the rows of -(Pz r / (1/2) - log (D r)). -/
theorem tail_value (W : Valuation τ sig (Elt Ideal)) (D : S8192x1.Idx → EReal) (Pz : S8192.Idx → EReal)
    (hD : W (Proc.devRef .tc main_v15) = D) (hP : W (Proc.devRef .tc main_v12) = Pz) :
    StableHlo.after (hostOps1 (F := Ideal)) W (Proc.devRef .tc main_v23)
      = fun _ => Ideal.div (Cert.Loss.zero + ∑ r : Fin 8192, -(Ideal.div (Pz (ix1 r)) Cert.Loss.half - Ideal.log (D (ix2 r 0)))) Cert.Loss.count := by
  subst hD hP
  show StableHlo.after hostOps1 W (Proc.devRef .tc main_v23) = _
  after_results
  funext j
  rw [hostDivf_apply, hostReduceAdd_apply, Ideal.hostReduceAdd_total _ (fun b => b.elim0), sum_idx1]
  refine congrArg₂ Ideal.div (congrArg₂ (· + ·) rfl (Finset.sum_congr rfl fun r _ => ?_)) rfl
  show -(Ideal.div (W (Proc.devRef .tc main_v12) (ix1 r)) _
      - Ideal.log (shapeCast S8192 (W (Proc.devRef .tc main_v15)) shapeCasts_S8192x1_S8192 (ix1 r))) = _
  rw [reshape_col_apply]
  rfl

/-! ## What the operations after the region leave alone -/

section Keeps

variable {F : FTy → Type} [FloatOps F]

/-- The operations after the region write only their own eleven results. -/
theorem tail_not_written (b : Ref sig .tc)
    (hb : b ≠ main_v16 ∧ b ≠ main_cst_2 ∧ b ≠ main_v17 ∧ b ≠ main_v18 ∧ b ≠ main_v19 ∧ b ≠ main_v20 ∧ b ≠ main_v21
      ∧ b ≠ main_cst_3 ∧ b ≠ main_v22 ∧ b ≠ main_cst_4 ∧ b ≠ main_v23) :
    ∀ op ∈ (hostOps1 (F := F)), Proc.devRef .tc b ∉ op.writes := by
  obtain ⟨h0, h1, h2, h3, h4, h5, h6, h7, h8, h9, h10⟩ := hb
  intro op hop
  simp only [List.mem_cons, List.mem_nil_iff, or_false] at hop
  rcases hop with rfl | rfl | rfl | rfl | rfl | rfl | rfl | rfl | rfl | rfl | rfl <;>
    simp only [StableHlo.unary_writes, StableHlo.binary_writes, StableHlo.nullary_writes, StableHlo.reshape_writes,
      Finset.mem_singleton] <;>
    exact StableHlo.devRef_ne_of_ne ‹_›

/-- So any other buffer holds after them what it held before. -/
theorem tail_keeps (W : Valuation τ sig (Elt F)) (b : Ref sig .tc)
    (hb : b ≠ main_v16 ∧ b ≠ main_cst_2 ∧ b ≠ main_v17 ∧ b ≠ main_v18 ∧ b ≠ main_v19 ∧ b ≠ main_v20 ∧ b ≠ main_v21
      ∧ b ≠ main_cst_3 ∧ b ≠ main_v22 ∧ b ≠ main_cst_4 ∧ b ≠ main_v23) :
    StableHlo.after (hostOps1 (F := F)) W (Proc.devRef .tc b) = W (Proc.devRef .tc b) :=
  StableHlo.after_of_forall_not_mem (b := Proc.devRef .tc b) hostOps1 W (tail_not_written b hb)

/-- In particular the three arguments. -/
theorem tail_keeps_arg0 (W : Valuation τ sig (Elt F)) :
    StableHlo.after (hostOps1 (F := F)) W (Proc.devRef .tc main_arg0) = W (Proc.devRef .tc main_arg0) :=
  tail_keeps W main_arg0 (by decide)
theorem tail_keeps_arg1 (W : Valuation τ sig (Elt F)) :
    StableHlo.after (hostOps1 (F := F)) W (Proc.devRef .tc main_arg1) = W (Proc.devRef .tc main_arg1) :=
  tail_keeps W main_arg1 (by decide)
theorem tail_keeps_arg2 (W : Valuation τ sig (Elt F)) :
    StableHlo.after (hostOps1 (F := F)) W (Proc.devRef .tc main_arg2) = W (Proc.devRef .tc main_arg2) :=
  tail_keeps W main_arg2 (by decide)

end Keeps

end Cert.Kernel.HostTail

end
-- ==== Proof.BLaunch.lean ====
/-
  The run of the whole program around the tiled row-sum region. The host operations before the region compute the
  stacked normalised array; the region reads that ONE array through two windows (row blocks and column tiles) and
  writes the denominators; the host operations after it reduce them to the loss. Because two windows read one array,
  its buffer is lent to them by halves at the region's entry and the halves are joined again at its exit; everything
  else is the library's launch of one region followed by host operations.
-/
import proofs.«159884_j32023276159237_2_alg».proof.Proof.BOblig
import proofs.«159884_j32023276159237_2_alg».proof.Proof.BArr
import proofs.«159884_j32023276159237_2_alg».proof.Proof.BHostTail

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem preOps_fresh : (preOps (F := F)).Forall fun ops => ops.Forall fun op => op.fresh = ∅ := by
  simp only [List.Forall]; repeat' constructor

theorem hostOps1_fresh : (hostOps1 : List (HloOp τ sig (Elt F))).Forall fun op => op.fresh = ∅ := by
  simp only [List.Forall]; repeat' constructor

/-- @main is the four host stretches, the region, then the last host stretch. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main preOps [hostOps1] ⟨hostOps0_sub, hostOps0_1_sub, hostOps0_2_sub, hostOps0_3_sub⟩
    preOps_fresh main_chain

/-! ## The buffers when the region is left, and at the end -/

/-- Core `c`'s buffers when the region is left: the output array at what the write-backs made of it, every other
    buffer as the region found it. -/
def Wx (c : Dev nD) : Valuation τ sig (Elt F) :=
  Function.update (V0 m c) (Proc.devRef .tc main_v15) ((dats m 0 c).arrAt 2 cfg0.N)

/-- And at the end: after the last host stretch. -/
def Wend (c : Dev nD) : Valuation τ sig (Elt F) := StableHlo.after ([hostOps1 (F := F)] : List (List (HloOp τ sig (Elt F)))).flatten (Wx m c)

theorem Wend_eq (c : Dev nD) : Wend m c = StableHlo.after (hostOps1 (F := F)) (Wx m c) := by
  unfold Wend; simp only [List.flatten_cons, List.flatten_nil, List.append_nil]

theorem Wx_out (c : Dev nD) : Wx m c (Proc.devRef .tc main_v15) = (dats m 0 c).arrAt 2 cfg0.N := by
  unfold Wx; exact Function.update_self _ _ _

theorem Wx_of_ne (c : Dev nD) (b : Ref sig .tc) (hb : b ≠ main_v15) : Wx m c (Proc.devRef .tc b) = V m c b := by
  unfold Wx; exact Function.update_of_ne (fun e => hb (Proc.devRef_injective _ e)) _ _

/-- Every window's array when the region is entered is what the host operations before it left. -/
theorem arrAt_zero (c : Dev nD) (w : Fin cfg0.W) : (dats m 0 c).arrAt w 0 = V m c (Pipeline.arrRef spec0 w) := A_eq m c w

/-- Every window's array when the region is left: the inputs unchanged, the output at its write-backs. -/
theorem arrAt_last (c : Dev nD) : ∀ w : Fin cfg0.W, (dats m 0 c).arrAt w cfg0.N = Wx m c (Proc.devRef .tc (Pipeline.arrRef spec0 w))
  | ⟨0, _⟩ => ((dats m 0 c).arrAt_in 0 rfl _).trans ((A_eq m c 0).trans (Wx_of_ne m c main_v14 (by decide)).symm)
  | ⟨1, _⟩ => ((dats m 0 c).arrAt_in 1 rfl _).trans ((A_eq m c 1).trans (Wx_of_ne m c main_v14 (by decide)).symm)
  | ⟨2, _⟩ => (Wx_out m c).symm

/-- The last host stretch writes no array of the pipeline. -/
theorem arrAt_end (c : Dev nD) (w : Fin cfg0.W) : (dats m 0 c).arrAt w cfg0.N = Wend m c (Proc.devRef .tc (Pipeline.arrRef spec0 w)) := by
  rw [Wend_eq, arrAt_last m c w]
  match w with
  | ⟨0, _⟩ => exact (Cert.Kernel.HostTail.tail_keeps (Wx m c) main_v14 (by decide)).symm
  | ⟨1, _⟩ => exact (Cert.Kernel.HostTail.tail_keeps (Wx m c) main_v14 (by decide)).symm
  | ⟨2, _⟩ => exact (Cert.Kernel.HostTail.tail_keeps (Wx m c) main_v15 (by decide)).symm

theorem arr_unscoped0 : ∀ w : Fin cfg0.W, (Pipeline.arrRef spec0 w).isScoped = false := winFacts₀0.arr_unscoped

/-- A buffer that is no window's array is not the output array. -/
theorem ne_out_of_rest {b : Ref sig .tc}
    (hb : b ∈ (Finset.univ.filter fun b : Ref sig .tc => ¬ b.isScoped) \ Finset.univ.image (Pipeline.arrRef spec0)) : b ≠ main_v15 := fun e =>
  (Finset.mem_sdiff.mp hb).2 (Finset.mem_image.mpr ⟨2, Finset.mem_univ _, e.symm⟩)

/-! ## The host operations after the region -/

-- the rule for a line of host operations is stated for any thread; at the TensorCore thread it unifies only when
-- unification may unfold plain definitions in a metavariable's type
set_option backward.isDefEq.respectTransparency.types false in
/-- From the region's exit — the boundary, the windows' arrays at their final contents, the other buffers as the region
    found them — the last host stretch runs within the core's unscoped buffers and hands back the arrays as they were and
    the other buffers at what it computed. -/
theorem htail (c : Dev nD) (Q' : PUnit → sProp 𝕄) :
    iprop((iprop((dats m 0 c).arrays ((dats m 0 c).arrAt · cfg0.N)
              ∗ Pipeline.unscopedRestP Pipeline.Prefetch.none spec0 c (fun b => Wend m c (Proc.devRef .tc b))) -∗ Q' ⟨⟩)
        ∗ boundary (c.tc : Thread nD τ) ∗ (dats m 0 c).arrays ((dats m 0 c).arrAt · cfg0.N)
        ∗ Pipeline.unscopedRestP Pipeline.Prefetch.none spec0 c (V m c))
      ⊢ wp frame (wpE (defs (F := F)) (Variants.lift Variants.none) (c.tc : Thread nD τ) none) Set.univ
          (Pipeline.chain [StableHlo.seq (hostOps1 (F := F))]) Q' := by
  classical
  rw [Pipeline.unscopedRestP_none, Pipeline.unscopedRestP_none]
  have e1 : iprop((dats m 0 c).arrays ((dats m 0 c).arrAt · cfg0.N) ∗ Pipeline.unscopedRest spec0 c (V m c))
      ⊢ (StableHlo.held (c.tc : Thread nD τ) (Pipeline.ucRefs τ sig) (Wx m c) : sProp 𝕄) := by
    rw [← Pipeline.unscopedBufs_held (Ix := Unit) (Name := ℕ) (U := UR sig nD τ) (Lvl := ℕ) c (Wx m c),
      Pipeline.unscopedBufs_split₀ cfgs 0 arr_unscoped0 c]
    refine sep_mono (bufs_of_arrays m c (fun b => Wx m c (Proc.devRef .tc b)) _ (arrAt_last m c)) (Entails.of_eq ?_)
    unfold Pipeline.unscopedRest
    exact bigSep_congr fun b hb => by dsimp only; rw [Wx_of_ne m c b (ne_out_of_rest hb)]
  have e2 : (StableHlo.held (c.tc : Thread nD τ) (Pipeline.ucRefs τ sig) (Wend m c) : sProp 𝕄)
      ⊢ iprop((dats m 0 c).arrays ((dats m 0 c).arrAt · cfg0.N) ∗ Pipeline.unscopedRest spec0 c (fun b => Wend m c (Proc.devRef .tc b))) := by
    rw [← Pipeline.unscopedBufs_held (Ix := Unit) (Name := ℕ) (U := UR sig nD τ) (Lvl := ℕ) c (Wend m c),
      Pipeline.unscopedBufs_split₀ cfgs 0 arr_unscoped0 c]
    exact sep_mono (arrays_of_bufs m c (fun b => Wend m c (Proc.devRef .tc b)) _ (arrAt_end m c)) .rfl
  refine (sep_mono .rfl (sep_mono .rfl e1)).trans ?_
  rw [← List.append_nil ([StableHlo.seq (hostOps1 (F := F))] : List (Prog (TpuEff nD τ sig (Elt F) (Pipeline.Sig Λ₀ (Fin 1) fun p => (pcfgs (F := F) p).Adm) .tc) PUnit))]
  iintro ⟨Hk, Hb⟩
  iapply (Pipeline.wp_seqs_then (pcfgs (F := F)) defs₀ Variants.none c (Pipeline.ucRefs τ sig) [] [hostOps1 (F := F)]
    (fun ops hops op hop => by
      simp only [List.mem_cons, List.mem_nil_iff, _root_.or_false] at hops; subst hops
      exact Pipeline.sub_ucRefs op ((List.forall_iff_forall_mem.mp hostOps1_sub) op hop))
    (fun ops hops op hop => by
      simp only [List.mem_cons, List.mem_nil_iff, _root_.or_false] at hops; subst hops
      exact (List.forall_iff_forall_mem.mp hostOps1_fresh) op hop)
    (Wx m c)) $$ Hb
  iintro Hb
  rw [Pipeline.chain_nil, wp_pure]
  imodintro
  iapply Hk
  icases Hb with ⟨-, H⟩
  iapply e2
  iexact H

/-! ## The run -/

-- the launch theorem's implicit arguments are found by unifying its conclusion with this one, which takes unfolding
-- plain definitions in a metavariable's type
set_option backward.isDefEq.respectTransparency.types false in
/-- At the compiled mesh, for any float values, from any memory with zero counters: every weakly fair execution of @main
    on the TensorCores terminates, nothing faulting, and in every final state every unscoped buffer that is no window's
    array holds what the last host stretch left in it. -/
theorem run_main : θ_run (defs (F := F)) (onTc (τ := τ) (main (F := F))) ⟨m, fun _ => 0, ρ⟩
    (fun r => ∀ c : Dev nD, ∀ b ∈ Pipeline.restRefsP sig Pipeline.Prefetch.none spec0,
      r.2.mem ((c.tc : Thread nD τ).loc b) = Wend m c (Proc.devRef .tc b)) := by
  classical
  exact Pipeline.θ_run_region_pf_tail (pcfgs (F := F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq (hostOps1 (F := F))])
    (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_of_bufs m c (V m c) _ (arrAt_zero m c))
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (fun b => Wend m c (Proc.devRef .tc b)))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := htail m)
    (QY := fun c s => ∀ b ∈ Pipeline.restRefsP sig Pipeline.Prefetch.none spec0, s.mem ((c.tc : Thread nD τ).loc b) = Wend m c (Proc.devRef .tc b))
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (fun b => Wend m c (Proc.devRef .tc b)) s')
      isplitl [HU] <;> iassumption)
    (hQ := fun s h c => (h c).2.2)

end Cert.Kernel.Frm

end
-- ==== Proof.BHostKeep.lean ====
/-
  The three argument arrays reach the region as launched: none of the host operations before the region writes one.
-/
import proofs.«159884_j32023276159237_2_alg».proof.Proof.BData
import Idealize.ShloMosaic.Lib.StableHlo.Run

set_option maxRecDepth 16384

noncomputable section

namespace Cert.Kernel.HostKeep

open Cert.Kernel Cert.Kernel.Gen Cert.Kernel.Frm
open Idealize.ShloMosaic Idealize.ShloMosaic.TcCoe Idealize.ShloMosaic.StableHlo

variable {F : FTy → Type} [FloatOps F]
variable (m : (ℓ : Loc nD τ sig) → Buf (Elt F) ℓ)

/-- The operations before the region write only their own twenty-six results. -/
theorem pre_not_written (b : Ref sig .tc)
    (hb : b ≠ main_call0_v0 ∧ b ≠ main_call0_cst ∧ b ≠ main_call0_v1 ∧ b ≠ main_call0_v2 ∧ b ≠ main_v0
      ∧ b ≠ main_cst ∧ b ≠ main_v1 ∧ b ≠ main_v2 ∧ b ≠ main_v3 ∧ b ≠ main_v4
      ∧ b ≠ main_call1_v0 ∧ b ≠ main_call1_cst ∧ b ≠ main_call1_v1 ∧ b ≠ main_call1_v2 ∧ b ≠ main_v5
      ∧ b ≠ main_cst_0 ∧ b ≠ main_v6 ∧ b ≠ main_v7 ∧ b ≠ main_v8 ∧ b ≠ main_v9 ∧ b ≠ main_v10 ∧ b ≠ main_cst_1
      ∧ b ≠ main_v11 ∧ b ≠ main_v12 ∧ b ≠ main_v13 ∧ b ≠ main_v14) :
    ∀ op ∈ List.flatten (preOps (F := F)), Proc.devRef .tc b ∉ op.writes := by
  obtain ⟨h0, h1, h2, h3, h4, h5, h6, h7, h8, h9, h10, h11, h12, h13, h14, h15, h16, h17, h18, h19, h20, h21, h22, h23,
    h24, h25⟩ := hb
  intro op hop
  simp only [preOps, hostOps0, hostOps0_1, hostOps0_2, hostOps0_3, List.flatten_cons, List.flatten_nil, List.append_nil,
    List.cons_append, List.nil_append, List.mem_cons, List.mem_nil_iff, or_false] at hop
  rcases hop with rfl | rfl | rfl | rfl | rfl | rfl | rfl | rfl | rfl | rfl | rfl | rfl | rfl | rfl | rfl | rfl | rfl | rfl
      | rfl | rfl | rfl | rfl | rfl | rfl | rfl | rfl <;>
    simp only [StableHlo.unary_writes, StableHlo.binary_writes, StableHlo.nullary_writes, Finset.mem_singleton] <;>
    exact StableHlo.devRef_ne_of_ne ‹_›

/-- So any other buffer holds, when the region is entered, what it held at launch. -/
theorem pre_keeps (c : Dev nD) (b : Ref sig .tc)
    (hb : b ≠ main_call0_v0 ∧ b ≠ main_call0_cst ∧ b ≠ main_call0_v1 ∧ b ≠ main_call0_v2 ∧ b ≠ main_v0
      ∧ b ≠ main_cst ∧ b ≠ main_v1 ∧ b ≠ main_v2 ∧ b ≠ main_v3 ∧ b ≠ main_v4
      ∧ b ≠ main_call1_v0 ∧ b ≠ main_call1_cst ∧ b ≠ main_call1_v1 ∧ b ≠ main_call1_v2 ∧ b ≠ main_v5
      ∧ b ≠ main_cst_0 ∧ b ≠ main_v6 ∧ b ≠ main_v7 ∧ b ≠ main_v8 ∧ b ≠ main_v9 ∧ b ≠ main_v10 ∧ b ≠ main_cst_1
      ∧ b ≠ main_v11 ∧ b ≠ main_v12 ∧ b ≠ main_v13 ∧ b ≠ main_v14) :
    V m c b = m ((c : Thread nD τ).loc b) :=
  StableHlo.after_of_forall_not_mem (b := Proc.devRef .tc b) (List.flatten (preOps (F := F))) (fun b => m (c, b))
    (pre_not_written b hb)

/-- The first argument reaches the region as launched, -/
theorem args_kept0 (c : Dev nD) : V m c main_arg0 = m ((c : Thread nD τ).loc main_arg0) := pre_keeps m c main_arg0 (by decide)
/-- and so does the second, -/
theorem args_kept1 (c : Dev nD) : V m c main_arg1 = m ((c : Thread nD τ).loc main_arg1) := pre_keeps m c main_arg1 (by decide)
/-- and the third. -/
theorem args_kept2 (c : Dev nD) : V m c main_arg2 = m ((c : Thread nD τ).loc main_arg2) := pre_keeps m c main_arg2 (by decide)

end Cert.Kernel.HostKeep

end
-- ==== Proof.BFrame.lean ====
/-
  The frame of the program around the tiled row-sum region, at any float instance: every weakly fair execution ends,
  nothing faults, and the three argument arrays end as they began — no host operation writes an argument, before the
  region or after it, and no window of the region stages one.
-/
import proofs.«159884_j32023276159237_2_alg».proof.Proof.BLaunch
import proofs.«159884_j32023276159237_2_alg».proof.Proof.BHostKeep

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arguments are unscoped buffers that are no window's array. -/
theorem arg0_mem : main_arg0 ∈ Pipeline.restRefsP sig Pipeline.Prefetch.none spec0 := by decide
theorem arg1_mem : main_arg1 ∈ Pipeline.restRefsP sig Pipeline.Prefetch.none spec0 := by decide
theorem arg2_mem : main_arg2 ∈ Pipeline.restRefsP sig Pipeline.Prefetch.none spec0 := by decide
/-- So is the result. -/
theorem res_mem : main_v23 ∈ Pipeline.restRefsP sig Pipeline.Prefetch.none spec0 := by decide

/-- An argument at the end is the argument at launch. -/
theorem Wend_arg0 (c : Dev nD) : Wend m c (Proc.devRef .tc main_arg0) = m ((c.tc : Thread nD τ).loc main_arg0) := by
  rw [Wend_eq, Cert.Kernel.HostTail.tail_keeps_arg0, Wx_of_ne m c main_arg0 (by decide)]
  exact Cert.Kernel.HostKeep.args_kept0 m c
theorem Wend_arg1 (c : Dev nD) : Wend m c (Proc.devRef .tc main_arg1) = m ((c.tc : Thread nD τ).loc main_arg1) := by
  rw [Wend_eq, Cert.Kernel.HostTail.tail_keeps_arg1, Wx_of_ne m c main_arg1 (by decide)]
  exact Cert.Kernel.HostKeep.args_kept1 m c
theorem Wend_arg2 (c : Dev nD) : Wend m c (Proc.devRef .tc main_arg2) = m ((c.tc : Thread nD τ).loc main_arg2) := by
  rw [Wend_eq, Cert.Kernel.HostTail.tail_keeps_arg2, Wx_of_ne m c main_arg2 (by decide)]
  exact Cert.Kernel.HostKeep.args_kept2 m c

/-- The run with the result named and the arguments unchanged. -/
theorem run_named : θ_run (defs (F := F)) (onTc (τ := τ) (main (F := F))) ⟨m, fun _ => 0, ρ⟩ (fun r => ∀ c : Dev nD,
      r.2.mem ((c.tc : Thread nD τ).loc main_v23) = Wend m c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := F)) _ _).mono (fun r h c =>
    ⟨h c main_v23 res_mem, (h c main_arg0 arg0_mem).trans (Wend_arg0 m c), (h c main_arg1 arg1_mem).trans (Wend_arg1 m c),
      (h c main_arg2 arg2_mem).trans (Wend_arg2 m c)⟩) (run_main m ρ)

/-- The frame. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := F)) _ _).mono (fun r h c => (h c).2) (run_named m ρ)

end Cert.Kernel.Frm

end
-- ==== Proof.KData.lean ====
/-
  The tiled row-sum kernel on its 16 × 4 grid, as data: the three conditions of its body in closed form over the grid,
  one grid step as a pure function of the two staged blocks and the running sum, the running sum after every point by
  recursion on the point, and the pipeline's proof data built from them.

  A point is (i, j): row block i of 512 rows, column tile j of 2048 columns.  The body zeroes the running sum when
  j = 0, adds the tile's row sums, subtracts the diagonal terms when the tile meets the diagonal (i / 4 = j), and copies
  the running sum to the output block when j = 3.  So the running sum after point (i, j) depends on the points (i, 0..j)
  only, and the output block of row block i is the running sum after point (i, 3).
-/
import proofs.«159884_j32023276159237_2_alg».proof.Proof.Gen.KernelIdeal.Launch
import proofs.«159884_j32023276159237_2_alg».proof.Proof.Gen.KernelIdeal.Skeleton
import proofs.«159884_j32023276159237_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- The four stretches of host operations before the region. -/
abbrev preOps : List (List (HloOp τ sig (Elt F))) := [hostOps0, hostOps0_1, hostOps0_2, hostOps0_3]

/-- Core `c`'s buffer contents when the region is entered: after the host operations before it. -/
abbrev V0 (c : Dev nD) : Valuation τ sig (Elt F) := StableHlo.after (List.flatten (preOps (F := F))) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's three conditions -/

/-- "This is the first column tile": the running sum is zeroed. -/
abbrev cond1 (i : grid0.Coords) : Prop :=
  (Scalar.cmpi .ne (Scalar.extui (Scalar.cmpi .eq (BitVec.ofNat 32 (i 1).val) 0#32)) 0#32) = 1#1
/-- "The tile's rows and columns overlap": the diagonal terms are subtracted. -/
abbrev cond2 (i : grid0.Coords) : Prop :=
  (Scalar.cmpi .ne (Scalar.extui (Scalar.andi
    (Scalar.cmpi .slt (Scalar.muli (BitVec.ofNat 32 (i 0).val) 512#32) (Scalar.addi (Scalar.muli (BitVec.ofNat 32 (i 1).val) 2048#32) 2048#32))
    (Scalar.cmpi .slt (Scalar.muli (BitVec.ofNat 32 (i 1).val) 2048#32) (Scalar.addi (Scalar.muli (BitVec.ofNat 32 (i 0).val) 512#32) 512#32)))) 0#32) = 1#1
/-- "This is the last column tile": the running sum is copied out. -/
abbrev cond3 (i : grid0.Coords) : Prop := k0_cond3 i = 1#1

/-- Point `t` is (t / 4, t % 4): the first tile is t % 4 = 0, -/
theorem hcond1 : ∀ t : Fin cfg0.N, cond1 (grid0.coords t) ↔ t.val % 4 = 0 :=
  (by decide +kernel : ∀ t : Fin grid0.N, cond1 (grid0.coords t) ↔ t.val % 4 = 0)
/-- the tile meets the diagonal when the row block's tile number (t / 4) / 4 is the tile t % 4, -/
theorem hcond2 : ∀ t : Fin cfg0.N, cond2 (grid0.coords t) ↔ t.val / 4 / 4 = t.val % 4 :=
  (by decide +kernel : ∀ t : Fin grid0.N, cond2 (grid0.coords t) ↔ t.val / 4 / 4 = t.val % 4)
/-- and the last tile is t % 4 = 3. -/
theorem hcond3 : ∀ t : Fin cfg0.N, cond3 (grid0.coords t) ↔ t.val % 4 = 3 :=
  (by decide +kernel : ∀ t : Fin grid0.N, cond3 (grid0.coords t) ↔ t.val % 4 = 3)

/-! ## One grid step, and the running sum after every point -/

/-- The running sum after the body at grid coordinates `i`, from the staged row block `x0`, the staged column tile
    `x1` and the running sum `a` before: zeroed first if this is the first tile, the tile's row sums added, the diagonal
    terms subtracted if the tile meets the diagonal. -/
def accNew (i : grid0.Coords) (x0 : Vec F S512x256 .bf16) (x1 : Vec F S2048x256 .bf16) (a : Vec F S512x1 .f32) : Vec F S512x1 .f32 :=
  if cond2 i then k0_pay4 i x0 x1 (k0_pay3 x0 x1 (if cond1 i then k0_pay1 (F := F) else a))
  else k0_pay3 x0 x1 (if cond1 i then k0_pay1 (F := F) else a)

/-- In a first tile the running sum before does not matter. -/
theorem accNew_first (i : grid0.Coords) (h : cond1 i) (x0 : Vec F S512x256 .bf16) (x1 : Vec F S2048x256 .bf16) (a a' : Vec F S512x1 .f32) :
    accNew i x0 x1 a = accNew i x0 x1 a' := by
  unfold accNew; rw [if_pos h, if_pos h]

/-- The running sum after point `n`. -/
def accAt (c : Dev nD) : (n : ℕ) → n < cfg0.N → Vec F S512x1 .f32
  | 0, hn => accNew (grid0.coords ⟨0, hn⟩) (iblk m c 0 ⟨0, hn⟩) (iblk m c 1 ⟨0, hn⟩) (k0_pay1 (F := F))
  | n + 1, hn => accNew (grid0.coords ⟨n + 1, hn⟩) (iblk m c 0 ⟨n + 1, hn⟩) (iblk m c 1 ⟨n + 1, hn⟩) (accAt c n (Nat.lt_of_succ_lt hn))

theorem accAt_zero (c : Dev nD) (hn : 0 < cfg0.N) :
    accAt m c 0 hn = accNew (grid0.coords ⟨0, hn⟩) (iblk m c 0 ⟨0, hn⟩) (iblk m c 1 ⟨0, hn⟩) (k0_pay1 (F := F)) := rfl

theorem accAt_succ (c : Dev nD) (n : ℕ) (hn : n + 1 < cfg0.N) :
    accAt m c (n + 1) hn = accNew (grid0.coords ⟨n + 1, hn⟩) (iblk m c 0 ⟨n + 1, hn⟩) (iblk m c 1 ⟨n + 1, hn⟩) (accAt m c n (Nat.lt_of_succ_lt hn)) := rfl

/-- At a point that is not the first, the running sum is one step from the point before. -/
theorem accAt_pos (c : Dev nD) (t : Fin cfg0.N) (hz : t.val ≠ 0) :
    accAt m c t.val t.isLt = accNew (grid0.coords t) (iblk m c 0 t) (iblk m c 1 t) (accAt m c (t.val - 1) (Nat.lt_of_le_of_lt (Nat.sub_le _ _) t.isLt)) := by
  obtain ⟨n, hn⟩ := t
  cases n with
  | zero => exact absurd rfl hz
  | succ n => rfl

/-! ## The scratch buffer and the invariant -/

/-- The scratch operand: a whole scoped buffer of the kernel's own. -/
abbrev scM : Memref sig .tc .vmem S512x1 .f32 := Memref.whole cc0_scratch0

/-- The class's invariant with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The region invariant before position `n`: before the first point the scratch at anything; afterwards the scratch
    at the running sum the point before left; the generator register at some state throughout. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-! ## The pipeline's proof data -/

/-- The proof data on core `c`: the arrays as the region finds them; after the body each input's buffer at its block
    and the output's at the running sum; the invariant above; nothing owed; the one array the two input windows share
    held by halves, the output's outright. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => accAt m c t.val t.isLt
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = accAt m c t.val t.isLt := by dsimp only [dats]

end Cert.KernelIdeal.Frm

end
-- ==== Proof.KBody.lean ====
/-
  The body of the tiled row-sum kernel as one triple. Every store of the body covers a whole 512 × 1 buffer, so what
  a buffer holds after a run of stores is the last store's payload, and a load after a store reads that payload; with
  these two facts the symbolic run of the body, in each of the eight cases of its three conditions, ends with the
  scratch at one step of the running sum and the output's buffer at the same sum exactly when the tile is the last.
-/
import proofs.«159884_j32023276159237_2_alg».proof.Proof.KData
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Reading back whole-buffer stores -/

theorem zeroOff : (![0, 0] : Fin 2 → Nat) = fun _ => 0 := by
  funext a; match a with | ⟨0, _⟩ => rfl | ⟨1, _⟩ => rfl

/-- After a run of stores whose LAST covers the whole 512 × 1 buffer, the buffer reads that store's payload. -/
theorem read_writes_head {sp : Space} (v : View sig .tc sp S512x1 .f32) (f : v.ty.Contents (Elt F))
    (w : Vec F S512x1 .f32) (L : List (View.Piece (Elt F) S512x1 .f32)) :
    v.read (Elt F) (v.writes (Elt F) f ((⟨Rect.unit (s := S512x1) ![0, 0] S512x1.size inb_S512x1_S512x1_0_0, w⟩ : View.Piece (Elt F) S512x1 .f32) :: L)) = w := by
  rw [View.read_writes_eq_canon _ _ _ (fun y => ⟨_, List.mem_cons_self, View.mem_set_unit_zero zeroOff inb_S512x1_S512x1_0_0 y⟩),
    View.canon_cons_unit_zero zeroOff]

/-- A load of the whole buffer after such a run reads that payload too. -/
theorem readCov_head {sp : Space} (v : View sig .tc sp S512x1 .f32)
    (w : Vec F S512x1 .f32) (L : List (View.Piece (Elt F) S512x1 .f32)) :
    v.readCov ((⟨Rect.unit (s := S512x1) ![0, 0] S512x1.size inb_S512x1_S512x1_0_0, w⟩ : View.Piece (Elt F) S512x1 .f32) :: L)
      (Rect.unit (s := S512x1) ![0, 0] S512x1.size inb_S512x1_S512x1_0_0).toLoadRect = w := by
  rw [View.readCov_eq_canon_ld _ _ _ (fun y => ⟨_, List.mem_cons_self, View.mem_set_unit_zero zeroOff inb_S512x1_S512x1_0_0 y⟩),
    View.canon_cons_unit_zero zeroOff, View.ld_unit_zero zeroOff]

/-- A load of a whole buffer nothing was stored into reads its contents. -/
theorem readAt_whole {sp : Space} {S : Shape} {e : EltTy} {mr : Memref sig .tc sp S e} (h : mr.IsWhole) (X : S.Idx → Elt F e)
    {off : Fin S.rank → Nat} (hoff : off = fun _ => 0) (inb : ∀ a, off a + S.size a ≤ S.size a) :
    mr.view.readAt (Elt F) (Rect.unit (s := S) off S.size inb).toLoadRect (h.unread X) = X := by
  rw [View.readAt_eq_ld, h.read_unread, View.ld_unit_zero hoff]

/-! ## The body's triple -/

set_option maxHeartbeats 16000000 in
/-- The body at grid coordinates `i` on any whole memrefs: from the row block `x0`, the column tile `x1`, the output's
    buffer at `d` and the scratch at `a`, it runs to the inputs as they were, the scratch at one step from `a`, and the
    output's buffer at that same running sum if this is the last tile, untouched otherwise. -/
theorem kernelRun (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512x1 .f32) (harg4 : arg4.IsWhole) (arg5 : Memref sig .tc .vmem S512x1 .f32) (harg5 : arg5.IsWhole)
    (x0 : Vec F S512x256 .bf16) (x1 : Vec F S2048x256 .bf16) (d : Vec F S512x1 .f32) (a : Vec F S512x1 .f32)
    (E : Set ℕ) (K : PUnit → sProp 𝕄) :
    iprop(owns (c : Thread nD τ) arg2 fullShare x0 ∗ owns (c : Thread nD τ) arg3 fullShare x1 ∗ owns (c : Thread nD τ) arg4 fullShare d ∗ owns (c : Thread nD τ) arg5 fullShare a
        ∗ (iprop(owns (c : Thread nD τ) arg2 fullShare x0 ∗ owns (c : Thread nD τ) arg3 fullShare x1
            ∗ owns (c : Thread nD τ) arg4 fullShare (if cond3 i then accNew i x0 x1 a else d) ∗ owns (c : Thread nD τ) arg5 fullShare (accNew i x0 x1 a)) -∗ K ⟨⟩))
      ⊢ wp frame (wpE (defs₀ (F := F)) Variants.none c none) E (cc0__denom_kernel i arg2 harg2 arg3 harg3 arg4 harg4 arg5 harg5) K := by
  have hz256 : (![0, 0] : Fin 2 → Nat) = fun _ => 0 := zeroOff
  by_cases h1 : cond1 i <;> by_cases h2 : cond2 i <;> by_cases h3 : cond3 i
  all_goals
    simp only [cc0__denom_kernel_eq_skeleton]; unfold cc0__denom_kernel_skel
    unfold owns
    iintro ⟨⟨%f0, %hf0, H0⟩, ⟨%f1, %hf1, H1⟩, ⟨%f4, %hf4, H4⟩, ⟨%f5, %hf5, H5⟩, Hk⟩
    obtain rfl := harg2.eq_unread hf0; obtain rfl := harg3.eq_unread hf1; obtain rfl := harg4.eq_unread hf4; obtain rfl := harg5.eq_unread hf5
    sl_exec (disch := first | exact h1 | exact h2 | exact h3)
    sl_step
    iapply Hk
    isplitl [H0]
    · iexists _; isplitr; · ipureintro; exact hf0
      iexact H0
    isplitl [H1]
    · iexists _; isplitr; · ipureintro; exact hf1
      iexact H1
    isplitl [H4]
    · iexists _; isplitr; swap; · iexact H4
      ipureintro
      first
        | (rw [if_neg h3]; exact hf4)
        | (rw [if_pos h3]; sl_unfold_words; unfold accNew
           (first | rw [if_pos h2] | rw [if_neg h2]); (first | rw [if_pos h1] | rw [if_neg h1])
           rw [read_writes_head]
           repeat (rw [readCov_head])
           simp only [readAt_whole harg2 x0 hz256, readAt_whole harg3 x1 hz256, readAt_whole harg5 a hz256])
    · iexists _; isplitr; swap; · iexact H5
      ipureintro
      sl_unfold_words; unfold accNew
      (first | rw [if_pos h2] | rw [if_neg h2]); (first | rw [if_pos h1] | rw [if_neg h1])
      rw [read_writes_head]
      repeat (rw [readCov_head])
      simp only [readAt_whole harg2 x0 hz256, readAt_whole harg3 x1 hz256, readAt_whole harg5 a hz256]

end Cert.KernelIdeal.Frm

end
-- ==== Proof.KOblig.lean ====
/-
  The body obligation of the tiled row-sum kernel: at every grid point, handed the two staged blocks, the output's
  buffer and the invariant, the body runs to the invariant at the next point with the running sum advanced one step
  (the body's triple), the output's buffer at the running sum when the point is a last tile and untouched otherwise.
-/
import proofs.«159884_j32023276159237_2_alg».proof.Proof.KBody

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the windows are idle and when the output is written back -/

theorem liveAt0 : ∀ t : Fin cfg0.N, cfg0.idle 0 (grid0.coords t) = false := fun _ => rfl
theorem liveAt1 : ∀ t : Fin cfg0.N, cfg0.idle 1 (grid0.coords t) = false := fun _ => rfl
/-- At a last tile the output window is live: the body stores the running sum into it. -/
theorem liveAt2 : ∀ t : Fin cfg0.N, cond3 (grid0.coords t) → cfg0.idle 2 (grid0.coords t) = false := by decide +kernel
/-- Elsewhere it is idle: the body stores nothing into it, -/
theorem idleAt2 : ∀ t : Fin cfg0.N, ¬cond3 (grid0.coords t) → cfg0.idle 2 (grid0.coords t) = true := by decide +kernel
/-- and the pipeline does not write its block back there. -/
theorem noFlush2 : ∀ t : Fin cfg0.N, ¬cond3 (grid0.coords t) → (cfg0.win 2).flush t = false := by decide +kernel

/-! ## What the body finds in the input windows -/

/-- Each input's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)

theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)

/-! ## The obligation at a generic point -/

/-- Each window's current staging memref at point `t`, as the pipeline passes it, and its wholeness. -/
abbrev ms0 (t : Fin cfg0.N) : Memref sig .tc .vmem S512x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .f32 := win0_2.stage (cfg0.slots t 2)
abbrev hs2 (t : Fin cfg0.N) : (ms2 t).IsWhole := hstage0_2 ((cfg0.slots t 2).cast nbuf0_2)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point. The inputs' memrefs hold their blocks; the invariant hands the body the scratch at the running
    sum the point before left (at anything at the first point, where the body zeroes it first) and takes it back one
    step on; at a last tile the output's buffer comes back at that running sum, elsewhere as it was handed over. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [liveAt0 t], after0_0]
  rw [show (dats m 0 c).leavesExact 1 t = owns (c : Thread nD τ) (ms1 t) fullShare ((dats m 0 c).after 1 t) from by
    unfold Dat.leavesExact; rw [liveAt1 t], after0_1]
  have hN : t.val < 64 := lt_of_lt_of_eq t.isLt (show cfg0.N = 64 from N_0)
  by_cases h3 : cond3 (grid0.coords t)
  · -- a last tile: not the first point; the output is live
    have hz : t.val ≠ 0 := fun h => by have := (hcond3 t).mp h3; omega
    rw [show (dats m 0 c).leavesExact 2 t = owns (c : Thread nD τ) (ms2 t) fullShare ((dats m 0 c).after 2 t) from by
      unfold Dat.leavesExact; rw [liveAt2 t h3], after0_2]
    rw [accAt_pos m c t hz, PhiS_castSucc m c t, PhiS_pos m c _ _ hz]
    iintro ⟨⟨HS, Hg⟩, Ho, ⟨%d0, H0⟩, ⟨%d1, H1⟩, ⟨%d2, H2⟩⟩
    iapply (kernelRun c (grid0.coords t) (ms0 t) (hs0 t) (ms1 t) (hs1 t) (ms2 t) (hs2 t) scM (Memref.isWhole_whole _) (iblk m c 0 t) (iblk m c 1 t) _ _ Set.univ _)
    isplitl [H0]; · iexact H0
    isplitl [H1]; · iexact H1
    isplitl [H2]; · iexact H2
    isplitl [HS]; · iexact HS
    rw [if_pos h3]
    iintro ⟨H0, H1, H2, HS⟩
    isplitl [HS Hg]
    · isplitl [HS]; · iexact HS
      iexact Hg
    isplitl [Ho]; · iexact Ho
    isplitl [H0]; · iexact H0
    isplitl [H1]; · iexact H1
    iexact H2
  · -- not a last tile: the output is idle and not written back
    rw [Dat.leavesExact_idle (dats m 0 c) 2 t (idleAt2 t h3) (noFlush2 t h3)]
    by_cases hz : t.val = 0
    · -- the first point: the scratch holds anything, and the body zeroes it before use
      have h1 : cond1 (grid0.coords t) := (hcond1 t).mpr (by rw [hz])
      have e0 : accAt m c t.val t.isLt = accNew (grid0.coords t) (iblk m c 0 t) (iblk m c 1 t) (k0_pay1 (F := F)) := by
        obtain ⟨n, hn⟩ := t
        have hn0 : n = 0 := hz
        subst hn0; rfl
      rw [e0, PhiS_castSucc m c t, PhiS_zero m c _ _ hz, PhiA_eq]
      iintro ⟨⟨⟨%a0, HS⟩, Hg⟩, Ho, ⟨%d0, H0⟩, ⟨%d1, H1⟩, ⟨%d2, H2⟩⟩
      rw [accNew_first (grid0.coords t) h1 (iblk m c 0 t) (iblk m c 1 t) (k0_pay1 (F := F)) a0]
      iapply (kernelRun c (grid0.coords t) (ms0 t) (hs0 t) (ms1 t) (hs1 t) (ms2 t) (hs2 t) scM (Memref.isWhole_whole _) (iblk m c 0 t) (iblk m c 1 t) _ _ Set.univ _)
      isplitl [H0]; · iexact H0
      isplitl [H1]; · iexact H1
      isplitl [H2]; · iexact H2
      isplitl [HS]; · iexact HS
      rw [if_neg h3]
      iintro ⟨H0, H1, H2, HS⟩
      isplitl [HS Hg]
      · isplitl [HS]; · iexact HS
        iexact Hg
      isplitl [Ho]; · iexact Ho
      isplitl [H0]; · iexact H0
      isplitl [H1]; · iexact H1
      iexists _; iexact H2
    · rw [accAt_pos m c t hz, PhiS_castSucc m c t, PhiS_pos m c _ _ hz]
      iintro ⟨⟨HS, Hg⟩, Ho, ⟨%d0, H0⟩, ⟨%d1, H1⟩, ⟨%d2, H2⟩⟩
      iapply (kernelRun c (grid0.coords t) (ms0 t) (hs0 t) (ms1 t) (hs1 t) (ms2 t) (hs2 t) scM (Memref.isWhole_whole _) (iblk m c 0 t) (iblk m c 1 t) _ _ Set.univ _)
      isplitl [H0]; · iexact H0
      isplitl [H1]; · iexact H1
      isplitl [H2]; · iexact H2
      isplitl [HS]; · iexact HS
      rw [if_neg h3]
      iintro ⟨H0, H1, H2, HS⟩
      isplitl [HS Hg]
      · isplitl [HS]; · iexact HS
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the running sum's name is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

end Cert.KernelIdeal.Frm

end
-- ==== Proof.KArr.lean ====
/-
  The arrays the region is handed, two ways of holding them.

  The launch hands the region the DISTINCT buffers behind the windows' arrays, each whole at the full share: here the two
  buffers `main_v14` and `main_v15`.  The pipeline holds one points-to per WINDOW: windows 0 and 1 are input windows on
  the same array `main_v14`, held at the left and the right half of the full share, and window 2 is the output window on
  `main_v15`, held at the full share.  A points-to at the full share is the two points-tos at its left and right halves
  (same element set, same contents), so the two ways of holding the arrays are interchangeable.
-/
import proofs.«159884_j32023276159237_2_alg».proof.Proof.KData

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows' arrays are the two buffers `main_v14` and `main_v15`. -/
theorem image_arrRef : Finset.univ.image (Pipeline.arrRef spec0) = {main_v14, main_v15} := by decide

/-! ## The shares: an input window holds its own, the output window the full share -/

theorem share0 (c : Dev nD) : (dats m 0 c).share 0 = fullShare.left := rfl
theorem share1 (c : Dev nD) : (dats m 0 c).share 1 = fullShare.right := rfl
theorem share2 (c : Dev nD) : (dats m 0 c).share 2 = fullShare := rfl

/-! ## Each window's points-to, over the buffer behind it -/

section
variable (c : Dev nD) (W : (b : Ref sig .tc) → Buf (Elt F) ((c : Thread nD τ).loc b))

/-- The distinct buffers behind the windows' arrays: `main_v14` and `main_v15`, each whole at the full share. -/
theorem arrBufs_eq :
    (Pipeline.arrBufs spec0 c W : sProp 𝕄)
      = iprop(((c.tc : Thread nD τ).loc main_v14 ↦{fullShare} W main_v14) ∗ ((c.tc : Thread nD τ).loc main_v15 ↦{fullShare} W main_v15)) := by
  unfold Pipeline.arrBufs
  rw [image_arrRef, bigSep_insert (by decide), bigSep_singleton] <;> rfl

variable (Fw : (w : Fin cfg0.W) → Buf (Elt F) ((cfg0.win w).arr.view.loc (c.tc : Thread nD τ)))
  (hF : ∀ w, Fw w = W (Pipeline.arrRef spec0 w))
include hF

/-- Window 0 holds all of `main_v14` at the left half of the full share. -/
theorem win0_pt :
    ((cfg0.win 0).arr.view.loc (c.tc : Thread nD τ) ↦[(cfg0.win 0).arr.view.set]{(dats m 0 c).share 0} Fw 0 : sProp 𝕄)
      = ((c.tc : Thread nD τ).loc main_v14 ↦{fullShare.left} W main_v14) := by
  rw [(arr_whole0 0).set_eq_univ, share0, hF 0]

/-- Window 1 holds all of `main_v14` at the right half of the full share. -/
theorem win1_pt :
    ((cfg0.win 1).arr.view.loc (c.tc : Thread nD τ) ↦[(cfg0.win 1).arr.view.set]{(dats m 0 c).share 1} Fw 1 : sProp 𝕄)
      = ((c.tc : Thread nD τ).loc main_v14 ↦{fullShare.right} W main_v14) := by
  rw [(arr_whole0 1).set_eq_univ, share1, hF 1]

/-- Window 2 holds all of `main_v15` at the full share. -/
theorem win2_pt :
    ((cfg0.win 2).arr.view.loc (c.tc : Thread nD τ) ↦[(cfg0.win 2).arr.view.set]{(dats m 0 c).share 2} Fw 2 : sProp 𝕄)
      = ((c.tc : Thread nD τ).loc main_v15 ↦{fullShare} W main_v15) := by
  rw [(arr_whole0 2).set_eq_univ, share2, hF 2]

/-- The three windows' points-tos: the two halves of `main_v14` and all of `main_v15`. -/
theorem arrays_eq3 :
    ((dats m 0 c).arrays Fw : sProp 𝕄)
      = iprop(((c.tc : Thread nD τ).loc main_v14 ↦{fullShare.left} W main_v14)
          ∗ ((c.tc : Thread nD τ).loc main_v14 ↦{fullShare.right} W main_v14)
          ∗ ((c.tc : Thread nD τ).loc main_v15 ↦{fullShare} W main_v15)) := by
  unfold Dat.arrays
  rw [bigSep_W0, win0_pt m c W Fw hF, win1_pt m c W Fw hF, win2_pt m c W Fw hF] <;> rfl

/-- From the two buffers whole to the three windows: `main_v14` is split into its two halves. -/
theorem arrays_of_bufs : (Pipeline.arrBufs spec0 c W : sProp 𝕄) ⊢ (dats m 0 c).arrays Fw := by
  rw [arrBufs_eq c W, arrays_eq3 m c W Fw hF]
  iintro ⟨HA, HB⟩
  ihave HA := (pointsTo_share (PosShare.mem_left_op_right fullShare)).1 $$ HA
  icases HA with ⟨HA₁, HA₂⟩
  isplitl [HA₁]; · iexact HA₁
  isplitl [HA₂]; · iexact HA₂
  iexact HB

/-- From the three windows back to the two buffers whole: the two halves of `main_v14` are rejoined. -/
theorem bufs_of_arrays : (dats m 0 c).arrays Fw ⊢ (Pipeline.arrBufs spec0 c W : sProp 𝕄) := by
  rw [arrBufs_eq c W, arrays_eq3 m c W Fw hF]
  iintro ⟨HA₁, HA₂, HB⟩
  ihave HA := (pointsTo_share (PosShare.mem_left_op_right fullShare)).2 $$ [HA₁ HA₂]
  · isplitl [HA₁]; · iexact HA₁
    iexact HA₂
  isplitl [HA]; · iexact HA
  iexact HB

end

end Cert.KernelIdeal.Frm

end
-- ==== Proof.KHostTail.lean ====
/-
  The host operations after the region, read at the result.  From the region's output column D (8192 × 1) and the
  array Pz of positive pairs (8192 entries), the eleven operations compute the mean over the 8192 rows r of
  -(Pz r / (1/2) - log (D r)): the column is reshaped to a row, the positive pairs are divided by the broadcast
  constant one half, the logarithm is subtracted, the difference negated, all 8192 entries added up from zero, and the
  total divided by the constant 8192.
-/
import proofs.«159884_j32023276159237_2_alg».proof.Proof.KData
import proofs.«159884_j32023276159237_2_alg».proof.Proof.Spec
import Idealize.ShloMosaic.Lib.IdealHost
import Idealize.ShloMosaic.Lib.Pipeline.Value
import Idealize.ShloMosaic.Lib.StableHlo.Run

set_option maxRecDepth 16384

noncomputable section

open scoped BigOperators

namespace Cert.KernelIdeal.HostTail

open Cert.KernelIdeal Cert.KernelIdeal.Gen
open Idealize.ShloMosaic Idealize.ShloMosaic.ValueIdx Idealize.ShloMosaic.StableHlo

/-- A rank-1 index set is its one coordinate's range, so a sum over it is the sum over the coordinate. -/
theorem sum_idx1 {M : Type*} [AddCommMonoid M] {n : Nat} (f : (⟨1, ![n]⟩ : Shape).Idx → M) :
    ∑ i, f i = ∑ a : Fin n, f (ix1 a) :=
  (Equiv.sum_comp (⟨fun a => ix1 a, fun i => i 0, fun _ => rfl, fun i => (eq_ix1 i).symm⟩ : Fin n ≃ (⟨1, ![n]⟩ : Shape).Idx) f).symm

/-- The column [8192, 1] reshaped to [8192] reads, at r, the column's entry of row r. -/
theorem reshape_col_apply {α : Type} (x : S8192x1.Idx → α) (h : S8192x1.ShapeCasts S8192) (r : Fin 8192) :
    shapeCast S8192 x h (ix1 r) = x (ix2 r 0) :=
  shapeCast_apply x h (ix1 r) (ix2 r 0) (by
    rw [Shape.rowMajor_val_two, Shape.rowMajor_val_one]
    show r.val * 1 + 0 = r.val
    omega)

/-- The result of the host operations after the region, from any valuation whose output column is D and whose array
    of positive pairs is Pz: the mean over the rows of -(Pz r / (1/2) - log (D r)). -/
theorem tail_value (W : Valuation τ sig (Elt Ideal)) (D : S8192x1.Idx → EReal) (Pz : S8192.Idx → EReal)
    (hD : W (Proc.devRef .tc main_v15) = D) (hP : W (Proc.devRef .tc main_v12) = Pz) :
    StableHlo.after (hostOps1 (F := Ideal)) W (Proc.devRef .tc main_v23)
      = fun _ => Ideal.div (Cert.Loss.zero + ∑ r : Fin 8192, -(Ideal.div (Pz (ix1 r)) Cert.Loss.half - Ideal.log (D (ix2 r 0)))) Cert.Loss.count := by
  subst hD hP
  show StableHlo.after hostOps1 W (Proc.devRef .tc main_v23) = _
  after_results
  funext j
  rw [hostDivf_apply, hostReduceAdd_apply, Ideal.hostReduceAdd_total _ (fun b => b.elim0), sum_idx1]
  refine congrArg₂ Ideal.div (congrArg₂ (· + ·) rfl (Finset.sum_congr rfl fun r _ => ?_)) rfl
  show -(Ideal.div (W (Proc.devRef .tc main_v12) (ix1 r)) _
      - Ideal.log (shapeCast S8192 (W (Proc.devRef .tc main_v15)) shapeCasts_S8192x1_S8192 (ix1 r))) = _
  rw [reshape_col_apply]
  rfl

/-! ## What the operations after the region leave alone -/

section Keeps

variable {F : FTy → Type} [FloatOps F]

/-- The operations after the region write only their own eleven results. -/
theorem tail_not_written (b : Ref sig .tc)
    (hb : b ≠ main_v16 ∧ b ≠ main_cst_2 ∧ b ≠ main_v17 ∧ b ≠ main_v18 ∧ b ≠ main_v19 ∧ b ≠ main_v20 ∧ b ≠ main_v21
      ∧ b ≠ main_cst_3 ∧ b ≠ main_v22 ∧ b ≠ main_cst_4 ∧ b ≠ main_v23) :
    ∀ op ∈ (hostOps1 (F := F)), Proc.devRef .tc b ∉ op.writes := by
  obtain ⟨h0, h1, h2, h3, h4, h5, h6, h7, h8, h9, h10⟩ := hb
  intro op hop
  simp only [List.mem_cons, List.mem_nil_iff, or_false] at hop
  rcases hop with rfl | rfl | rfl | rfl | rfl | rfl | rfl | rfl | rfl | rfl | rfl <;>
    simp only [StableHlo.unary_writes, StableHlo.binary_writes, StableHlo.nullary_writes, StableHlo.reshape_writes,
      Finset.mem_singleton] <;>
    exact StableHlo.devRef_ne_of_ne ‹_›

/-- So any other buffer holds after them what it held before. -/
theorem tail_keeps (W : Valuation τ sig (Elt F)) (b : Ref sig .tc)
    (hb : b ≠ main_v16 ∧ b ≠ main_cst_2 ∧ b ≠ main_v17 ∧ b ≠ main_v18 ∧ b ≠ main_v19 ∧ b ≠ main_v20 ∧ b ≠ main_v21
      ∧ b ≠ main_cst_3 ∧ b ≠ main_v22 ∧ b ≠ main_cst_4 ∧ b ≠ main_v23) :
    StableHlo.after (hostOps1 (F := F)) W (Proc.devRef .tc b) = W (Proc.devRef .tc b) :=
  StableHlo.after_of_forall_not_mem (b := Proc.devRef .tc b) hostOps1 W (tail_not_written b hb)

/-- In particular the three arguments. -/
theorem tail_keeps_arg0 (W : Valuation τ sig (Elt F)) :
    StableHlo.after (hostOps1 (F := F)) W (Proc.devRef .tc main_arg0) = W (Proc.devRef .tc main_arg0) :=
  tail_keeps W main_arg0 (by decide)
theorem tail_keeps_arg1 (W : Valuation τ sig (Elt F)) :
    StableHlo.after (hostOps1 (F := F)) W (Proc.devRef .tc main_arg1) = W (Proc.devRef .tc main_arg1) :=
  tail_keeps W main_arg1 (by decide)
theorem tail_keeps_arg2 (W : Valuation τ sig (Elt F)) :
    StableHlo.after (hostOps1 (F := F)) W (Proc.devRef .tc main_arg2) = W (Proc.devRef .tc main_arg2) :=
  tail_keeps W main_arg2 (by decide)

end Keeps

end Cert.KernelIdeal.HostTail

end
-- ==== Proof.KLaunch.lean ====
/-
  The run of the whole program around the tiled row-sum region. The host operations before the region compute the
  stacked normalised array; the region reads that ONE array through two windows (row blocks and column tiles) and
  writes the denominators; the host operations after it reduce them to the loss. Because two windows read one array,
  its buffer is lent to them by halves at the region's entry and the halves are joined again at its exit; everything
  else is the library's launch of one region followed by host operations.
-/
import proofs.«159884_j32023276159237_2_alg».proof.Proof.KOblig
import proofs.«159884_j32023276159237_2_alg».proof.Proof.KArr
import proofs.«159884_j32023276159237_2_alg».proof.Proof.KHostTail

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem preOps_fresh : (preOps (F := F)).Forall fun ops => ops.Forall fun op => op.fresh = ∅ := by
  simp only [List.Forall]; repeat' constructor

theorem hostOps1_fresh : (hostOps1 : List (HloOp τ sig (Elt F))).Forall fun op => op.fresh = ∅ := by
  simp only [List.Forall]; repeat' constructor

/-- @main is the four host stretches, the region, then the last host stretch. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main preOps [hostOps1] ⟨hostOps0_sub, hostOps0_1_sub, hostOps0_2_sub, hostOps0_3_sub⟩
    preOps_fresh main_chain

/-! ## The buffers when the region is left, and at the end -/

/-- Core `c`'s buffers when the region is left: the output array at what the write-backs made of it, every other
    buffer as the region found it. -/
def Wx (c : Dev nD) : Valuation τ sig (Elt F) :=
  Function.update (V0 m c) (Proc.devRef .tc main_v15) ((dats m 0 c).arrAt 2 cfg0.N)

/-- And at the end: after the last host stretch. -/
def Wend (c : Dev nD) : Valuation τ sig (Elt F) := StableHlo.after ([hostOps1 (F := F)] : List (List (HloOp τ sig (Elt F)))).flatten (Wx m c)

theorem Wend_eq (c : Dev nD) : Wend m c = StableHlo.after (hostOps1 (F := F)) (Wx m c) := by
  unfold Wend; simp only [List.flatten_cons, List.flatten_nil, List.append_nil]

theorem Wx_out (c : Dev nD) : Wx m c (Proc.devRef .tc main_v15) = (dats m 0 c).arrAt 2 cfg0.N := by
  unfold Wx; exact Function.update_self _ _ _

theorem Wx_of_ne (c : Dev nD) (b : Ref sig .tc) (hb : b ≠ main_v15) : Wx m c (Proc.devRef .tc b) = V m c b := by
  unfold Wx; exact Function.update_of_ne (fun e => hb (Proc.devRef_injective _ e)) _ _

/-- Every window's array when the region is entered is what the host operations before it left. -/
theorem arrAt_zero (c : Dev nD) (w : Fin cfg0.W) : (dats m 0 c).arrAt w 0 = V m c (Pipeline.arrRef spec0 w) := A_eq m c w

/-- Every window's array when the region is left: the inputs unchanged, the output at its write-backs. -/
theorem arrAt_last (c : Dev nD) : ∀ w : Fin cfg0.W, (dats m 0 c).arrAt w cfg0.N = Wx m c (Proc.devRef .tc (Pipeline.arrRef spec0 w))
  | ⟨0, _⟩ => ((dats m 0 c).arrAt_in 0 rfl _).trans ((A_eq m c 0).trans (Wx_of_ne m c main_v14 (by decide)).symm)
  | ⟨1, _⟩ => ((dats m 0 c).arrAt_in 1 rfl _).trans ((A_eq m c 1).trans (Wx_of_ne m c main_v14 (by decide)).symm)
  | ⟨2, _⟩ => (Wx_out m c).symm

/-- The last host stretch writes no array of the pipeline. -/
theorem arrAt_end (c : Dev nD) (w : Fin cfg0.W) : (dats m 0 c).arrAt w cfg0.N = Wend m c (Proc.devRef .tc (Pipeline.arrRef spec0 w)) := by
  rw [Wend_eq, arrAt_last m c w]
  match w with
  | ⟨0, _⟩ => exact (Cert.KernelIdeal.HostTail.tail_keeps (Wx m c) main_v14 (by decide)).symm
  | ⟨1, _⟩ => exact (Cert.KernelIdeal.HostTail.tail_keeps (Wx m c) main_v14 (by decide)).symm
  | ⟨2, _⟩ => exact (Cert.KernelIdeal.HostTail.tail_keeps (Wx m c) main_v15 (by decide)).symm

theorem arr_unscoped0 : ∀ w : Fin cfg0.W, (Pipeline.arrRef spec0 w).isScoped = false := winFacts₀0.arr_unscoped

/-- A buffer that is no window's array is not the output array. -/
theorem ne_out_of_rest {b : Ref sig .tc}
    (hb : b ∈ (Finset.univ.filter fun b : Ref sig .tc => ¬ b.isScoped) \ Finset.univ.image (Pipeline.arrRef spec0)) : b ≠ main_v15 := fun e =>
  (Finset.mem_sdiff.mp hb).2 (Finset.mem_image.mpr ⟨2, Finset.mem_univ _, e.symm⟩)

/-! ## The host operations after the region -/

-- the rule for a line of host operations is stated for any thread; at the TensorCore thread it unifies only when
-- unification may unfold plain definitions in a metavariable's type
set_option backward.isDefEq.respectTransparency.types false in
/-- From the region's exit — the boundary, the windows' arrays at their final contents, the other buffers as the region
    found them — the last host stretch runs within the core's unscoped buffers and hands back the arrays as they were and
    the other buffers at what it computed. -/
theorem htail (c : Dev nD) (Q' : PUnit → sProp 𝕄) :
    iprop((iprop((dats m 0 c).arrays ((dats m 0 c).arrAt · cfg0.N)
              ∗ Pipeline.unscopedRestP Pipeline.Prefetch.none spec0 c (fun b => Wend m c (Proc.devRef .tc b))) -∗ Q' ⟨⟩)
        ∗ boundary (c.tc : Thread nD τ) ∗ (dats m 0 c).arrays ((dats m 0 c).arrAt · cfg0.N)
        ∗ Pipeline.unscopedRestP Pipeline.Prefetch.none spec0 c (V m c))
      ⊢ wp frame (wpE (defs (F := F)) (Variants.lift Variants.none) (c.tc : Thread nD τ) none) Set.univ
          (Pipeline.chain [StableHlo.seq (hostOps1 (F := F))]) Q' := by
  classical
  rw [Pipeline.unscopedRestP_none, Pipeline.unscopedRestP_none]
  have e1 : iprop((dats m 0 c).arrays ((dats m 0 c).arrAt · cfg0.N) ∗ Pipeline.unscopedRest spec0 c (V m c))
      ⊢ (StableHlo.held (c.tc : Thread nD τ) (Pipeline.ucRefs τ sig) (Wx m c) : sProp 𝕄) := by
    rw [← Pipeline.unscopedBufs_held (Ix := Unit) (Name := ℕ) (U := UR sig nD τ) (Lvl := ℕ) c (Wx m c),
      Pipeline.unscopedBufs_split₀ cfgs 0 arr_unscoped0 c]
    refine sep_mono (bufs_of_arrays m c (fun b => Wx m c (Proc.devRef .tc b)) _ (arrAt_last m c)) (Entails.of_eq ?_)
    unfold Pipeline.unscopedRest
    exact bigSep_congr fun b hb => by dsimp only; rw [Wx_of_ne m c b (ne_out_of_rest hb)]
  have e2 : (StableHlo.held (c.tc : Thread nD τ) (Pipeline.ucRefs τ sig) (Wend m c) : sProp 𝕄)
      ⊢ iprop((dats m 0 c).arrays ((dats m 0 c).arrAt · cfg0.N) ∗ Pipeline.unscopedRest spec0 c (fun b => Wend m c (Proc.devRef .tc b))) := by
    rw [← Pipeline.unscopedBufs_held (Ix := Unit) (Name := ℕ) (U := UR sig nD τ) (Lvl := ℕ) c (Wend m c),
      Pipeline.unscopedBufs_split₀ cfgs 0 arr_unscoped0 c]
    exact sep_mono (arrays_of_bufs m c (fun b => Wend m c (Proc.devRef .tc b)) _ (arrAt_end m c)) .rfl
  refine (sep_mono .rfl (sep_mono .rfl e1)).trans ?_
  rw [← List.append_nil ([StableHlo.seq (hostOps1 (F := F))] : List (Prog (TpuEff nD τ sig (Elt F) (Pipeline.Sig Λ₀ (Fin 1) fun p => (pcfgs (F := F) p).Adm) .tc) PUnit))]
  iintro ⟨Hk, Hb⟩
  iapply (Pipeline.wp_seqs_then (pcfgs (F := F)) defs₀ Variants.none c (Pipeline.ucRefs τ sig) [] [hostOps1 (F := F)]
    (fun ops hops op hop => by
      simp only [List.mem_cons, List.mem_nil_iff, _root_.or_false] at hops; subst hops
      exact Pipeline.sub_ucRefs op ((List.forall_iff_forall_mem.mp hostOps1_sub) op hop))
    (fun ops hops op hop => by
      simp only [List.mem_cons, List.mem_nil_iff, _root_.or_false] at hops; subst hops
      exact (List.forall_iff_forall_mem.mp hostOps1_fresh) op hop)
    (Wx m c)) $$ Hb
  iintro Hb
  rw [Pipeline.chain_nil, wp_pure]
  imodintro
  iapply Hk
  icases Hb with ⟨-, H⟩
  iapply e2
  iexact H

/-! ## The run -/

-- the launch theorem's implicit arguments are found by unifying its conclusion with this one, which takes unfolding
-- plain definitions in a metavariable's type
set_option backward.isDefEq.respectTransparency.types false in
/-- At the compiled mesh, for any float values, from any memory with zero counters: every weakly fair execution of @main
    on the TensorCores terminates, nothing faulting, and in every final state every unscoped buffer that is no window's
    array holds what the last host stretch left in it. -/
theorem run_main : θ_run (defs (F := F)) (onTc (τ := τ) (main (F := F))) ⟨m, fun _ => 0, ρ⟩
    (fun r => ∀ c : Dev nD, ∀ b ∈ Pipeline.restRefsP sig Pipeline.Prefetch.none spec0,
      r.2.mem ((c.tc : Thread nD τ).loc b) = Wend m c (Proc.devRef .tc b)) := by
  classical
  exact Pipeline.θ_run_region_pf_tail (pcfgs (F := F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq (hostOps1 (F := F))])
    (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_of_bufs m c (V m c) _ (arrAt_zero m c))
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (fun b => Wend m c (Proc.devRef .tc b)))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := htail m)
    (QY := fun c s => ∀ b ∈ Pipeline.restRefsP sig Pipeline.Prefetch.none spec0, s.mem ((c.tc : Thread nD τ).loc b) = Wend m c (Proc.devRef .tc b))
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (fun b => Wend m c (Proc.devRef .tc b)) s')
      isplitl [HU] <;> iassumption)
    (hQ := fun s h c => (h c).2.2)

end Cert.KernelIdeal.Frm

end
-- ==== Proof.KHostKeep.lean ====
/-
  The three argument arrays reach the region as launched: none of the host operations before the region writes one.
-/
import proofs.«159884_j32023276159237_2_alg».proof.Proof.KData
import Idealize.ShloMosaic.Lib.StableHlo.Run

set_option maxRecDepth 16384

noncomputable section

namespace Cert.KernelIdeal.HostKeep

open Cert.KernelIdeal Cert.KernelIdeal.Gen Cert.KernelIdeal.Frm
open Idealize.ShloMosaic Idealize.ShloMosaic.TcCoe Idealize.ShloMosaic.StableHlo

variable {F : FTy → Type} [FloatOps F]
variable (m : (ℓ : Loc nD τ sig) → Buf (Elt F) ℓ)

/-- The operations before the region write only their own twenty-six results. -/
theorem pre_not_written (b : Ref sig .tc)
    (hb : b ≠ main_call0_v0 ∧ b ≠ main_call0_cst ∧ b ≠ main_call0_v1 ∧ b ≠ main_call0_v2 ∧ b ≠ main_v0
      ∧ b ≠ main_cst ∧ b ≠ main_v1 ∧ b ≠ main_v2 ∧ b ≠ main_v3 ∧ b ≠ main_v4
      ∧ b ≠ main_call1_v0 ∧ b ≠ main_call1_cst ∧ b ≠ main_call1_v1 ∧ b ≠ main_call1_v2 ∧ b ≠ main_v5
      ∧ b ≠ main_cst_0 ∧ b ≠ main_v6 ∧ b ≠ main_v7 ∧ b ≠ main_v8 ∧ b ≠ main_v9 ∧ b ≠ main_v10 ∧ b ≠ main_cst_1
      ∧ b ≠ main_v11 ∧ b ≠ main_v12 ∧ b ≠ main_v13 ∧ b ≠ main_v14) :
    ∀ op ∈ List.flatten (preOps (F := F)), Proc.devRef .tc b ∉ op.writes := by
  obtain ⟨h0, h1, h2, h3, h4, h5, h6, h7, h8, h9, h10, h11, h12, h13, h14, h15, h16, h17, h18, h19, h20, h21, h22, h23,
    h24, h25⟩ := hb
  intro op hop
  simp only [preOps, hostOps0, hostOps0_1, hostOps0_2, hostOps0_3, List.flatten_cons, List.flatten_nil, List.append_nil,
    List.cons_append, List.nil_append, List.mem_cons, List.mem_nil_iff, or_false] at hop
  rcases hop with rfl | rfl | rfl | rfl | rfl | rfl | rfl | rfl | rfl | rfl | rfl | rfl | rfl | rfl | rfl | rfl | rfl | rfl
      | rfl | rfl | rfl | rfl | rfl | rfl | rfl | rfl <;>
    simp only [StableHlo.unary_writes, StableHlo.binary_writes, StableHlo.nullary_writes, Finset.mem_singleton] <;>
    exact StableHlo.devRef_ne_of_ne ‹_›

/-- So any other buffer holds, when the region is entered, what it held at launch. -/
theorem pre_keeps (c : Dev nD) (b : Ref sig .tc)
    (hb : b ≠ main_call0_v0 ∧ b ≠ main_call0_cst ∧ b ≠ main_call0_v1 ∧ b ≠ main_call0_v2 ∧ b ≠ main_v0
      ∧ b ≠ main_cst ∧ b ≠ main_v1 ∧ b ≠ main_v2 ∧ b ≠ main_v3 ∧ b ≠ main_v4
      ∧ b ≠ main_call1_v0 ∧ b ≠ main_call1_cst ∧ b ≠ main_call1_v1 ∧ b ≠ main_call1_v2 ∧ b ≠ main_v5
      ∧ b ≠ main_cst_0 ∧ b ≠ main_v6 ∧ b ≠ main_v7 ∧ b ≠ main_v8 ∧ b ≠ main_v9 ∧ b ≠ main_v10 ∧ b ≠ main_cst_1
      ∧ b ≠ main_v11 ∧ b ≠ main_v12 ∧ b ≠ main_v13 ∧ b ≠ main_v14) :
    V m c b = m ((c : Thread nD τ).loc b) :=
  StableHlo.after_of_forall_not_mem (b := Proc.devRef .tc b) (List.flatten (preOps (F := F))) (fun b => m (c, b))
    (pre_not_written b hb)

/-- The first argument reaches the region as launched, -/
theorem args_kept0 (c : Dev nD) : V m c main_arg0 = m ((c : Thread nD τ).loc main_arg0) := pre_keeps m c main_arg0 (by decide)
/-- and so does the second, -/
theorem args_kept1 (c : Dev nD) : V m c main_arg1 = m ((c : Thread nD τ).loc main_arg1) := pre_keeps m c main_arg1 (by decide)
/-- and the third. -/
theorem args_kept2 (c : Dev nD) : V m c main_arg2 = m ((c : Thread nD τ).loc main_arg2) := pre_keeps m c main_arg2 (by decide)

end Cert.KernelIdeal.HostKeep

end
-- ==== Proof.KFrame.lean ====
/-
  The frame of the program around the tiled row-sum region, at any float instance: every weakly fair execution ends,
  nothing faults, and the three argument arrays end as they began — no host operation writes an argument, before the
  region or after it, and no window of the region stages one.
-/
import proofs.«159884_j32023276159237_2_alg».proof.Proof.KLaunch
import proofs.«159884_j32023276159237_2_alg».proof.Proof.KHostKeep

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arguments are unscoped buffers that are no window's array. -/
theorem arg0_mem : main_arg0 ∈ Pipeline.restRefsP sig Pipeline.Prefetch.none spec0 := by decide
theorem arg1_mem : main_arg1 ∈ Pipeline.restRefsP sig Pipeline.Prefetch.none spec0 := by decide
theorem arg2_mem : main_arg2 ∈ Pipeline.restRefsP sig Pipeline.Prefetch.none spec0 := by decide
/-- So is the result. -/
theorem res_mem : main_v23 ∈ Pipeline.restRefsP sig Pipeline.Prefetch.none spec0 := by decide

/-- An argument at the end is the argument at launch. -/
theorem Wend_arg0 (c : Dev nD) : Wend m c (Proc.devRef .tc main_arg0) = m ((c.tc : Thread nD τ).loc main_arg0) := by
  rw [Wend_eq, Cert.KernelIdeal.HostTail.tail_keeps_arg0, Wx_of_ne m c main_arg0 (by decide)]
  exact Cert.KernelIdeal.HostKeep.args_kept0 m c
theorem Wend_arg1 (c : Dev nD) : Wend m c (Proc.devRef .tc main_arg1) = m ((c.tc : Thread nD τ).loc main_arg1) := by
  rw [Wend_eq, Cert.KernelIdeal.HostTail.tail_keeps_arg1, Wx_of_ne m c main_arg1 (by decide)]
  exact Cert.KernelIdeal.HostKeep.args_kept1 m c
theorem Wend_arg2 (c : Dev nD) : Wend m c (Proc.devRef .tc main_arg2) = m ((c.tc : Thread nD τ).loc main_arg2) := by
  rw [Wend_eq, Cert.KernelIdeal.HostTail.tail_keeps_arg2, Wx_of_ne m c main_arg2 (by decide)]
  exact Cert.KernelIdeal.HostKeep.args_kept2 m c

/-- The run with the result named and the arguments unchanged. -/
theorem run_named : θ_run (defs (F := F)) (onTc (τ := τ) (main (F := F))) ⟨m, fun _ => 0, ρ⟩ (fun r => ∀ c : Dev nD,
      r.2.mem ((c.tc : Thread nD τ).loc main_v23) = Wend m c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := F)) _ _).mono (fun r h c =>
    ⟨h c main_v23 res_mem, (h c main_arg0 arg0_mem).trans (Wend_arg0 m c), (h c main_arg1 arg1_mem).trans (Wend_arg1 m c),
      (h c main_arg2 arg2_mem).trans (Wend_arg2 m c)⟩) (run_main m ρ)

/-- The frame. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := F)) _ _).mono (fun r h c => (h c).2) (run_named m ρ)

end Cert.KernelIdeal.Frm

end
-- ==== Proof.KHostOps.lean ====
/-
  The host operations before the region, as functions of one argument array and read at an index.

  Each argument array x (4096 × 256) is normalised row by row: the squares are added along each row from zero, the
  sums kept as a column (4096 × 1), the square root taken, the maximum taken with the broadcast constant 1e-12, the
  column spread over the 256 entries of its row, and x divided by it.  So the entry (r, k) of the result is
  x r k / max (√(0 + ∑ k, x r k * x r k)) 1e-12.  The two normalised arrays stacked along the rows, and converted to a
  narrower format (the identity on the extended reals), are the array the region reads; their row-wise inner products,
  added from zero and laid twice end to end, are the positive pairs.
-/
import proofs.«159884_j32023276159237_2_alg».proof.Proof.Gen.KernelIdeal
import proofs.«159884_j32023276159237_2_alg».proof.Proof.Spec
import Idealize.ShloMosaic.Lib.IdealHost
import Idealize.ShloMosaic.Lib.Pipeline.Value

noncomputable section

open scoped BigOperators

namespace Cert.KernelIdeal.HostPre

open Cert.KernelIdeal Cert.KernelIdeal.Gen
open Idealize.ShloMosaic Idealize.ShloMosaic.ValueIdx

/-! ## Single operations at an index -/

/-- The sum along each row of a 4096 × 256 array, from zero: at row r it is zero plus the sum of the row's entries. -/
theorem rowSum_apply (y : FVec Ideal S4096x256 .f32) (h : S4096x256.ReducesTo [1] S4096) (hu : 0 < S_.numel) (r : Fin 4096) :
    Host.reduceAdd (F := Ideal) y (constant (F := Ideal) S_ .f32 0x00000000#32) h hu (ix1 r)
      = Cert.Loss.zero + ∑ k : Fin 256, y (ix2 r k) := by
  rw [hostReduceAdd_apply, Ideal.hostReduceAdd_single _ (by decide : S4096x256.Reduces [1] S4096)]
  refine congrArg₂ (· + ·) rfl (Finset.sum_congr rfl fun k _ => congrArg y ?_)
  funext a
  match a with
  | ⟨0, _⟩ => rfl
  | ⟨1, _⟩ => rfl

/-- A row statistic [4096] kept as a column [4096, 1] reads, at (r, u), the statistic of row r. -/
theorem col_apply {α : Type} (v : S4096.Idx → α) (h : S4096.BroadcastsInDim S4096x1 (![0] : Fin 1 → Fin S4096x1.rank))
    (r : Fin 4096) (u : Fin 1) :
    broadcastInDim S4096x1 ![0] h v (ix2 r u) = v (ix1 r) :=
  broadcastInDim_apply _ h v (ix2 r u) (ix1 r) fun a => match a with | ⟨0, _⟩ => rfl

/-- A column [4096, 1] spread over the 256 entries of each row reads, at (r, k), the column's entry of row r. -/
theorem spread_apply {α : Type} (v : S4096x1.Idx → α)
    (h : S4096x1.BroadcastsInDim S4096x256 (![0, 1] : Fin 2 → Fin S4096x256.rank)) (r : Fin 4096) (k : Fin 256) :
    broadcastInDim S4096x256 ![0, 1] h v (ix2 r k) = v (ix2 r (0 : Fin 1)) :=
  broadcastInDim_apply _ h v (ix2 r k) (ix2 r (0 : Fin 1)) fun a => match a with | ⟨0, _⟩ => rfl | ⟨1, _⟩ => rfl

/-- The host's square root at an index is the square root of the entry. -/
theorem hostSqrt_apply {s : Shape} {φ : FTy} (v : FVec Ideal s φ) (i : s.Idx) : Host.sqrt v i = Ideal.sqrt (v i) := rfl

/-! ## The normalisation of one argument array -/

/-- The Euclidean norms of the rows, as a column. -/
def normT (x : FVec Ideal S4096x256 .f32) : FVec Ideal S4096x1 .f32 :=
  Host.sqrt (broadcastInDim S4096x1 ![0] bcast_S4096_S4096x1_0
    (Host.reduceAdd (F := Ideal) (mulf x x) (constant (F := Ideal) S_ .f32 0x00000000#32) reducesTo_S4096x256_S4096_d1 h_S_))

/-- The rows divided by their norms clipped below at the small constant. -/
def unitT (x : FVec Ideal S4096x256 .f32) : FVec Ideal S4096x256 .f32 :=
  Host.divf (F := Ideal) x (broadcastInDim S4096x256 ![0, 1] bcast_S4096x1_S4096x256_0_1
    (maximumf (normT x) (broadcastInDim S4096x1 ![] bcast_S_S4096x1 (constant (F := Ideal) S_ .f32 0x2B8CBCCC#32))))

/-- The column of norms at row r is the square root of zero plus the sum of the row's squares. -/
theorem normT_apply (x : FVec Ideal S4096x256 .f32) (r : Fin 4096) (u : Fin 1) :
    normT x (ix2 r u) = Ideal.sqrt (Cert.Loss.zero + ∑ k : Fin 256, x (ix2 r k) * x (ix2 r k)) := by
  rw [normT, hostSqrt_apply, col_apply, rowSum_apply]
  rfl

/-- Entry (r, k) of the normalised array is the entry of x divided by the clipped norm of its row. -/
theorem unitT_apply (x : FVec Ideal S4096x256 .f32) (r : Fin 4096) (k : Fin 256) :
    unitT x (ix2 r k) = Cert.Loss.unit x r k := by
  rw [unitT, hostDivf_apply, spread_apply, maximumf_apply, normT_apply]
  rfl

/-! ## Two arrays stacked along the rows, read at an index -/

/-- Two 4096 × 256 arrays stacked: a row below 4096 is that row of the first, -/
theorem stack2_left {α : Type} (x₁ x₂ : S4096x256.Idx → α) (h : Shape.Concatenates [S4096x256, S4096x256] S8192x256 0)
    (r : Fin 8192) (k : Fin 256) (hr : r.val < 4096) :
    concatenate S8192x256 0 [⟨S4096x256, x₁⟩, ⟨S4096x256, x₂⟩] h (ix2 r k) = x₁ (ix2 ⟨r.val, hr⟩ k) :=
  concatenate_pair_apply_left (t := S8192x256) (s₁ := S4096x256) (s₂ := S4096x256) 0 x₁ x₂ h (ix2 r k) rfl
    (ix2 ⟨r.val, hr⟩ k) (fun b => match b with | ⟨0, _⟩ => rfl | ⟨1, _⟩ => rfl)

/-- and a row from 4096 on is the row 4096 places earlier of the second. -/
theorem stack2_right {α : Type} (x₁ x₂ : S4096x256.Idx → α) (h : Shape.Concatenates [S4096x256, S4096x256] S8192x256 0)
    (r : Fin 8192) (k : Fin 256) (hr : 4096 ≤ r.val) :
    concatenate S8192x256 0 [⟨S4096x256, x₁⟩, ⟨S4096x256, x₂⟩] h (ix2 r k) = x₂ (ix2 ⟨r.val - 4096, by omega⟩ k) :=
  concatenate_pair_apply_right (t := S8192x256) (s₁ := S4096x256) (s₂ := S4096x256) 0 x₁ x₂ h (ix2 r k) rfl rfl
    (ix2 ⟨r.val - 4096, by omega⟩ k)
    (fun b hb => match b, hb with | ⟨0, _⟩, hb => absurd rfl hb | ⟨1, _⟩, _ => rfl)
    (by show r.val - 4096 + 4096 = r.val; omega)

/-- Two arrays of 4096 entries laid end to end: an entry below 4096 is that entry of the first, -/
theorem stack1_left {α : Type} (x₁ x₂ : S4096.Idx → α) (h : Shape.Concatenates [S4096, S4096] S8192 0)
    (r : Fin 8192) (hr : r.val < 4096) :
    concatenate S8192 0 [⟨S4096, x₁⟩, ⟨S4096, x₂⟩] h (ix1 r) = x₁ (ix1 ⟨r.val, hr⟩) :=
  concatenate_pair_apply_left (t := S8192) (s₁ := S4096) (s₂ := S4096) 0 x₁ x₂ h (ix1 r) rfl
    (ix1 ⟨r.val, hr⟩) (fun b => match b with | ⟨0, _⟩ => rfl)

/-- and an entry from 4096 on is the entry 4096 places earlier of the second. -/
theorem stack1_right {α : Type} (x₁ x₂ : S4096.Idx → α) (h : Shape.Concatenates [S4096, S4096] S8192 0)
    (r : Fin 8192) (hr : 4096 ≤ r.val) :
    concatenate S8192 0 [⟨S4096, x₁⟩, ⟨S4096, x₂⟩] h (ix1 r) = x₂ (ix1 ⟨r.val - 4096, by omega⟩) :=
  concatenate_pair_apply_right (t := S8192) (s₁ := S4096) (s₂ := S4096) 0 x₁ x₂ h (ix1 r) rfl rfl
    (ix1 ⟨r.val - 4096, by omega⟩)
    (fun b hb => match b, hb with | ⟨0, _⟩, hb => absurd rfl hb)
    (by show r.val - 4096 + 4096 = r.val; omega)

/-! ## The array the region reads, and the positive pairs -/

/-- The two normalised arrays stacked along the rows, converted to the narrower format. -/
def zT (q p : FVec Ideal S4096x256 .f32) : FVec Ideal S8192x256 .bf16 :=
  truncf .bf16 (concatenate S8192x256 0 [⟨S4096x256, unitT q⟩, ⟨S4096x256, unitT p⟩]
    concatenates_S4096x256_S4096x256_S8192x256_d0) bitsLt_bf16_f32

/-- Entry (r, k) of it is the stacked array of the loss. -/
theorem zT_apply (q p : FVec Ideal S4096x256 .f32) (r : Fin 8192) (k : Fin 256) :
    zT q p (ix2 r k) = Cert.Loss.z q p r k := by
  rw [zT, truncf_apply]
  unfold Cert.Loss.z
  by_cases h : r.val < 4096
  · rw [dif_pos h, stack2_left _ _ _ r k h, unitT_apply]
  · rw [dif_neg h, stack2_right _ _ _ r k (by omega), unitT_apply]

/-- The inner products of the rows of the two normalised arrays, added from zero. -/
def pairT (q p : FVec Ideal S4096x256 .f32) : FVec Ideal S4096 .f32 :=
  Host.reduceAdd (F := Ideal) (mulf (unitT q) (unitT p)) (constant (F := Ideal) S_ .f32 0x00000000#32)
    reducesTo_S4096x256_S4096_d1 h_S_

/-- They laid twice end to end. -/
def posT (q p : FVec Ideal S4096x256 .f32) : FVec Ideal S8192 .f32 :=
  concatenate S8192 0 [⟨S4096, pairT q p⟩, ⟨S4096, pairT q p⟩] concatenates_S4096_S4096_S8192_d0

theorem pairT_apply (q p : FVec Ideal S4096x256 .f32) (r : Fin 4096) :
    pairT q p (ix1 r) = Cert.Loss.zero + ∑ k : Fin 256, Cert.Loss.unit q r k * Cert.Loss.unit p r k := by
  rw [pairT, rowSum_apply]
  refine congrArg₂ (· + ·) rfl (Finset.sum_congr rfl fun k _ => ?_)
  rw [mulf_apply, unitT_apply, unitT_apply]

/-- Entry r of the positive pairs is the inner product of the normalised rows numbered r mod 4096. -/
theorem posT_apply (q p : FVec Ideal S4096x256 .f32) (r : Fin 8192) :
    posT q p (ix1 r) = Cert.Loss.posK q p r := by
  rw [posT]
  unfold Cert.Loss.posK
  have hr := r.isLt
  by_cases h : r.val < 4096
  · rw [stack1_left _ _ _ r h, pairT_apply]
    have e : (⟨r.val, h⟩ : Fin 4096) = ⟨r.val % 4096, Nat.mod_lt _ (by norm_num)⟩ := Fin.ext (by show r.val = r.val % 4096; omega)
    rw [e]
  · rw [stack1_right _ _ _ r (by omega), pairT_apply]
    have e : (⟨r.val - 4096, by omega⟩ : Fin 4096) = ⟨r.val % 4096, Nat.mod_lt _ (by norm_num)⟩ :=
      Fin.ext (by show r.val - 4096 = r.val % 4096; omega)
    rw [e]

end Cert.KernelIdeal.HostPre

end
-- ==== Proof.KHostPreZ.lean ====
/-
  The array the region reads, as the region finds it: after the twenty-six host operations before the region, the
  buffer of the stacked array holds, at (r, k), entry k of row r of the two normalised argument arrays stacked.
-/
import proofs.«159884_j32023276159237_2_alg».proof.Proof.KData
import proofs.«159884_j32023276159237_2_alg».proof.Proof.KHostOps
import Idealize.ShloMosaic.Lib.StableHlo.Run

set_option maxRecDepth 16384

noncomputable section

open scoped BigOperators

namespace Cert.KernelIdeal.HostPre

open Cert.KernelIdeal Cert.KernelIdeal.Gen Cert.KernelIdeal.Frm
open Idealize.ShloMosaic Idealize.ShloMosaic.ValueIdx Idealize.ShloMosaic.StableHlo

variable (m : (ℓ : Loc nD τ sig) → Buf (Elt Ideal) ℓ) (c : Dev nD)

/-- The buffer of the stacked array when the region is entered is the operations' term over the two argument arrays
    as launched. -/
theorem V_v14 :
    (V m c main_v14 : S8192x256.Idx → EReal) = zT (m (c, Proc.devRef .tc main_arg0)) (m (c, Proc.devRef .tc main_arg1)) := by
  dsimp only [V, V0, preOps]
  simp only [hostOps0, hostOps0_1, hostOps0_2, hostOps0_3, List.flatten_cons, List.flatten_nil, List.append_nil,
    List.cons_append, List.nil_append]
  after_results_simp
  rfl

/-- Read at an index it is the stacked array of the loss. -/
theorem pre_z (r : Fin 8192) (k : Fin 256) :
    V m c main_v14 (ix2 r k) = Cert.Loss.z (m (c, Proc.devRef .tc main_arg0)) (m (c, Proc.devRef .tc main_arg1)) r k :=
  (congrFun (V_v14 m c) (ix2 r k)).trans (zT_apply _ _ r k)

end Cert.KernelIdeal.HostPre

end
-- ==== Proof.KHostPrePos.lean ====
/-
  The positive pairs as the region's exit finds them: after the twenty-six host operations before the region, the
  buffer of the positive pairs holds, at r, the inner product (added from zero) of the normalised rows numbered
  r mod 4096 of the two argument arrays.
-/
import proofs.«159884_j32023276159237_2_alg».proof.Proof.KData
import proofs.«159884_j32023276159237_2_alg».proof.Proof.KHostOps
import Idealize.ShloMosaic.Lib.StableHlo.Run

set_option maxRecDepth 16384

noncomputable section

open scoped BigOperators

namespace Cert.KernelIdeal.HostPre

open Cert.KernelIdeal Cert.KernelIdeal.Gen Cert.KernelIdeal.Frm
open Idealize.ShloMosaic Idealize.ShloMosaic.ValueIdx Idealize.ShloMosaic.StableHlo

variable (m : (ℓ : Loc nD τ sig) → Buf (Elt Ideal) ℓ) (c : Dev nD)

/-- The buffer of the positive pairs when the region is entered is the operations' term over the two argument arrays
    as launched. -/
theorem V_v12 :
    (V m c main_v12 : S8192.Idx → EReal) = posT (m (c, Proc.devRef .tc main_arg0)) (m (c, Proc.devRef .tc main_arg1)) := by
  dsimp only [V, V0, preOps]
  simp only [hostOps0, hostOps0_1, hostOps0_2, hostOps0_3, List.flatten_cons, List.flatten_nil, List.append_nil,
    List.cons_append, List.nil_append]
  after_results_simp
  rfl

/-- Read at an index it is the positive pair of the loss. -/
theorem pre_pos (r : Fin 8192) :
    V m c main_v12 (ix1 r) = Cert.Loss.posK (m (c, Proc.devRef .tc main_arg0)) (m (c, Proc.devRef .tc main_arg1)) r :=
  (congrFun (V_v12 m c) (ix1 r)).trans (posT_apply _ _ r)

end Cert.KernelIdeal.HostPre

end
-- ==== Proof.KValPay.lean ====
/-
  Two pure terms of the tiled row-sum body, read at one index over the extended reals.

  With x0 a staged block of 512 rows and x1 a staged tile of 2048 rows (both 256 wide):
    • the zeroed running sum is zero at every row;
    • the exponentiated tile at (p, c) is exp of twice the inner product of row p of x0 with row c of x1 (the product
      contracts the two 256-wide axes into a zero accumulator, so only the sum is left).
-/
import proofs.«159884_j32023276159237_2_alg».proof.Proof.Gen.KernelIdeal.Skeleton
import proofs.«159884_j32023276159237_2_alg».proof.Proof.Spec
import Idealize.ShloMosaic.PureOps.Ideal.Laws
import Idealize.ShloMosaic.Lib.Pipeline.Value
import Idealize.ShloMosaic.Lib.ValueIdx

noncomputable section

open scoped BigOperators

namespace Cert.KVal

open Cert.KernelIdeal Cert.KernelIdeal.Gen
open Idealize.ShloMosaic Idealize.ShloMosaic.ValueIdx

/-- The zeroed running sum is zero at every row. -/
theorem pay1_apply (p : Fin 512) : k0_pay1 (F := Ideal) (ix2 p (0 : Fin 1)) = Cert.Loss.zero := by
  unfold k0_pay1
  rw [shapeCast_self]
  rfl

/-- The contraction index of the tile product is its one coordinate, below 256. -/
abbrev tileDot : DotDims S512x256 S2048x256 S512x2048 := dot_S512x256_S2048x256_S512x2048_1_1_0_0_n_n

/-- The tile product into a zero accumulator, at (p, c): the inner product of row p of the block with row c of the tile. -/
theorem tileDot_apply (x0 : FVec Ideal S512x256 .bf16) (x1 : FVec Ideal S2048x256 .bf16) (p : Fin 512) (cc : Fin 2048) :
    matmul tileDot none x0 x1 (constant (F := Ideal) S512x2048 .f32 0x00000000#32) (ix2 p cc)
      = ∑ k : Fin 256, x0 (ix2 p k) * x1 (ix2 cc k) := by
  simp only [matmul]
  rw [Ideal.matmul_constant_zero_apply, ← Equiv.sum_comp (contrEquiv1 tileDot 256 rfl rfl).symm]
  refine Finset.sum_congr rfl fun k _ => ?_
  have hk := contrEquiv1_symm_val tileDot 256 rfl rfl k
  have el : tileDot.lhsIdx (ix2 p cc) ((contrEquiv1 tileDot 256 rfl rfl).symm k) = ix2 p k := funext fun a => Fin.ext (by
    match a with
    | ⟨0, _⟩ =>
      show (tileDot.lhsIdx (ix2 p cc) _ 0).val = p.val
      unfold DotDims.lhsIdx
      rw [dif_neg (show ¬(0 : Fin S512x256.rank) ∈ tileDot.lhsBatch by decide), dif_pos (show (0 : Fin S512x256.rank) ∈ tileDot.lhsNonContracting by decide)]
      rfl
    | ⟨1, _⟩ => exact ((tileDot.lhsIdx_val_of_single (cl := 1) rfl (ix2 p cc) _).trans hk))
  have er : tileDot.rhsIdx (ix2 p cc) ((contrEquiv1 tileDot 256 rfl rfl).symm k) = ix2 cc k := funext fun a => Fin.ext (by
    match a with
    | ⟨0, _⟩ =>
      show (tileDot.rhsIdx (ix2 p cc) _ 0).val = cc.val
      unfold DotDims.rhsIdx
      rw [dif_neg (show ¬(0 : Fin S2048x256.rank) ∈ tileDot.rhsBatch by decide), dif_pos (show (0 : Fin S2048x256.rank) ∈ tileDot.rhsNonContracting by decide)]
      rfl
    | ⟨1, _⟩ => exact ((tileDot.rhsIdx_val_of_single (cr := 1) rfl (ix2 p cc) _).trans hk))
  rw [el, er]

/-- The exponentiated tile at (p, c): exp of twice the inner product of row p of the block with row c of the tile. -/
theorem pay2_apply (x0 : FVec Ideal S512x256 .bf16) (x1 : FVec Ideal S2048x256 .bf16) (p : Fin 512) (cc : Fin 2048) :
    k0_pay2 (F := Ideal) x0 x1 (ix2 p cc) = Ideal.exp ((∑ k : Fin 256, x0 (ix2 p k) * x1 (ix2 cc k)) * Cert.Loss.two) := by
  unfold k0_pay2
  rw [shapeCast_self, shapeCast_self]
  exact congrArg (fun s => Ideal.exp (s * Cert.Loss.two)) (tileDot_apply x0 x1 p cc)

end Cert.KVal

end
-- ==== Proof.LibColumn.lean ====
/-
  Two layout operations read at an index, for a column kept as a trailing unit axis (a row statistic `[a]` carried as
  `[a, 1]` and spread over the `b` entries of each row), in the style of the library's `shapeCast_a_1a_apply` and
  `broadcastTo_1b_ab_apply`.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KValPay34.lean ====
/-
  The two running-sum updates of the tiled row-sum body, read at one row over the extended reals.

  With x0 a staged block of 512 rows, x1 a staged tile of 2048 rows (both 256 wide), E the exponentiated tile they
  give (512 × 2048) and a the running sum (a column of 512 entries):
    • the updated running sum at row p is a's entry plus the sum of row p of E over the tile's 2048 columns (the lane
      sum over the second axis, kept as a column);
    • the corrected running sum at row p, at grid point (i, j), is a's entry minus the sum over the tile's columns of
      the entries of E whose global row number 512 i + p equals their global column number 2048 j + c, zero elsewhere.
      The two numbers are formed in 32-bit words; with i < 16, j < 4, p < 512, c < 2048 they stay below 2^32, so the
      words are equal exactly when the numbers are.
-/
import proofs.«159884_j32023276159237_2_alg».proof.Proof.KValPay
import proofs.«159884_j32023276159237_2_alg».proof.Proof.LibColumn

noncomputable section

open scoped BigOperators

namespace Cert.KVal

open Cert.KernelIdeal Cert.KernelIdeal.Gen
open Idealize.ShloMosaic Idealize.ShloMosaic.ValueIdx

/-! ## The lane sum kept as a column -/

/-- The sum over the second axis of a 512 × 2048 array, at row p: the sum of that row's 2048 entries. -/
theorem rowSum_apply (src : FVec Ideal S512x2048 .f32) (p : Fin 512) :
    multiReduction (F := Ideal) .add [1] S512 src 0x00000000#32 reduces_S512x2048_S512 (.inl rfl) rfl (ix1 p)
      = ∑ cc : Fin 2048, src (ix2 p cc) := by
  refine (Ideal.multiReduction_add_single src 0x00000000#32 reduces_S512x2048_S512 (.inl rfl) rfl (ix1 p)).trans ?_
  refine Finset.sum_congr rfl fun k _ => congrArg src (funext fun a => ?_)
  match a with
  | ⟨0, _⟩ => rfl
  | ⟨1, _⟩ => rfl

/-- The same sum carried as a 512 × 1 column, at (p, 0). -/
theorem colSum_apply (src : FVec Ideal S512x2048 .f32) (p : Fin 512) :
    shapeCast S512x1 (multiReduction (F := Ideal) .add [1] S512 src 0x00000000#32 reduces_S512x2048_S512 (.inl rfl) rfl)
        shapeCasts_S512_S512x1 (ix2 p (0 : Fin 1))
      = ∑ cc : Fin 2048, src (ix2 p cc) :=
  (Cert.LibColumn.shapeCast_a_a1_apply _ shapeCasts_S512_S512x1 p 0).trans (rowSum_apply src p)

/-- The updated running sum at row p: the running sum's entry plus the row's sum over the tile. -/
theorem pay3_apply (x0 : FVec Ideal S512x256 .bf16) (x1 : FVec Ideal S2048x256 .bf16) (a : FVec Ideal S512x1 .f32) (p : Fin 512) :
    k0_pay3 (F := Ideal) x0 x1 a (ix2 p (0 : Fin 1))
      = a (ix2 p (0 : Fin 1)) + ∑ cc : Fin 2048, k0_pay2 (F := Ideal) x0 x1 (ix2 p cc) := by
  unfold k0_pay3
  rw [shapeCast_self]
  exact congrArg (a (ix2 p (0 : Fin 1)) + ·) (colSum_apply (k0_pay2 (F := Ideal) x0 x1) p)

/-! ## The diagonal test -/

/-- Two numbers below 2^32 are equal exactly when their 32-bit words are. -/
theorem word_beq (x y : Nat) (hx : x < 2 ^ 32) (hy : y < 2 ^ 32) :
    BitVec.ofBool (BitVec.ofNat 32 x == BitVec.ofNat 32 y) = if x = y then 1#1 else 0#1 := by
  by_cases h : x = y
  · subst h; simp
  · have hne : BitVec.ofNat 32 x ≠ BitVec.ofNat 32 y := fun e => h (by
      have := congrArg BitVec.toNat e
      rwa [BitVec.toNat_ofNat, BitVec.toNat_ofNat, Nat.mod_eq_of_lt hx, Nat.mod_eq_of_lt hy] at this)
    rw [if_neg h, beq_false_of_ne hne]
    rfl

/-- Global row number against global column number, formed in 32-bit words: no wrap on the grid. -/
theorem diag_bit (a b p cc : Nat) (ha : a < 16) (hb : b < 4) (hp : p < 512) (hc : cc < 2048) :
    IntOp.cmpi .eq (IntOp.addi (IntOp.muli (BitVec.ofNat 32 a) 512#32) (BitVec.ofNat 32 p))
        (IntOp.addi (IntOp.muli (BitVec.ofNat 32 b) 2048#32) (BitVec.ofNat 32 cc))
      = if 512 * a + p = 2048 * b + cc then 1#1 else 0#1 := by
  have e1 : IntOp.addi (IntOp.muli (BitVec.ofNat 32 a) 512#32) (BitVec.ofNat 32 p) = BitVec.ofNat 32 (512 * a + p) := by
    apply BitVec.eq_of_toNat_eq
    simp only [IntOp.addi, IntOp.muli, BitVec.toNat_add, BitVec.toNat_mul, BitVec.toNat_ofNat]
    omega
  have e2 : IntOp.addi (IntOp.muli (BitVec.ofNat 32 b) 2048#32) (BitVec.ofNat 32 cc) = BitVec.ofNat 32 (2048 * b + cc) := by
    apply BitVec.eq_of_toNat_eq
    simp only [IntOp.addi, IntOp.muli, BitVec.toNat_add, BitVec.toNat_mul, BitVec.toNat_ofNat]
    omega
  rw [e1, e2]
  exact word_beq _ _ (by omega) (by omega)

/-- The body's comparison of row numbers with column numbers, at (p, c) of the tile at grid point i. -/
theorem diagCond_apply (i : grid0.Coords) (p : Fin 512) (cc : Fin 2048) :
    cmpi .eq (addi (broadcast S512x2048 (Scalar.muli (BitVec.ofNat 32 (i 0).val) 512#32)) (iota .tc S512x2048 32 [0] iota_S512x2048_d0_w32))
        (addi (broadcast S512x2048 (Scalar.muli (BitVec.ofNat 32 (i 1).val) 2048#32)) (iota .tc S512x2048 32 [1] iota_S512x2048_d1_w32))
        (ix2 p cc)
      = if 512 * (i 0).val + p.val = 2048 * (i 1).val + cc.val then 1#1 else 0#1 := by
  have h0 : (i 0).val < 16 := (i 0).isLt
  have h1 : (i 1).val < 4 := (i 1).isLt
  show IntOp.cmpi .eq (IntOp.addi (IntOp.muli (BitVec.ofNat 32 (i 0).val) 512#32) (iota .tc S512x2048 32 [0] iota_S512x2048_d0_w32 (ix2 p cc)))
      (IntOp.addi (IntOp.muli (BitVec.ofNat 32 (i 1).val) 2048#32) (iota .tc S512x2048 32 [1] iota_S512x2048_d1_w32 (ix2 p cc))) = _
  rw [iota_single_apply, iota_single_apply]
  exact diag_bit _ _ _ _ h0 h1 p.isLt cc.isLt

/-- The corrected running sum at row p: the running sum's entry minus the tile's entries on the diagonal. -/
theorem pay4_apply (i : grid0.Coords) (x0 : FVec Ideal S512x256 .bf16) (x1 : FVec Ideal S2048x256 .bf16) (a : FVec Ideal S512x1 .f32) (p : Fin 512) :
    k0_pay4 (F := Ideal) i x0 x1 a (ix2 p (0 : Fin 1))
      = a (ix2 p (0 : Fin 1)) - ∑ cc : Fin 2048,
          (if 512 * (i 0).val + p.val = 2048 * (i 1).val + cc.val then k0_pay2 (F := Ideal) x0 x1 (ix2 p cc) else Cert.Loss.zero) := by
  unfold k0_pay4
  dsimp only
  rw [shapeCast_self]
  refine congrArg (a (ix2 p (0 : Fin 1)) - ·) ((colSum_apply _ p).trans ?_)
  refine Finset.sum_congr rfl fun cc _ => ?_
  rw [select_apply, diagCond_apply]
  split
  · exact select_one _ _
  · exact select_zero _ _

end Cert.KVal

end
-- ==== Proof.KValBlk.lean ====
/-
  The two staged blocks of a grid point, read off the stacked array.

  Point t of the 16 × 4 grid is (t / 4, t % 4).  The row block staged at t is rows 512 (t / 4) … of the array, the
  column tile staged at t is rows 2048 (t % 4) … of the same array: a block's coordinate is its block number times the
  block's extent plus the coordinate inside the block, and the block numbers are decided once over the grid.
-/
import proofs.«159884_j32023276159237_2_alg».proof.Proof.KData
import Idealize.ShloMosaic.Lib.ValueIdx

set_option maxRecDepth 16384

noncomputable section

namespace Cert.KVal

open Cert.KernelIdeal Cert.KernelIdeal.Gen Cert.KernelIdeal.Frm
open Idealize.ShloMosaic Idealize.ShloMosaic.TcCoe Idealize.ShloMosaic.ValueIdx
open Idealize.SL Idealize.SL.Sem

variable {F : FTy → Type} [FloatOps F]
variable (m : (ℓ : Loc nD τ sig) → Buf (Elt F) ℓ)

/-- The block numbers of the three windows at point t: row block t / 4 for the first input and the output, column
    tile t % 4 for the second input; every block spans the whole second axis. -/
theorem idx_facts : ∀ t : Fin cfg0.N,
    win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = t.val / 4 ∧ win0_2.index t (1 : Fin 2) = 0 :=
  (by decide +kernel : ∀ t : Fin grid0.N,
    win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = t.val / 4 ∧ win0_2.index t (1 : Fin 2) = 0)

/-- A point is below 64. -/
theorem point_lt (t : Fin cfg0.N) : t.val < 64 := t.isLt

/-- The row block staged at point t, at (p, k): row 512 (t / 4) + p of the array, column k. -/
theorem iblk0_apply (c : Dev nD) (t : Fin cfg0.N) (p : Fin 512) (k : Fin 256) :
    iblk m c 0 t (ix2 p k)
      = V m c main_v14 (ix2 (⟨512 * (t.val / 4) + p.val, by have := point_lt t; omega⟩ : Fin 8192) k) := by
  obtain ⟨e0, e1, -, -, -, -⟩ := idx_facts t
  show V m c main_v14 (((cfg0.win 0).blk t).view.emb (ix2 p k)) = V m c main_v14 _
  refine congrArg (V m c main_v14) (funext fun a => Fin.ext ?_)
  match a with
  | ⟨0, _⟩ => show win0_0.index t (0 : Fin 2) * 512 + 1 * p.val = 512 * (t.val / 4) + p.val; omega
  | ⟨1, _⟩ => show win0_0.index t (1 : Fin 2) * 256 + 1 * k.val = k.val; omega

/-- The column tile staged at point t, at (cc, k): row 2048 (t % 4) + cc of the array, column k. -/
theorem iblk1_apply (c : Dev nD) (t : Fin cfg0.N) (cc : Fin 2048) (k : Fin 256) :
    iblk m c 1 t (ix2 cc k)
      = V m c main_v14 (ix2 (⟨2048 * (t.val % 4) + cc.val, by omega⟩ : Fin 8192) k) := by
  obtain ⟨-, -, e2, e3, -, -⟩ := idx_facts t
  show V m c main_v14 (((cfg0.win 1).blk t).view.emb (ix2 cc k)) = V m c main_v14 _
  refine congrArg (V m c main_v14) (funext fun a => Fin.ext ?_)
  match a with
  | ⟨0, _⟩ => show win0_1.index t (0 : Fin 2) * 2048 + 1 * cc.val = 2048 * (t.val % 4) + cc.val; omega
  | ⟨1, _⟩ => show win0_1.index t (1 : Fin 2) * 256 + 1 * k.val = k.val; omega

end Cert.KVal

end
-- ==== Proof.KValAcc.lean ====
/-
  The running sum after the last tile of a row block is the tiled denominator.

  Under the hypothesis that the stacked array the region finds is z q p, one grid step at point t = (i, j), read at
  row p' of the block, is one step of the tiled arrangement at global row r = 512 i + p' and tile j: the staged
  blocks are rows of z, so the exponentiated tile at (p', c) is exp (2 sim r (2048 j + c)); the step adds that row's
  sum over the tile; it starts from zero when j = 0; and it subtracts the diagonal term exactly when the tile meets
  the diagonal, (t / 4) / 4 = t % 4, which for r = 512 (t / 4) + p' is r / 2048 = t % 4.  Four steps from the first
  tile of a row block give the denominator of each of its rows.
-/
import proofs.«159884_j32023276159237_2_alg».proof.Proof.KData
import proofs.«159884_j32023276159237_2_alg».proof.Proof.Spec
import proofs.«159884_j32023276159237_2_alg».proof.Proof.KValPay34
import proofs.«159884_j32023276159237_2_alg».proof.Proof.KValBlk

set_option maxRecDepth 16384

noncomputable section

open scoped BigOperators

namespace Cert.KVal

open Cert.KernelIdeal Cert.KernelIdeal.Gen Cert.KernelIdeal.Frm
open Idealize.ShloMosaic Idealize.ShloMosaic.TcCoe Idealize.ShloMosaic.ValueIdx
open Idealize.SL Idealize.SL.Sem

/-! ## One grid step at a row, over any blocks -/

/-- One grid step read at row p: from zero or from the running sum's entry, the row's sum over the tile added, the
    diagonal entries subtracted when the tile meets the diagonal. -/
theorem accNew_apply (i : grid0.Coords) (x0 : FVec Ideal S512x256 .bf16) (x1 : FVec Ideal S2048x256 .bf16)
    (a : FVec Ideal S512x1 .f32) (p : Fin 512) :
    accNew (F := Ideal) i x0 x1 a (ix2 p (0 : Fin 1))
      = if cond2 i then
          ((if cond1 i then Cert.Loss.zero else a (ix2 p (0 : Fin 1))) + ∑ cc : Fin 2048, k0_pay2 (F := Ideal) x0 x1 (ix2 p cc))
            - ∑ cc : Fin 2048, (if 512 * (i 0).val + p.val = 2048 * (i 1).val + cc.val then k0_pay2 (F := Ideal) x0 x1 (ix2 p cc) else Cert.Loss.zero)
        else (if cond1 i then Cert.Loss.zero else a (ix2 p (0 : Fin 1))) + ∑ cc : Fin 2048, k0_pay2 (F := Ideal) x0 x1 (ix2 p cc) := by
  have hb : (if cond1 i then k0_pay1 (F := Ideal) else a) (ix2 p (0 : Fin 1))
      = if cond1 i then Cert.Loss.zero else a (ix2 p (0 : Fin 1)) := by
    by_cases h : cond1 i
    · rw [if_pos h, if_pos h]; exact pay1_apply p
    · rw [if_neg h, if_neg h]
  unfold accNew
  by_cases h2 : cond2 i
  · rw [if_pos h2, if_pos h2]
    refine (pay4_apply i x0 x1 _ p).trans ?_
    rw [pay3_apply, hb]
  · rw [if_neg h2, if_neg h2]
    refine (pay3_apply x0 x1 _ p).trans ?_
    rw [hb]

/-! ## One grid step at a point, under the hypothesis on the array -/

variable (m : (ℓ : Loc nD τ sig) → Buf (Elt Ideal) ℓ) (q p : Cert.Loss.Arr)

/-- Point t is (t / 4, t % 4). -/
theorem coords_facts : ∀ t : Fin cfg0.N, (grid0.coords t 0).val = t.val / 4 ∧ (grid0.coords t 1).val = t.val % 4 :=
  (by decide +kernel : ∀ t : Fin grid0.N, (grid0.coords t 0).val = t.val / 4 ∧ (grid0.coords t 1).val = t.val % 4)

/-- The exponentiated tile of point t at (p', c) is the exponentiated doubled similarity of global row r = 512 (t / 4) + p'
    with column c of tile j = t % 4. -/
theorem pay2_point (c : Dev nD) (hz : ∀ r k, V m c main_v14 (ix2 r k) = Cert.Loss.z q p r k)
    (t : Fin cfg0.N) (p' : Fin 512) (r : Fin 8192) (j : Fin 4)
    (hr : r.val = 512 * (t.val / 4) + p'.val) (hj : j.val = t.val % 4) (cc : Fin 2048) :
    k0_pay2 (F := Ideal) (iblk m c 0 t) (iblk m c 1 t) (ix2 p' cc) = Cert.Loss.expK q p r (Cert.Loss.col j cc) := by
  have e0 : ∀ h : 512 * (t.val / 4) + p'.val < 8192, (⟨512 * (t.val / 4) + p'.val, h⟩ : Fin 8192) = r :=
    fun h => Fin.ext hr.symm
  have e1 : ∀ h : 2048 * (t.val % 4) + cc.val < 8192, (⟨2048 * (t.val % 4) + cc.val, h⟩ : Fin 8192) = Cert.Loss.col j cc :=
    fun h => Fin.ext (by show _ = 2048 * j.val + cc.val; rw [hj])
  refine (pay2_apply (iblk m c 0 t) (iblk m c 1 t) p' cc).trans ?_
  unfold Cert.Loss.expK Cert.Loss.sim
  refine congrArg (fun s => Ideal.exp (s * Cert.Loss.two)) (Finset.sum_congr rfl fun k _ => ?_)
  rw [iblk0_apply, iblk1_apply, e0, e1, hz, hz]

/-- One grid step at point t, read at row p': one step of the tiled arrangement at global row r and tile j. -/
theorem point_step (c : Dev nD) (hz : ∀ r k, V m c main_v14 (ix2 r k) = Cert.Loss.z q p r k)
    (t : Fin cfg0.N) (a : FVec Ideal S512x1 .f32) (p' : Fin 512) (r : Fin 8192) (j : Fin 4)
    (hr : r.val = 512 * (t.val / 4) + p'.val) (hj : j.val = t.val % 4) :
    accNew (F := Ideal) (grid0.coords t) (iblk m c 0 t) (iblk m c 1 t) a (ix2 p' (0 : Fin 1))
      = Cert.Loss.stepK q p r (if t.val % 4 = 0 then Cert.Loss.zero else a (ix2 p' (0 : Fin 1))) j := by
  obtain ⟨c0, c1⟩ := coords_facts t
  have hpart : ∑ cc : Fin 2048, k0_pay2 (F := Ideal) (iblk m c 0 t) (iblk m c 1 t) (ix2 p' cc) = Cert.Loss.partK q p r j :=
    Finset.sum_congr rfl fun cc _ => pay2_point m q p c hz t p' r j hr hj cc
  have hdiag : ∑ cc : Fin 2048, (if 512 * (grid0.coords t 0).val + p'.val = 2048 * (grid0.coords t 1).val + cc.val
        then k0_pay2 (F := Ideal) (iblk m c 0 t) (iblk m c 1 t) (ix2 p' cc) else Cert.Loss.zero) = Cert.Loss.diagK q p r j := by
    unfold Cert.Loss.diagK
    refine Finset.sum_congr rfl fun cc _ => ?_
    rw [pay2_point m q p c hz t p' r j hr hj cc, c0, c1]
    refine if_congr ?_ rfl rfl
    show _ ↔ r.val = 2048 * j.val + cc.val
    rw [hr, hj]
  have hb : (if cond1 (grid0.coords t) then Cert.Loss.zero else a (ix2 p' (0 : Fin 1)))
      = (if t.val % 4 = 0 then Cert.Loss.zero else a (ix2 p' (0 : Fin 1))) := if_congr (hcond1 t) rfl rfl
  refine (accNew_apply (grid0.coords t) (iblk m c 0 t) (iblk m c 1 t) a p').trans ?_
  rw [hpart, hdiag, hb]
  unfold Cert.Loss.stepK
  refine if_congr ((hcond2 t).trans ?_) rfl rfl
  rw [hr, hj]
  have := point_lt t
  have := p'.isLt
  omega

/-! ## The running sum along a row block -/

/-- In a first tile the running sum at row p' is the first step from zero, whatever came before. -/
theorem accAt_first (c : Dev nD) (hz : ∀ r k, V m c main_v14 (ix2 r k) = Cert.Loss.z q p r k) :
    ∀ (n : ℕ) (hn : n < cfg0.N) (p' : Fin 512) (r : Fin 8192) (j : Fin 4), n % 4 = 0 → r.val = 512 * (n / 4) + p'.val →
      j.val = n % 4 → accAt m c n hn (ix2 p' (0 : Fin 1)) = Cert.Loss.stepK q p r Cert.Loss.zero j
  | 0, hn, p', r, j, h0, hr, hj => by
    rw [accAt_zero]
    exact (point_step m q p c hz ⟨0, hn⟩ _ p' r j hr hj).trans (by rw [if_pos h0])
  | n + 1, hn, p', r, j, h0, hr, hj => by
    rw [accAt_succ]
    exact (point_step m q p c hz ⟨n + 1, hn⟩ _ p' r j hr hj).trans (by rw [if_pos h0])

/-- In a later tile the running sum at row p' is one step from the running sum of the point before. -/
theorem accAt_later (c : Dev nD) (hz : ∀ r k, V m c main_v14 (ix2 r k) = Cert.Loss.z q p r k)
    (n : ℕ) (hn : n + 1 < cfg0.N) (p' : Fin 512) (r : Fin 8192) (j : Fin 4) (h0 : (n + 1) % 4 ≠ 0)
    (hr : r.val = 512 * ((n + 1) / 4) + p'.val) (hj : j.val = (n + 1) % 4) :
    accAt m c (n + 1) hn (ix2 p' (0 : Fin 1))
      = Cert.Loss.stepK q p r (accAt m c n (Nat.lt_of_succ_lt hn) (ix2 p' (0 : Fin 1))) j := by
  rw [accAt_succ]
  exact (point_step m q p c hz ⟨n + 1, hn⟩ _ p' r j hr hj).trans (by rw [if_neg h0])

/-- After the last tile of row block i the running sum at row p' is the denominator of global row 512 i + p'. -/
theorem acc_last (c : Dev nD) (hz : ∀ r k, V m c main_v14 (ix2 r k) = Cert.Loss.z q p r k)
    (i : Fin 16) (p' : Fin 512) (hn : 4 * i.val + 3 < cfg0.N) :
    accAt m c (4 * i.val + 3) hn (ix2 p' (0 : Fin 1))
      = Cert.Loss.denomK q p ⟨512 * i.val + p'.val, by have := i.isLt; have := p'.isLt; omega⟩ := by
  have hi := i.isLt
  have hp := p'.isLt
  have hr : ∀ k, k < 4 → (⟨512 * i.val + p'.val, by omega⟩ : Fin 8192).val = 512 * ((4 * i.val + k) / 4) + p'.val := by
    intro k hk; show 512 * i.val + p'.val = _; omega
  have a0 := accAt_first m q p c hz (4 * i.val) (by omega) p' ⟨512 * i.val + p'.val, by omega⟩ 0
    (by omega) (by have := hr 0 (by omega); simpa using this) (by show 0 = _; omega)
  have a1 := accAt_later m q p c hz (4 * i.val) (by omega) p' ⟨512 * i.val + p'.val, by omega⟩ 1
    (by omega) (hr 1 (by omega)) (by show 1 = _; omega)
  have a2 := accAt_later m q p c hz (4 * i.val + 1) (by omega) p' ⟨512 * i.val + p'.val, by omega⟩ 2
    (by omega) (hr 2 (by omega)) (by show 2 = _; omega)
  have a3 := accAt_later m q p c hz (4 * i.val + 2) hn p' ⟨512 * i.val + p'.val, by omega⟩ 3
    (by omega) (hr 3 (by omega)) (by show 3 = _; omega)
  rw [a0] at a1
  rw [a1] at a2
  rw [a2] at a3
  exact a3

end Cert.KVal

end
-- ==== Proof.KValArr.lean ====
/-
  The output array after the run: row r holds the running sum after the last tile of its row block.

  The output's block of row block i is written back once, at point (i, 3), and holds the running sum after that
  point.  Row r of the array lies in row block r / 512 at row r % 512 of the block, and the sixteen blocks written
  back tile the array, so after the run row r holds the running sum after point 4 (r / 512) + 3, read at row r % 512.
-/
import proofs.«159884_j32023276159237_2_alg».proof.Proof.KData
import proofs.«159884_j32023276159237_2_alg».proof.Proof.KValBlk
import Idealize.ShloMosaic.Lib.Pipeline.Value
import Idealize.ShloMosaic.Lib.ValueIdx

set_option maxRecDepth 16384

noncomputable section

namespace Cert.KVal

open Cert.KernelIdeal Cert.KernelIdeal.Gen Cert.KernelIdeal.Frm
open Idealize.ShloMosaic Idealize.ShloMosaic.TcCoe Idealize.ShloMosaic.ValueIdx
open Idealize.SL Idealize.SL.Sem
open Idealize.ShloMosaic.Pipeline (Dat)

variable {F : FTy → Type} [FloatOps F]
variable (m : (ℓ : Loc nD τ sig) → Buf (Elt F) ℓ)

/-- The last point of the row block that holds row r is on the grid. -/
theorem last_lt (r : ℕ) (hr : r < 8192) : 4 * (r / 512) + 3 < cfg0.N := by
  show 4 * (r / 512) + 3 < grid0.N
  rw [N_0]; omega

/-- The running sum does not depend on how its point and its row are spelt. -/
theorem accAt_congr (c : Dev nD) {n n' : ℕ} (hn : n < cfg0.N) (hn' : n' < cfg0.N) (h : n = n')
    {y y' : S512x1.Idx} (hy : y = y') : accAt m c n hn y = accAt m c n' hn' y' := by
  subst h; subst hy; rfl

/-- What the output array ends holding: at row r, the running sum after the last tile of row block r / 512, read at
    row r % 512 of the block. -/
def outAcc (c : Dev nD) : S8192x1.Idx → Elt F .f32 := fun i =>
  accAt m c (4 * ((i 0).val / 512) + 3) (last_lt _ (idx2_lt0 i))
    (ix2 (⟨(i 0).val % 512, Nat.mod_lt _ (by norm_num)⟩ : Fin 512) (0 : Fin 1))

/-- What a point that writes back writes is its block of that array. -/
theorem flushed_eq (c : Dev nD) (t : Fin cfg0.N) (hf : (cfg0.win 2).flush t = true) :
    (dats m 0 c).flushed 2 t = ((cfg0.win 2).blk t).view.read (Elt F) (outAcc m c) := by
  have h3 : t.val % 4 = 3 := (flush0_2 t).mp hf
  have hN := point_lt t
  obtain ⟨-, -, -, -, e4, e5⟩ := idx_facts t
  show (cfg0.win 2).cut (grid0.coords t) ((dats m 0 c).after 2 t) = _
  rw [after0_2]
  funext y
  show accAt m c t.val t.isLt y = outAcc m c (((cfg0.win 2).blk t).view.emb y)
  have hy0 : (y 0).val < 512 := (y 0).isLt
  have hy1 : (y 1).val < 1 := (y 1).isLt
  have hemb : ((((cfg0.win 2).blk t).view.emb y) 0).val = 512 * (t.val / 4) + (y 0).val := by
    show win0_2.index t (0 : Fin 2) * 512 + 1 * (y 0).val = _
    omega
  unfold outAcc
  refine accAt_congr m c _ _ ?_ ?_
  · rw [hemb]; omega
  · funext a
    apply Fin.ext
    match a with
    | ⟨0, _⟩ => show (y 0).val = ((((cfg0.win 2).blk t).view.emb y) 0).val % 512; rw [hemb]; omega
    | ⟨1, _⟩ => show (y 1).val = 0; omega

/-- An index of the array is in point t's block iff each coordinate is in the block's range on its axis. -/
theorem mem_blk (t : Fin cfg0.N) (i : S8192x1.Idx) :
    i ∈ ((cfg0.win 2).blk t).view.set ↔ ∀ a : Fin 2, win0_2.index t a * S512x1.size a ≤ (i a).val ∧ (i a).val < win0_2.index t a * S512x1.size a + S512x1.size a := by
  show i ∈ ((View.whole main_v15).slice (win0_2.rect t)).set ↔ _
  rw [View.set_slice_whole, Rect.mem_set_unit]
  exact Iff.rfl

/-- The blocks written back tile the array: row r is in the block written back at point 4 (r / 512) + 3. -/
theorem covered (i : S8192x1.Idx) : ∃ t : Fin cfg0.N, (cfg0.win 2).flush t = true ∧ i ∈ ((cfg0.win 2).blk t).view.set := by
  have h0 : (i 0).val < 8192 := (i 0).isLt
  have h1 : (i 1).val < 1 := (i 1).isLt
  refine ⟨⟨4 * ((i 0).val / 512) + 3, last_lt _ h0⟩, (flush0_2 _).mpr (by show (4 * ((i 0).val / 512) + 3) % 4 = 3; omega), ?_⟩
  obtain ⟨-, -, -, -, e4, e5⟩ := idx_facts ⟨4 * ((i 0).val / 512) + 3, last_lt _ h0⟩
  have e4' : win0_2.index ⟨4 * ((i 0).val / 512) + 3, last_lt _ h0⟩ (0 : Fin 2) = (i 0).val / 512 := by
    rw [e4]; show (4 * ((i 0).val / 512) + 3) / 4 = _; omega
  rw [mem_blk]
  intro a
  match a with
  | ⟨0, _⟩ =>
    show win0_2.index _ (0 : Fin 2) * 512 ≤ (i 0).val ∧ (i 0).val < win0_2.index _ (0 : Fin 2) * 512 + 512
    rw [e4']; omega
  | ⟨1, _⟩ =>
    show win0_2.index _ (1 : Fin 2) * 1 ≤ (i 1).val ∧ (i 1).val < win0_2.index _ (1 : Fin 2) * 1 + 1
    rw [e5]; omega

/-- The output array after the run. -/
theorem arr_eq (c : Dev nD) : (dats m 0 c).arrAt 2 cfg0.N = outAcc m c :=
  (dats m 0 c).arrAt_eq_of_cover 2 (outAcc m c) (flushed_eq m c) (covered)

/-- Read at row r: the running sum after point 4 (r / 512) + 3 at row r % 512 of the block. -/
theorem arr_apply (c : Dev nD) (r : Fin 8192) :
    ((dats m 0 c).arrAt 2 cfg0.N : S8192x1.Idx → Elt F .f32) (ix2 r (0 : Fin 1))
      = accAt m c (4 * (r.val / 512) + 3) (last_lt _ r.isLt) (ix2 (⟨r.val % 512, Nat.mod_lt _ (by norm_num)⟩ : Fin 512) (0 : Fin 1)) := by
  rw [arr_eq]
  rfl

end Cert.KVal

end
-- ==== Proof.KValOut.lean ====
/-
  The output array after the run is the tiled denominator, row by row.

  Row r of the output array holds the running sum after the last tile of row block r / 512, read at row r % 512 of the
  block; under the hypothesis that the stacked array the region finds is z q p, that running sum is the denominator of
  global row 512 (r / 512) + r % 512 = r.
-/
import proofs.«159884_j32023276159237_2_alg».proof.Proof.KValAcc
import proofs.«159884_j32023276159237_2_alg».proof.Proof.KValArr

set_option maxRecDepth 16384

noncomputable section

namespace Cert.KVal

open Cert.KernelIdeal Cert.KernelIdeal.Gen Cert.KernelIdeal.Frm
open Idealize.ShloMosaic Idealize.ShloMosaic.TcCoe Idealize.ShloMosaic.ValueIdx
open Idealize.SL Idealize.SL.Sem

variable (m : (ℓ : Loc nD τ sig) → Buf (Elt Ideal) ℓ) (q p : Cert.Loss.Arr)

/-- After the run, row r of the output array is the tiled denominator of row r. -/
theorem out_is_denomK (c : Dev nD) (hz : ∀ r k, V m c main_v14 (ix2 r k) = Cert.Loss.z q p r k) (r : Fin 8192) :
    ((dats m 0 c).arrAt 2 cfg0.N : S8192x1.Idx → Elt Ideal .f32) (ix2 r (0 : Fin 1)) = Cert.Loss.denomK q p r := by
  have hr := r.isLt
  rw [arr_apply]
  refine (acc_last m q p c hz ⟨r.val / 512, by omega⟩ ⟨r.val % 512, Nat.mod_lt _ (by norm_num)⟩ (last_lt _ r.isLt)).trans ?_
  refine congrArg (Cert.Loss.denomK q p) (Fin.ext ?_)
  show 512 * (r.val / 512) + r.val % 512 = r.val
  omega

end Cert.KVal

end
-- ==== Proof.KValue.lean ====
/-
  The value of the program around the tiled row-sum region over the extended reals: its one result is the loss in the
  tiled arrangement, as a function of the first two argument arrays. The host operations before the region leave the
  stacked normalised array and the positive pairs; the region leaves the tiled denominators, row by row; the host
  operations after it take the mean of the negated differences.
-/
import proofs.«159884_j32023276159237_2_alg».proof.Proof.KFrame
import proofs.«159884_j32023276159237_2_alg».proof.Proof.KHostPreZ
import proofs.«159884_j32023276159237_2_alg».proof.Proof.KHostPrePos
import proofs.«159884_j32023276159237_2_alg».proof.Proof.KValOut

set_option maxRecDepth 16384

noncomputable section

namespace Cert.KernelIdeal.Frm

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The result buffer at the end holds the loss in the tiled arrangement. -/
theorem Wend_result (c : Dev nD) :
    Wend m c (Proc.devRef .tc main_v23)
      = fun _ => Cert.Loss.lossK (m ((c.tc : Thread nD τ).loc main_arg0)) (m ((c.tc : Thread nD τ).loc main_arg1)) := by
  rw [Wend_eq, Cert.KernelIdeal.HostTail.tail_value (Wx m c) ((dats m 0 c).arrAt 2 cfg0.N) (V m c main_v12) (Wx_out m c)
    (Wx_of_ne m c main_v12 (by decide))]
  funext _
  unfold Cert.Loss.lossK
  refine congrArg (fun s => Ideal.div (Cert.Loss.zero + s) Cert.Loss.count) (Finset.sum_congr rfl fun r _ => ?_)
  rw [Cert.KernelIdeal.HostPre.pre_pos m c r, Cert.KVal.out_is_denomK m _ _ c (Cert.KernelIdeal.HostPre.pre_z m c) r]

/-- The run at the extended reals, with the result at the loss and the arguments unchanged. -/
theorem run_value : θ_run (defs (F := Ideal)) (onTc (τ := τ) (main (F := Ideal))) ⟨m, fun _ => 0, ρ⟩ (fun r => ∀ c : Dev nD,
      r.2.mem ((c.tc : Thread nD τ).loc main_v23)
        = (fun _ => Cert.Loss.lossK (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := Ideal)) _ _).mono (fun r h c => ⟨(h c).1.trans (Wend_result m c), (h c).2⟩) (run_named m ρ)

end Cert.KernelIdeal.Frm

end
-- ==== Proof.RefUnit.lean ====
/-
  The first stages of the masked arrangement read at an index: each argument array's rows divided by their Euclidean
  norm clipped below at the small constant. Entry `(r, k)` of the quotient is the entry of the argument over the
  maximum of the square root of the row's sum of squares (from the zero word) and the constant.
-/
import proofs.«159884_j32023276159237_2_alg».proof.Proof.Gen.ReferenceIdeal.Read
import proofs.«159884_j32023276159237_2_alg».proof.Proof.Spec

noncomputable section

open scoped BigOperators

namespace Cert.RefUnit

open Cert.ReferenceIdeal Cert.ReferenceIdeal.Read Idealize.ShloMosaic Idealize.ShloMosaic.ValueIdx

/-- The contents of an argument array: 4096 rows of 256 extended reals. -/
abbrev Arg : Type := (⟨S4096x256, .f32⟩ : BufTy).Contents (Elt Ideal)

/-- The first argument's normalised rows. -/
theorem unit_fst (x0 : Arg) (r : Fin 4096) (k : Fin 256) :
    val_main_v4 (F := Ideal) x0 (ix2 r k) = Cert.Loss.unit x0 r k := by
  have e : ∀ k' : Fin 256, idx_main_call0_v1 (idx_main_call0_v2 (idx_main_v3 (ix2 r k))) k' = ix2 r k' :=
    fun k' => funext fun a => by match a with | ⟨0, _⟩ => rfl | ⟨1, _⟩ => rfl
  rw [val_main_v4_apply, val_main_v3_apply, val_main_v2_apply, val_main_v0_apply, val_main_call0_v2_apply,
    val_main_call0_v1_apply, val_main_v1_apply, val_main_cst_apply, val_main_call0_cst_apply]
  simp only [val_main_call0_v0_apply, e, Ideal.hostDivf_def, Ideal.maximumf_def, Ideal.hostUnary_sqrt_def,
    Ideal.ofBits_def, Ideal.mulf_def]
  rfl

/-- The second argument's normalised rows. -/
theorem unit_snd (x1 : Arg) (r : Fin 4096) (k : Fin 256) :
    val_main_v9 (F := Ideal) x1 (ix2 r k) = Cert.Loss.unit x1 r k := by
  have e : ∀ k' : Fin 256, idx_main_call1_v1 (idx_main_call1_v2 (idx_main_v8 (ix2 r k))) k' = ix2 r k' :=
    fun k' => funext fun a => by match a with | ⟨0, _⟩ => rfl | ⟨1, _⟩ => rfl
  rw [val_main_v9_apply, val_main_v8_apply, val_main_v7_apply, val_main_v5_apply, val_main_call1_v2_apply,
    val_main_call1_v1_apply, val_main_v6_apply, val_main_cst_0_apply, val_main_call1_cst_apply]
  simp only [val_main_call1_v0_apply, e, Ideal.hostDivf_def, Ideal.maximumf_def, Ideal.hostUnary_sqrt_def,
    Ideal.ofBits_def, Ideal.mulf_def]
  rfl

end Cert.RefUnit

end
-- ==== Proof.RefLayout.lean ====
/-
  Layout operations of the masked arrangement, read at an index over arbitrary contents: two arrays of 4096 rows (or
  of 4096 entries) stacked into one of 8192, two index columns set side by side, and the read of a square array of
  side 8192 at the row and column numbers an integer array of pairs holds (each number read signed and clamped into
  the array).
-/
import proofs.«159884_j32023276159237_2_alg».proof.Proof.Gen.ReferenceIdeal
import Idealize.ShloMosaic.Lib.Pipeline.Value
import Idealize.ShloMosaic.Lib.ValueIdx

noncomputable section

open scoped BigOperators

namespace Cert.RefLayout

open Cert.ReferenceIdeal Idealize.ShloMosaic Idealize.ShloMosaic.ValueIdx

variable {α : Type}

/-! ## Two arrays of 4096 rows stacked into 8192 rows -/

/-- A row below 4096 of the stack is that row of the first array. -/
theorem stack_rows_lo (a b : S4096x256.Idx → α) (h : Shape.Concatenates [S4096x256, S4096x256] S8192x256 0)
    (r : Fin 8192) (k : Fin 256) (hr : r.val < 4096) :
    concatenate S8192x256 0 [⟨S4096x256, a⟩, ⟨S4096x256, b⟩] h (ix2 r k) = a (ix2 ⟨r.val, hr⟩ k) :=
  concatenate_pair_apply_left 0 a b h (ix2 r k) rfl (ix2 ⟨r.val, hr⟩ k) (fun c => match c with
    | ⟨0, _⟩ => rfl
    | ⟨1, _⟩ => rfl)

/-- A row from 4096 on of the stack is the second array's row 4096 earlier. -/
theorem stack_rows_hi (a b : S4096x256.Idx → α) (h : Shape.Concatenates [S4096x256, S4096x256] S8192x256 0)
    (r : Fin 8192) (k : Fin 256) (hr : ¬ r.val < 4096) :
    concatenate S8192x256 0 [⟨S4096x256, a⟩, ⟨S4096x256, b⟩] h (ix2 r k)
      = b (ix2 ⟨r.val - 4096, by have := r.isLt; omega⟩ k) :=
  concatenate_pair_apply_right 0 a b h (ix2 r k) rfl rfl (ix2 ⟨r.val - 4096, by have := r.isLt; omega⟩ k)
    (fun c => match c with
      | ⟨0, _⟩ => fun hc => absurd rfl hc
      | ⟨1, _⟩ => fun _ => rfl)
    (by show r.val - 4096 + 4096 = r.val; omega)

/-! ## Two arrays of 4096 entries stacked into 8192 entries -/

/-- An entry below 4096 of the stack is that entry of the first array. -/
theorem stack_vec_lo (a b : S4096.Idx → α) (h : Shape.Concatenates [S4096, S4096] S8192 0)
    (r : Fin 8192) (hr : r.val < 4096) :
    concatenate S8192 0 [⟨S4096, a⟩, ⟨S4096, b⟩] h (ix1 r) = a (ix1 ⟨r.val, hr⟩) :=
  concatenate_pair_apply_left 0 a b h (ix1 r) rfl (ix1 ⟨r.val, hr⟩) (fun c => match c with
    | ⟨0, _⟩ => rfl)

/-- An entry from 4096 on of the stack is the second array's entry 4096 earlier. -/
theorem stack_vec_hi (a b : S4096.Idx → α) (h : Shape.Concatenates [S4096, S4096] S8192 0)
    (r : Fin 8192) (hr : ¬ r.val < 4096) :
    concatenate S8192 0 [⟨S4096, a⟩, ⟨S4096, b⟩] h (ix1 r) = b (ix1 ⟨r.val - 4096, by have := r.isLt; omega⟩) :=
  concatenate_pair_apply_right 0 a b h (ix1 r) rfl rfl (ix1 ⟨r.val - 4096, by have := r.isLt; omega⟩)
    (fun c => match c with
      | ⟨0, _⟩ => fun hc => absurd rfl hc)
    (by show r.val - 4096 + 4096 = r.val; omega)

/-! ## Two columns set side by side -/

/-- The first column of the pair is the first array. -/
theorem pair_cols_fst (a b : S4096x1.Idx → α) (h : Shape.Concatenates [S4096x1, S4096x1] S4096x2 1) (r : Fin 4096) :
    concatenate S4096x2 1 [⟨S4096x1, a⟩, ⟨S4096x1, b⟩] h (ix2 r (0 : Fin 2)) = a (ix2 r (0 : Fin 1)) :=
  concatenate_pair_apply_left 1 a b h (ix2 r (0 : Fin 2)) rfl (ix2 r (0 : Fin 1)) (fun c => match c with
    | ⟨0, _⟩ => rfl
    | ⟨1, _⟩ => rfl)

/-- The second column of the pair is the second array. -/
theorem pair_cols_snd (a b : S4096x1.Idx → α) (h : Shape.Concatenates [S4096x1, S4096x1] S4096x2 1) (r : Fin 4096) :
    concatenate S4096x2 1 [⟨S4096x1, a⟩, ⟨S4096x1, b⟩] h (ix2 r (1 : Fin 2)) = b (ix2 r (0 : Fin 1)) :=
  concatenate_pair_apply_right 1 a b h (ix2 r (1 : Fin 2)) rfl rfl (ix2 r (0 : Fin 1))
    (fun c => match c with
      | ⟨0, _⟩ => fun _ => rfl
      | ⟨1, _⟩ => fun hc => absurd rfl hc)
    (by show (0 : Nat) + 1 = 1; rfl)

/-! ## A square array read at the pairs an integer array holds -/

/-- Entry `r` of the read is the array at the row number in column 0 and the column number in column 1 of row `r` of
    the pairs, each read as a signed integer and clamped into `0 … 8191`. -/
theorem read_pairs_apply {w : Nat} (x : S8192x8192.Idx → α) (idx : IVec S4096x2 w) (r : Fin 4096) :
    Host.gather gather_S8192x8192_S4096x2_S4096_n_01_n_n_01_1_11 x idx (ix1 r)
      = x (ix2 (⟨min (idx (ix2 r (0 : Fin 2))).toInt.toNat 8191, by omega⟩ : Fin 8192)
               (⟨min (idx (ix2 r (1 : Fin 2))).toInt.toNat 8191, by omega⟩ : Fin 8192)) := by
  unfold Host.gather
  congr 1
  funext a
  refine Fin.ext ?_
  match a with
  | ⟨0, _⟩ =>
    show gather_S8192x8192_S4096x2_S4096_n_01_n_n_01_1_11.start (ix1 r) idx 0
        + gather_S8192x8192_S4096x2_S4096_n_01_n_n_01_1_11.batchCoord (ix1 r) 0
        + gather_S8192x8192_S4096x2_S4096_n_01_n_n_01_1_11.offCoord (ix1 r) 0 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 2) ∈ gather_S8192x8192_S4096x2_S4096_n_01_n_n_01_1_11.startIndexMap by decide)]
    have hsi : gather_S8192x8192_S4096x2_S4096_n_01_n_n_01_1_11.siIdx (ix1 r)
        ⟨List.idxOf (0 : Fin 2) gather_S8192x8192_S4096x2_S4096_n_01_n_n_01_1_11.startIndexMap,
          List.idxOf_lt_length_iff.2 (by decide)⟩ = ix2 r (0 : Fin 2) := by
      funext b; refine Fin.ext ?_
      match b with
      | ⟨0, _⟩ => rfl
      | ⟨1, _⟩ => rfl
    rw [hsi]
    rfl
  | ⟨1, _⟩ =>
    show gather_S8192x8192_S4096x2_S4096_n_01_n_n_01_1_11.start (ix1 r) idx 1
        + gather_S8192x8192_S4096x2_S4096_n_01_n_n_01_1_11.batchCoord (ix1 r) 1
        + gather_S8192x8192_S4096x2_S4096_n_01_n_n_01_1_11.offCoord (ix1 r) 1 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 2) ∈ gather_S8192x8192_S4096x2_S4096_n_01_n_n_01_1_11.startIndexMap by decide)]
    have hsi : gather_S8192x8192_S4096x2_S4096_n_01_n_n_01_1_11.siIdx (ix1 r)
        ⟨List.idxOf (1 : Fin 2) gather_S8192x8192_S4096x2_S4096_n_01_n_n_01_1_11.startIndexMap,
          List.idxOf_lt_length_iff.2 (by decide)⟩ = ix2 r (1 : Fin 2) := by
      funext b; refine Fin.ext ?_
      match b with
      | ⟨0, _⟩ => rfl
      | ⟨1, _⟩ => rfl
    rw [hsi]
    rfl

/-! ## A sum over a one-axis index set -/

/-- A one-axis index set is the range of its coordinate … -/
def vecEquiv {n : Nat} : (⟨1, ![n]⟩ : Shape).Idx ≃ Fin n where
  toFun i := i 0
  invFun := ix1
  left_inv i := (eq_ix1 i).symm
  right_inv _ := rfl

/-- … so a sum over it is the sum over the coordinate. -/
theorem sum_vec {M : Type*} [AddCommMonoid M] {n : Nat} (f : (⟨1, ![n]⟩ : Shape).Idx → M) :
    ∑ i, f i = ∑ a : Fin n, f (ix1 a) := by
  rw [← Equiv.sum_comp (vecEquiv (n := n)).symm f]
  rfl

end Cert.RefLayout

end
-- ==== Proof.RefSim.lean ====
/-
  The stacked array and the similarity of the masked arrangement, read at an index: the stack of the two arrays of
  normalised rows is `z`, and the product of the stack with its own transpose, contracted over the 256 columns, is
  the inner product `sim` of two rows of the stack.
-/
import proofs.«159884_j32023276159237_2_alg».proof.Proof.RefUnit
import proofs.«159884_j32023276159237_2_alg».proof.Proof.RefLayout

noncomputable section

open scoped BigOperators

namespace Cert.RefSim

open Cert.ReferenceIdeal Cert.ReferenceIdeal.Read Idealize.ShloMosaic Idealize.ShloMosaic.ValueIdx Cert.RefUnit

/-- The stack of the two arrays of normalised rows, at row `r` and column `k`. -/
theorem stack_is_z (x0 x1 : Arg) (r : Fin 8192) (k : Fin 256) :
    val_main_v10 (F := Ideal) x0 x1 (ix2 r k) = Cert.Loss.z x0 x1 r k := by
  unfold val_main_v10 Cert.Loss.z
  by_cases h : r.val < 4096
  · rw [dif_pos h]
    exact (Cert.RefLayout.stack_rows_lo _ _ _ r k h).trans (unit_fst x0 ⟨r.val, h⟩ k)
  · rw [dif_neg h]
    exact (Cert.RefLayout.stack_rows_hi _ _ _ r k h).trans (unit_snd x1 _ k)

/-- The product of the stack with its transpose, at row `r` and column `c`: the inner product of rows `r` and `c`. -/
theorem product_is_sim (x0 x1 : Arg) (r c : Fin 8192) :
    val_main_v12 (F := Ideal) x0 x1 (ix2 r c) = Cert.Loss.sim x0 x1 r c := by
  have el : ∀ k : Fin 256, lidx_main_v12 (ix2 r c) k = ix2 r k :=
    fun k => funext fun a => by match a with | ⟨0, _⟩ => rfl | ⟨1, _⟩ => rfl
  have er : ∀ k : Fin 256, idx_main_v11 (ridx_main_v12 (ix2 r c) k) = ix2 c k :=
    fun k => funext fun a => by match a with | ⟨0, _⟩ => rfl | ⟨1, _⟩ => rfl
  rw [val_main_v12_apply]
  unfold Cert.Loss.sim
  refine Finset.sum_congr rfl fun k _ => ?_
  rw [val_main_v11_apply, el, er, stack_is_z, stack_is_z]

end Cert.RefSim

end
-- ==== Proof.RefWords.lean ====
/-
  The 32-bit integer words of the masked arrangement, read as numbers: a row number below 4096 as a word is
  non-negative, so the "wrap a negative index" selects keep it; adding the word 4096 gives the number 4096 larger;
  both, read signed and clamped into `0 … 8191`, are the numbers themselves. And the comparison of a row number with a
  column number, converted to a float, is one where they are equal and zero elsewhere.
-/
import Idealize.ShloMosaic.Lib.Affine
import Idealize.ShloMosaic.Lib.ValueIdx
import Idealize.ShloMosaic.PureOps.Ideal

noncomputable section

namespace Cert.RefWords

open Idealize.ShloMosaic Idealize.ShloMosaic.ValueIdx

/-- A number below `2 ^ 31`, as a 32-bit word read signed, is itself. -/
theorem toInt_ofNat_small (n : Nat) (h : n < 2147483648) : (BitVec.ofNat 32 n).toInt = (n : Int) := by
  rw [BitVec.toInt_eq_toNat_cond, BitVec.toNat_ofNat]
  have e : n % 2 ^ 32 = n := Nat.mod_eq_of_lt (by omega)
  rw [e]
  split <;> omega

/-- Such a word is not below the zero word in the signed order. -/
theorem slt_zero_small (n : Nat) (h : n < 2147483648) : IntOp.cmpi .slt (BitVec.ofNat 32 n) 0#32 = 0#1 :=
  eq_zero_of_ne_one (fun h1 => by
    have h2 := IntOp.cmpi_slt.mp h1
    rw [toInt_ofNat_small n h, toInt_ofNat_small 0 (by omega)] at h2
    omega)

/-- The word 4096 plus the word of a row number below 4096 is the word of the number 4096 larger. -/
theorem addi_4096 (r : Fin 4096) : IntOp.addi 4096#32 (BitVec.ofNat 32 r.val) = BitVec.ofNat 32 (r.val + 4096) := by
  unfold IntOp.addi
  apply BitVec.eq_of_toNat_eq
  simp only [BitVec.toNat_add, BitVec.toNat_ofNat]
  have := r.isLt
  omega

/-- The select that would wrap a negative index keeps a row number below 4096. -/
theorem select_low (r : Fin 4096) :
    Scalar.select (IntOp.cmpi .slt (BitVec.ofNat 32 r.val) 0#32) (IntOp.addi (BitVec.ofNat 32 r.val) 8192#32)
      (BitVec.ofNat 32 r.val) = BitVec.ofNat 32 r.val := by
  rw [slt_zero_small r.val (by have := r.isLt; omega), select_zero]

/-- The same select keeps the row number moved up by 4096. -/
theorem select_high (r : Fin 4096) :
    Scalar.select (IntOp.cmpi .slt (IntOp.addi 4096#32 (BitVec.ofNat 32 r.val)) 0#32)
      (IntOp.addi (IntOp.addi 4096#32 (BitVec.ofNat 32 r.val)) 8192#32) (IntOp.addi 4096#32 (BitVec.ofNat 32 r.val))
      = BitVec.ofNat 32 (r.val + 4096) := by
  rw [addi_4096, slt_zero_small (r.val + 4096) (by have := r.isLt; omega), select_zero]

/-- A number up to 8191, as a word read signed and clamped into `0 … 8191`, is itself. -/
theorem clamp_small (n : Nat) (h : n ≤ 8191) : min (BitVec.ofNat 32 n).toInt.toNat 8191 = n := by
  rw [toInt_ofNat_small n (by omega)]
  omega

/-- The comparison of a row number with a column number, both below 8192, converted to a float: one where they are
    equal, zero elsewhere. -/
theorem eq_word_float (r c : Fin 8192) :
    FloatOps.uitofp (F := Ideal) .f32 (IntOp.cmpi .eq (IntOp.addi (BitVec.ofNat 32 r.val) 0#32) (BitVec.ofNat 32 c.val))
      = if r = c then (1 : EReal) else 0 := by
  have ha : IntOp.addi (BitVec.ofNat 32 r.val) 0#32 = BitVec.ofNat 32 r.val := by
    unfold IntOp.addi; exact BitVec.add_zero _
  rw [ha]
  by_cases h : r = c
  · subst h
    rw [if_pos rfl, IntOp.cmpi_eq.mpr rfl]
    show (((1#1 : BitVec 1).toNat : ℝ) : EReal) = 1
    norm_num
  · rw [if_neg h]
    have hz : IntOp.cmpi .eq (BitVec.ofNat 32 r.val) (BitVec.ofNat 32 c.val) = 0#1 :=
      eq_zero_of_ne_one (fun h1 => h (by
        have e := congrArg BitVec.toNat (IntOp.cmpi_eq.mp h1)
        simp only [BitVec.toNat_ofNat] at e
        apply Fin.ext
        have := r.isLt
        have := c.isLt
        omega))
    rw [hz]
    show (((0#1 : BitVec 1).toNat : ℝ) : EReal) = 0
    norm_num

end Cert.RefWords

end
-- ==== Proof.RefPos.lean ====
/-
  The positive pairs of the masked arrangement, read at an index. The two diagonals of the similarity, 4096 places
  above and 4096 places below the main one, are each read through an array of (row number, column number) pairs
  built from a count `0 … 4095`, the word 4096 added on one side, and a select that would wrap a negative number
  (none is). Entry `r` of the upper diagonal is `sim r (r + 4096)`, of the lower one `sim (r + 4096) r`; their stack
  is the positive pair of every row.
-/
import proofs.«159884_j32023276159237_2_alg».proof.Proof.RefSim
import proofs.«159884_j32023276159237_2_alg».proof.Proof.RefWords

noncomputable section

open scoped BigOperators

namespace Cert.RefPos

open Cert.ReferenceIdeal Cert.ReferenceIdeal.Read Idealize.ShloMosaic Idealize.ShloMosaic.ValueIdx Cert.RefUnit

/-! ## The pairs of the upper diagonal: row `r`, column `r + 4096` -/

theorem up_row (r : Fin 4096) : val_main_call2_v16 (F := Ideal) (ix2 r (0 : Fin 2)) = BitVec.ofNat 32 r.val := by
  unfold val_main_call2_v16
  refine (Cert.RefLayout.pair_cols_fst _ _ _ r).trans ?_
  rw [val_main_call2_v14_apply, val_main_call2_v8_apply, val_main_call2_v5_apply, val_main_call2_v7_apply,
    val_main_call2_v0_apply, val_main_call2_v4_apply, val_main_call2_c_0_apply, val_main_call2_v6_apply,
    val_main_call2_c_1_apply]
  exact Cert.RefWords.select_low r

theorem up_col (r : Fin 4096) :
    val_main_call2_v16 (F := Ideal) (ix2 r (1 : Fin 2)) = BitVec.ofNat 32 (r.val + 4096) := by
  unfold val_main_call2_v16
  refine (Cert.RefLayout.pair_cols_snd _ _ _ r).trans ?_
  rw [val_main_call2_v15_apply, val_main_call2_v13_apply, val_main_call2_v10_apply, val_main_call2_v12_apply,
    val_main_call2_v3_apply, val_main_call2_v2_apply, val_main_call2_c_apply, val_main_call2_v1_apply,
    val_main_call2_v9_apply, val_main_call2_c_2_apply, val_main_call2_v11_apply, val_main_call2_c_3_apply]
  exact Cert.RefWords.select_high r

/-! ## The pairs of the lower diagonal: row `r + 4096`, column `r` -/

theorem down_row (r : Fin 4096) :
    val_main_call3_v16 (F := Ideal) (ix2 r (0 : Fin 2)) = BitVec.ofNat 32 (r.val + 4096) := by
  unfold val_main_call3_v16
  refine (Cert.RefLayout.pair_cols_fst _ _ _ r).trans ?_
  rw [val_main_call3_v14_apply, val_main_call3_v8_apply, val_main_call3_v5_apply, val_main_call3_v7_apply,
    val_main_call3_v3_apply, val_main_call3_v2_apply, val_main_call3_c_apply, val_main_call3_v1_apply,
    val_main_call3_v4_apply, val_main_call3_c_0_apply, val_main_call3_v6_apply, val_main_call3_c_1_apply]
  exact Cert.RefWords.select_high r

theorem down_col (r : Fin 4096) : val_main_call3_v16 (F := Ideal) (ix2 r (1 : Fin 2)) = BitVec.ofNat 32 r.val := by
  unfold val_main_call3_v16
  refine (Cert.RefLayout.pair_cols_snd _ _ _ r).trans ?_
  rw [val_main_call3_v15_apply, val_main_call3_v13_apply, val_main_call3_v10_apply, val_main_call3_v12_apply,
    val_main_call3_v0_apply, val_main_call3_v9_apply, val_main_call3_c_2_apply, val_main_call3_v11_apply,
    val_main_call3_c_3_apply]
  exact Cert.RefWords.select_low r

/-! ## The two diagonals -/

/-- Entry `r` of the upper diagonal. -/
theorem diag_up (x0 x1 : Arg) (r : Fin 4096) :
    val_main_v13 (F := Ideal) x0 x1 (ix1 r)
      = Cert.Loss.sim x0 x1 ⟨r.val, by have := r.isLt; omega⟩ ⟨r.val + 4096, by have := r.isLt; omega⟩ := by
  unfold val_main_v13
  refine (Cert.RefLayout.read_pairs_apply _ _ r).trans ?_
  refine (congrArg (val_main_v12 (F := Ideal) x0 x1) ?_).trans (Cert.RefSim.product_is_sim x0 x1 _ _)
  funext a
  match a with
  | ⟨0, _⟩ =>
    exact Fin.ext ((congrArg (fun w : BitVec 32 => min w.toInt.toNat 8191) (up_row r)).trans
      (Cert.RefWords.clamp_small r.val (by have := r.isLt; omega)))
  | ⟨1, _⟩ =>
    exact Fin.ext ((congrArg (fun w : BitVec 32 => min w.toInt.toNat 8191) (up_col r)).trans
      (Cert.RefWords.clamp_small (r.val + 4096) (by have := r.isLt; omega)))

/-- Entry `r` of the lower diagonal. -/
theorem diag_down (x0 x1 : Arg) (r : Fin 4096) :
    val_main_v14 (F := Ideal) x0 x1 (ix1 r)
      = Cert.Loss.sim x0 x1 ⟨r.val + 4096, by have := r.isLt; omega⟩ ⟨r.val, by have := r.isLt; omega⟩ := by
  unfold val_main_v14
  refine (Cert.RefLayout.read_pairs_apply _ _ r).trans ?_
  refine (congrArg (val_main_v12 (F := Ideal) x0 x1) ?_).trans (Cert.RefSim.product_is_sim x0 x1 _ _)
  funext a
  match a with
  | ⟨0, _⟩ =>
    exact Fin.ext ((congrArg (fun w : BitVec 32 => min w.toInt.toNat 8191) (down_row r)).trans
      (Cert.RefWords.clamp_small (r.val + 4096) (by have := r.isLt; omega)))
  | ⟨1, _⟩ =>
    exact Fin.ext ((congrArg (fun w : BitVec 32 => min w.toInt.toNat 8191) (down_col r)).trans
      (Cert.RefWords.clamp_small r.val (by have := r.isLt; omega)))

/-! ## Their stack -/

/-- The stack of the two diagonals, at `r`: the entry of the similarity 4096 places off the diagonal in row `r`. -/
theorem positives_is_posR (x0 x1 : Arg) (r : Fin 8192) :
    val_main_v15 (F := Ideal) x0 x1 (ix1 r) = Cert.Loss.posR x0 x1 r := by
  unfold val_main_v15 Cert.Loss.posR
  by_cases h : r.val < 4096
  · rw [dif_pos h]
    exact (Cert.RefLayout.stack_vec_lo _ _ _ r h).trans (diag_up x0 x1 ⟨r.val, h⟩)
  · rw [dif_neg h]
    refine (Cert.RefLayout.stack_vec_hi _ _ _ r h).trans ((diag_down x0 x1 _).trans ?_)
    exact congrArg (fun a : Fin 8192 => Cert.Loss.sim x0 x1 a ⟨r.val - 4096, by have := r.isLt; omega⟩)
      (Fin.ext (by show r.val - 4096 + 4096 = r.val; omega))

end Cert.RefPos

end
-- ==== Proof.RefDenom.lean ====
/-
  The denominator of the masked arrangement, read at an index. The mask is one minus the float of the comparison of
  the row number with the column number; the entry it multiplies is the exponential of the similarity over one half;
  the denominator of a row is the zero word plus the sum of the masked entries over all 8192 columns.
-/
import proofs.«159884_j32023276159237_2_alg».proof.Proof.RefSim
import proofs.«159884_j32023276159237_2_alg».proof.Proof.RefWords

noncomputable section

open scoped BigOperators

namespace Cert.RefDenom

open Cert.ReferenceIdeal Cert.ReferenceIdeal.Read Idealize.ShloMosaic Idealize.ShloMosaic.ValueIdx Cert.RefUnit

/-- One masked entry: the mask times the exponential of the similarity over one half. -/
theorem masked_entry (x0 x1 : Arg) (r c : Fin 8192) :
    val_main_v27 (F := Ideal) x0 x1 (ix2 r c)
      = Cert.Loss.maskR r c * Ideal.exp (Ideal.div (Cert.Loss.sim x0 x1 r c) Cert.Loss.half) := by
  rw [val_main_v27_apply, val_main_v23_apply, val_main_v22_apply, val_main_cst_1_apply, val_main_v21_apply,
    val_main_v20_apply, val_main_v19_apply, val_main_v16_apply, val_main_v18_apply, val_main_c_apply,
    val_main_v17_apply, val_main_v26_apply, val_main_v25_apply, val_main_v24_apply, val_main_cst_2_apply,
    Cert.RefSim.product_is_sim]
  simp only [Ideal.mulf_def, Ideal.subf_def, Ideal.hostUnary_exp_def, Ideal.hostDivf_def, Ideal.ofBits_def]
  unfold Cert.Loss.maskR
  exact congrArg
    (fun m : EReal => (Cert.Loss.one - m) * Ideal.exp (Ideal.div (Cert.Loss.sim x0 x1 r c) Cert.Loss.half))
    (Cert.RefWords.eq_word_float r c)

/-- The row sum of the masked entries from the zero word: the denominator. -/
theorem denominator_is_denomR (x0 x1 : Arg) (r : Fin 8192) :
    val_main_v28 (F := Ideal) x0 x1 (ix1 r) = Cert.Loss.denomR x0 x1 r := by
  have e : ∀ c : Fin 8192, idx_main_v28 (ix1 r) c = ix2 r c :=
    fun c => funext fun a => by match a with | ⟨0, _⟩ => rfl | ⟨1, _⟩ => rfl
  rw [val_main_v28_apply, val_main_cst_3_apply]
  unfold Cert.Loss.denomR
  refine congrArg₂ (· + ·) rfl (Finset.sum_congr rfl fun c _ => ?_)
  rw [e, masked_entry]

end Cert.RefDenom

end
-- ==== Proof.RefLoss.lean ====
/-
  The masked arrangement is `lossR`. Row `r` contributes the negative of its positive pair over one half less the
  logarithm of its denominator; the result is the zero word plus the sum of the 8192 contributions, over the count.
-/
import proofs.«159884_j32023276159237_2_alg».proof.Proof.RefPos
import proofs.«159884_j32023276159237_2_alg».proof.Proof.RefDenom

noncomputable section

open scoped BigOperators

namespace Cert.RefLoss

open Cert.ReferenceIdeal Cert.ReferenceIdeal.Read Idealize.ShloMosaic Idealize.ShloMosaic.TcCoe Idealize.SL.Sem
  Idealize.ShloMosaic.StableHlo Idealize.ShloMosaic.ValueIdx Cert.RefUnit

/-- One row's contribution. -/
theorem row_loss (x0 x1 : Arg) (r : Fin 8192) :
    val_main_v33 (F := Ideal) x0 x1 (ix1 r)
      = -(Ideal.div (Cert.Loss.posR x0 x1 r) Cert.Loss.half - Ideal.log (Cert.Loss.denomR x0 x1 r)) := by
  rw [val_main_v33_apply, val_main_v32_apply, val_main_v30_apply, val_main_v31_apply, val_main_v29_apply,
    val_main_cst_4_apply, Cert.RefPos.positives_is_posR, Cert.RefDenom.denominator_is_denomR]
  simp only [Ideal.hostNegf_def, Ideal.negf_def, Ideal.subf_def, Ideal.hostDivf_def, Ideal.hostUnary_log_def,
    Ideal.ofBits_def]
  rfl

/-- The result of the masked arrangement, as a function of the two argument arrays it reads. -/
theorem ref_is_lossR (x0 x1 : Arg) : val_main_v35 (F := Ideal) x0 x1 = fun _ => Cert.Loss.lossR x0 x1 := by
  funext i
  rw [val_main_v35_apply, val_main_v34_apply, val_main_cst_5_apply, val_main_cst_6_apply, Cert.RefLayout.sum_vec]
  simp only [row_loss, Ideal.hostDivf_def, Ideal.ofBits_def]
  rfl

/-- The same, for the composed term an execution leaves in the result: `lossR` of the contents of the first two
    arguments. -/
theorem res_is_lossR (m : (ℓ : Loc nD τ sig) → Buf (Elt Ideal) ℓ) (c : Dev nD) :
    Cert.ReferenceIdeal.Value.res_main_v35 (F := Ideal) m c
      = fun _ => Cert.Loss.lossR (m ((c.tc : Thread nD τ).loc main_arg0)) (m ((c.tc : Thread nD τ).loc main_arg1)) :=
  (val_main_v35_eq (F := Ideal) m c).trans (ref_is_lossR _ _)

end Cert.RefLoss

end
-- ==== Proof.LibSums.lean ====
/-
  Three facts about finite sums.

  Over the extended reals a difference of two sums is the sum of the differences only when nothing is infinite.  Here:
  the coercion of a finite sum of real numbers is the sum of the coercions; for real-valued families a and b and any
  mask p, (the sum of a over p) - (the sum of b over p) is the sum of a - b over p, as extended reals; and a sum over
  the first A * B natural numbers is the iterated sum over a < A and b < B of the term at a * B + b.
-/
import Mathlib.Data.EReal.Operations
import Mathlib.Algebra.BigOperators.Intervals
import Mathlib.Tactic.SplitIfs

noncomputable section

namespace Cert.Sums

/-- The coercion of a finite sum of reals is the sum of the coercions. -/
theorem coe_sum {ι : Type} (s : Finset ι) (f : ι → ℝ) : ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- THE LAW: over real values, the masked sum of the x's minus the masked sum of the y's is the masked sum of the
    differences. -/
theorem sub_masked_sums {ι : Type} (s : Finset ι) (p : ι → Prop) [DecidablePred p] (a b : ι → ℝ) :
    (∑ i ∈ s, if p i then (a i : EReal) else 0) - (∑ i ∈ s, if p i then (b i : EReal) else 0)
      = ∑ i ∈ s, if p i then ((a i : EReal) - (b i : EReal)) else 0 := by
  have h1 : ∀ f : ι → ℝ, (∑ i ∈ s, if p i then (f i : EReal) else 0) = ((∑ i ∈ s, if p i then f i else 0 : ℝ) : EReal) := by
    intro f
    rw [coe_sum]
    refine Finset.sum_congr rfl fun i _ => ?_
    split_ifs <;> simp
  rw [h1 a, h1 b, ← EReal.coe_sub, ← Finset.sum_sub_distrib, coe_sum]
  refine Finset.sum_congr rfl fun i _ => ?_
  split_ifs <;> simp

/-- A sum over a product range is the iterated sum, major index first. -/
theorem sum_range_mul {M : Type} [AddCommMonoid M] (A B : ℕ) (g : ℕ → M) :
    ∑ e ∈ Finset.range (A * B), g e = ∑ a ∈ Finset.range A, ∑ b ∈ Finset.range B, g (a * B + b) := by
  induction A with
  | zero => simp
  | succ A ih => rw [Nat.succ_mul, Finset.sum_range_add, ih, Finset.sum_range_succ]

end Cert.Sums

end
-- ==== Proof.MathReal.lean ====
/-
  On real inputs every piece of the loss is a real number.

  If every entry of an argument array is (the coercion of) a real number, then so is its clipped Euclidean norm, which
  moreover is at least the clipping constant and hence positive; so are the normalised rows, their stacking, the inner
  products, and the exponentials.  Each piece gets an explicit real-valued twin (`nrmR`, `unitR`, `zR`, `simR`, `expE`)
  and a lemma saying that the extended-real piece at coerced inputs is the coercion of the twin.  Both spellings of the
  exponent, `s * 2` and `s / (1/2)`, give the same real number `s * 2`.
-/
import proofs.«159884_j32023276159237_2_alg».proof.Proof.Spec
import proofs.«159884_j32023276159237_2_alg».proof.Proof.LibSums
import Idealize.ShloMosaic.PureOps.Ideal.Laws

noncomputable section

open scoped BigOperators

namespace Cert.Loss

open Idealize.ShloMosaic Idealize.ShloMosaic.ValueIdx

/-- A real argument array. -/
abbrev RArr : Type := (⟨2, ![4096, 256]⟩ : Shape).Idx → ℝ

/-- A real array read as an array of extended reals. -/
def up (x : RArr) : Arr := fun i => (x i : EReal)

/-! ## The named words -/

theorem zero_eq : zero = 0 := Ideal.ofBits_zero_f32

theorem two_eq : two = ((2 : ℝ) : EReal) := by
  simp [two, Ideal.ofBits, Ideal.ieee]
  rw [← EReal.coe_mul, EReal.coe_eq_coe_iff]
  norm_num

theorem half_eq : half = ((1 / 2 : ℝ) : EReal) := by
  simp [half, Ideal.ofBits, Ideal.ieee]
  rw [← EReal.coe_mul, EReal.coe_eq_coe_iff]
  norm_num

theorem one_eq : one = ((1 : ℝ) : EReal) := by
  simp [one, Ideal.ofBits, Ideal.ieee]
  rw [← EReal.coe_one, ← EReal.coe_mul, EReal.coe_eq_coe_iff]
  norm_num

/-- The clipping constant as a real number: `9223372 / 2^63`. -/
def epsR : ℝ := 9223372 * ((2 : ℝ) ^ 63)⁻¹

theorem epsR_pos : 0 < epsR := by unfold epsR; positivity

theorem eps_eq : eps = (epsR : EReal) := by
  simp [eps, Ideal.ofBits, Ideal.ieee]
  rw [← EReal.coe_mul, EReal.coe_eq_coe_iff]
  rfl

/-! ## The clipped norm -/

/-- The sum of squares of row `r`. -/
def sqR (x : RArr) (r : Fin 4096) : ℝ := ∑ k : Fin 256, x (ix2 r k) * x (ix2 r k)

theorem sqR_nonneg (x : RArr) (r : Fin 4096) : 0 ≤ sqR x r :=
  Finset.sum_nonneg fun _ _ => mul_self_nonneg _

/-- The clipped Euclidean norm of a real row. -/
def nrmR (x : RArr) (r : Fin 4096) : ℝ := max (Real.sqrt (sqR x r)) epsR

/-- The clipped norm is at least the clipping constant, hence positive. -/
theorem nrmR_pos (x : RArr) (r : Fin 4096) : 0 < nrmR x r := lt_of_lt_of_le epsR_pos (le_max_right _ _)

theorem nrm_up (x : RArr) (r : Fin 4096) : nrm (up x) r = (nrmR x r : EReal) := by
  have h1 : (zero + ∑ k : Fin 256, up x (ix2 r k) * up x (ix2 r k)) = ((sqR x r : ℝ) : EReal) := by
    rw [zero_eq, zero_add, sqR, Cert.Sums.coe_sum]
    exact Finset.sum_congr rfl fun k _ => (EReal.coe_mul _ _).symm
  unfold nrm
  rw [h1, Ideal.sqrt_coe, if_neg (not_lt.2 (sqR_nonneg x r)), eps_eq, nrmR]
  exact (EReal.coe_strictMono.monotone.map_max).symm

/-! ## Normalised rows, their stacking, inner products -/

/-- A real row divided by its clipped norm. -/
def unitR (x : RArr) (r : Fin 4096) (k : Fin 256) : ℝ := x (ix2 r k) * (1 / nrmR x r)

theorem unit_up (x : RArr) (r : Fin 4096) (k : Fin 256) : unit (up x) r k = (unitR x r k : EReal) := by
  unfold unit
  rw [nrm_up, Ideal.div_coe (nrmR_pos x r).ne']
  exact (EReal.coe_mul _ _).symm

/-- The stacked real array. -/
def zR (q p : RArr) (r : Fin 8192) (k : Fin 256) : ℝ :=
  if h : r.val < 4096 then unitR q ⟨r.val, h⟩ k else unitR p ⟨r.val - 4096, by omega⟩ k

theorem z_up (q p : RArr) (r : Fin 8192) (k : Fin 256) : z (up q) (up p) r k = (zR q p r k : EReal) := by
  unfold z zR
  split_ifs with h
  · exact unit_up q _ k
  · exact unit_up p _ k

/-- The inner product of two rows of the stacked real array. -/
def simR (q p : RArr) (r c : Fin 8192) : ℝ := ∑ k : Fin 256, zR q p r k * zR q p c k

theorem sim_up (q p : RArr) (r c : Fin 8192) : sim (up q) (up p) r c = (simR q p r c : EReal) := by
  unfold sim simR
  rw [Cert.Sums.coe_sum]
  exact Finset.sum_congr rfl fun k _ => by rw [z_up, z_up, EReal.coe_mul]

/-! ## The exponentials: both spellings of the exponent are `s * 2` -/

/-- The exponential of twice the similarity, a real number. -/
def expE (q p : RArr) (r c : Fin 8192) : ℝ := Real.exp (simR q p r c * 2)

theorem expK_up (q p : RArr) (r c : Fin 8192) : expK (up q) (up p) r c = (expE q p r c : EReal) := by
  unfold expK expE
  rw [sim_up, two_eq, ← EReal.coe_mul, Ideal.exp_coe]

theorem expR_up (q p : RArr) (r c : Fin 8192) :
    Ideal.exp (Ideal.div (sim (up q) (up p) r c) half) = (expE q p r c : EReal) := by
  unfold expE
  rw [sim_up, half_eq, Ideal.div_coe (by norm_num), ← EReal.coe_mul, Ideal.exp_coe]
  norm_num

/-- An array all of whose entries are real is the reading of a real array. -/
theorem exists_up (x : Arr) (hx : ∀ i, ∃ y : ℝ, x i = (y : EReal)) : ∃ y : RArr, x = up y := by
  choose y hy using hx
  exact ⟨y, funext hy⟩

end Cert.Loss

end
-- ==== Proof.LibGroupSum.lean ====
/-
  A sum over `G * R` consecutive positions, read as `G` groups of `R`: when every term outside one group vanishes, the
  sum is the sum over that group. In any additive commutative monoid, for any `G` and `R`.
-/
import Mathlib.Algebra.BigOperators.Fin
import Mathlib.Algebra.BigOperators.Group.Finset.Basic
import Mathlib.Logic.Equiv.Fin.Basic

namespace Cert.LibGroupSum

open Finset

/-- Position `R * g + r` of `G * R`: place `r` of group `g`. -/
def pos {G R : Nat} (g : Fin G) (r : Fin R) : Fin (G * R) := finProdFinEquiv (g, r)

theorem pos_val {G R : Nat} (g : Fin G) (r : Fin R) : (pos g r).val = r.val + R * g.val := rfl

/-- A sum over `G * R` positions is the sum over the groups of the sums over their places. -/
theorem sum_groups {M : Type*} [AddCommMonoid M] {G R : Nat} (f : Fin (G * R) → M) :
    ∑ j : Fin (G * R), f j = ∑ g : Fin G, ∑ r : Fin R, f (pos g r) := by
  rw [← Fintype.sum_prod_type' (fun g r => f (pos g r))]
  exact (Fintype.sum_equiv finProdFinEquiv (fun p => f (pos p.1 p.2)) f (fun _ => rfl)).symm

/-- If every term outside group `g` is zero, the whole sum is the sum over group `g`. -/
theorem sum_one_group {M : Type*} [AddCommMonoid M] {G R : Nat} (f : Fin (G * R) → M) (g : Fin G)
    (h0 : ∀ (g' : Fin G) (r : Fin R), g' ≠ g → f (pos g' r) = 0) :
    ∑ j : Fin (G * R), f j = ∑ r : Fin R, f (pos g r) := by
  rw [sum_groups]
  refine Finset.sum_eq_single_of_mem g (Finset.mem_univ g) fun g' _ hg' => ?_
  exact Finset.sum_eq_zero fun r _ => h0 g' r hg'

end Cert.LibGroupSum
-- ==== Proof.MathDenom.lean ====
/-
  The denominators of the two arrangements agree on real inputs.

  Write `E r c` for the real number `exp (2 * sim r c)`.
    • The tiled arrangement makes four steps, step `j` adding the sum of `E r ·` over tile `j` and, when `j` is the tile
      `r / 2048` that meets the diagonal, subtracting that tile's diagonal term.  The amount step `j` subtracts is the
      sum over the tile's columns `c` of `E r r` where column `c` of tile `j` IS `r`, zero elsewhere: in the tile that meets
      the diagonal this is how the diagonal term is defined, and in any other tile no column is `r`.  Every partial
      result is a real number, so the four steps may be regrouped: all that is added, minus all that is subtracted.
      Read over all four tiles, what is added is the sum of `E r ·` over all 8192 columns, and what is subtracted is
      the sum over all columns `c` of `E r r` where `c = r`, which is `E r r`.
    • The masked arrangement multiplies `E r c` by `1 - [r = c]`, a real number, and sums: again the full sum minus
      `E r r`.
  The subtraction cancels because every term is finite.
-/
import proofs.«159884_j32023276159237_2_alg».proof.Proof.MathReal
import proofs.«159884_j32023276159237_2_alg».proof.Proof.LibGroupSum

noncomputable section

open scoped BigOperators

namespace Cert.Loss

open Idealize.ShloMosaic Idealize.ShloMosaic.ValueIdx

/-! ## The 8192 columns as four tiles of 2048 -/

/-- A sum over all columns is the sum over the tiles of the sums over their columns. -/
theorem sum_tiles (f : Fin 8192 → ℝ) : ∑ c : Fin 8192, f c = ∑ j : Fin 4, ∑ c : Fin 2048, f (col j c) := by
  refine (Cert.LibGroupSum.sum_groups (G := 4) (R := 2048) (M := ℝ) f).trans ?_
  refine Finset.sum_congr rfl fun j _ => Finset.sum_congr rfl fun c _ => ?_
  exact congrArg f (Fin.ext ((Cert.LibGroupSum.pos_val j c).trans (Nat.add_comm _ _)))

/-! ## The tiled arrangement over the reals -/

/-- Row `r`'s sum over tile `j`, a real number. -/
def partE (q p : RArr) (r : Fin 8192) (j : Fin 4) : ℝ := ∑ c : Fin 2048, expE q p r (col j c)

/-- Row `r`'s diagonal term as tile `j` selects it, a real number. -/
def diagE (q p : RArr) (r : Fin 8192) (j : Fin 4) : ℝ :=
  ∑ c : Fin 2048, if r.val = (col j c).val then expE q p r (col j c) else 0

/-- What step `j` subtracts. -/
def subE (q p : RArr) (r : Fin 8192) (j : Fin 4) : ℝ := if r.val / 2048 = j.val then diagE q p r j else 0

theorem partK_up (q p : RArr) (r : Fin 8192) (j : Fin 4) : partK (up q) (up p) r j = (partE q p r j : EReal) := by
  unfold partK partE
  rw [Cert.Sums.coe_sum]
  exact Finset.sum_congr rfl fun c _ => expK_up q p r _

theorem diagK_up (q p : RArr) (r : Fin 8192) (j : Fin 4) : diagK (up q) (up p) r j = (diagE q p r j : EReal) := by
  unfold diagK diagE
  rw [Cert.Sums.coe_sum]
  refine Finset.sum_congr rfl fun c _ => ?_
  split_ifs
  · exact expK_up q p r _
  · rw [zero_eq, EReal.coe_zero]

/-- One step from a real running sum is a real number. -/
theorem stepK_up (q p : RArr) (r : Fin 8192) (a : ℝ) (j : Fin 4) :
    stepK (up q) (up p) r (a : EReal) j = ((a + partE q p r j - subE q p r j : ℝ) : EReal) := by
  unfold stepK subE
  rw [partK_up, diagK_up]
  split_ifs
  · rw [EReal.coe_sub, EReal.coe_add]
  · rw [sub_zero, EReal.coe_add]

/-- The four steps from zero, over the reals. -/
theorem denomK_up (q p : RArr) (r : Fin 8192) :
    denomK (up q) (up p) r
      = ((((((0 + partE q p r 0 - subE q p r 0) + partE q p r 1 - subE q p r 1) + partE q p r 2 - subE q p r 2)
            + partE q p r 3 - subE q p r 3 : ℝ)) : EReal) := by
  unfold denomK
  rw [zero_eq, ← EReal.coe_zero, stepK_up, stepK_up, stepK_up, stepK_up]

/-- What step `j` subtracts is `E r r` at the column of tile `j` that is `r`, if there is one. -/
theorem subE_eq (q p : RArr) (r : Fin 8192) (j : Fin 4) :
    subE q p r j = ∑ c : Fin 2048, if r = col j c then expE q p r r else 0 := by
  unfold subE diagE
  split_ifs with h
  · refine Finset.sum_congr rfl fun c _ => ?_
    by_cases h2 : r = col j c
    · rw [if_pos (congrArg Fin.val h2), if_pos h2, ← h2]
    · rw [if_neg (fun h3 => h2 (Fin.ext h3)), if_neg h2]
  · symm
    refine Finset.sum_eq_zero fun c _ => ?_
    rw [if_neg]
    intro h2
    apply h
    rw [h2]
    show (2048 * j.val + c.val) / 2048 = j.val
    omega

/-- The tiled denominator is the full sum minus the diagonal entry. -/
theorem denomK_real (q p : RArr) (r : Fin 8192) :
    denomK (up q) (up p) r = ((∑ c : Fin 8192, expE q p r c - expE q p r r : ℝ) : EReal) := by
  rw [denomK_up]
  have hP : ∑ c : Fin 8192, expE q p r c = partE q p r 0 + partE q p r 1 + partE q p r 2 + partE q p r 3 := by
    rw [sum_tiles, Fin.sum_univ_four]; rfl
  have hS : expE q p r r = subE q p r 0 + subE q p r 1 + subE q p r 2 + subE q p r 3 := by
    have h := sum_tiles (fun c => if r = c then expE q p r r else 0)
    rw [Finset.sum_ite_eq, if_pos (Finset.mem_univ _), Fin.sum_univ_four] at h
    rw [h, subE_eq, subE_eq, subE_eq, subE_eq]
  rw [hP, hS]
  congr 1
  ring

/-! ## The masked arrangement over the reals -/

/-- The mask is the real number `0` on the diagonal and `1` off it. -/
theorem maskR_eq (r c : Fin 8192) : maskR r c = ((if r = c then 0 else 1 : ℝ) : EReal) := by
  unfold maskR
  rw [one_eq]
  split_ifs
  · rw [← EReal.coe_one, ← EReal.coe_sub, sub_self]
  · rw [← EReal.coe_zero, ← EReal.coe_sub, sub_zero]

/-- The masked denominator is the full sum minus the diagonal entry. -/
theorem denomR_real (q p : RArr) (r : Fin 8192) :
    denomR (up q) (up p) r = ((∑ c : Fin 8192, expE q p r c - expE q p r r : ℝ) : EReal) := by
  have h : ∀ c : Fin 8192, maskR r c * Ideal.exp (Ideal.div (sim (up q) (up p) r c) half)
      = ((expE q p r c - (if r = c then expE q p r c else 0) : ℝ) : EReal) := by
    intro c
    rw [maskR_eq, expR_up, ← EReal.coe_mul]
    congr 1
    split_ifs <;> ring
  unfold denomR
  rw [zero_eq, zero_add, Finset.sum_congr rfl fun c _ => h c, ← Cert.Sums.coe_sum, Finset.sum_sub_distrib,
    Finset.sum_ite_eq, if_pos (Finset.mem_univ _)]

/-- The two denominators agree on real inputs. -/
theorem denomK_eq_denomR (q p : RArr) (r : Fin 8192) : denomK (up q) (up p) r = denomR (up q) (up p) r := by
  rw [denomK_real, denomR_real]

end Cert.Loss

end
-- ==== Proof.MathPos.lean ====
/-
  The positive pair is the same in both arrangements, for arbitrary inputs.

  Row `r` of the stacked array is the normalised `query` row `r` when `r < 4096` and the normalised `pos` row
  `r - 4096` otherwise.  So the entry of the similarity matrix 4096 places off the diagonal pairs the normalised
  `query` row and the normalised `pos` row that share the number `r mod 4096` — in that order when `r < 4096`, in the
  other order otherwise, and the product of extended reals commutes.  Adding the zero word first changes nothing.
-/
import proofs.«159884_j32023276159237_2_alg».proof.Proof.Spec
import Idealize.ShloMosaic.PureOps.Ideal.Laws

noncomputable section

open scoped BigOperators

namespace Cert.Loss

open Idealize.ShloMosaic Idealize.ShloMosaic.ValueIdx

/-- A row of the first half of the stack is a normalised `query` row. -/
theorem z_lo (q p : Arr) (r : Fin 8192) (h : r.val < 4096) (k : Fin 256) : z q p r k = unit q ⟨r.val, h⟩ k := by
  unfold z; rw [dif_pos h]

/-- A row of the second half of the stack is a normalised `pos` row. -/
theorem z_hi (q p : Arr) (r : Fin 8192) (h : ¬ r.val < 4096) (k : Fin 256) :
    z q p r k = unit p ⟨r.val - 4096, by omega⟩ k := by
  unfold z; rw [dif_neg h]

/-- Row `r < 4096` against row `r + 4096`: the `query` row `r` times the `pos` row `r`. -/
theorem sim_lo_hi (q p : Arr) (r c : Fin 8192) (hr : r.val < 4096) (hc : c.val = r.val + 4096) :
    sim q p r c = ∑ k : Fin 256, unit q ⟨r.val, hr⟩ k * unit p ⟨r.val, hr⟩ k := by
  unfold sim
  refine Finset.sum_congr rfl fun k _ => ?_
  rw [z_lo q p r hr k, z_hi q p c (by omega) k]
  have e : (⟨c.val - 4096, by omega⟩ : Fin 4096) = ⟨r.val, hr⟩ := Fin.ext (show c.val - 4096 = r.val by omega)
  rw [e]

/-- Row `r ≥ 4096` against row `r - 4096`: the `pos` row `r - 4096` times the `query` row `r - 4096`. -/
theorem sim_hi_lo (q p : Arr) (r c : Fin 8192) (hr : ¬ r.val < 4096) (hc : c.val = r.val - 4096) :
    sim q p r c = ∑ k : Fin 256, unit q ⟨r.val - 4096, by omega⟩ k * unit p ⟨r.val - 4096, by omega⟩ k := by
  unfold sim
  refine Finset.sum_congr rfl fun k _ => ?_
  rw [z_hi q p r hr k, z_lo q p c (by omega) k, mul_comm]
  have e : (⟨c.val, by omega⟩ : Fin 4096) = ⟨r.val - 4096, by omega⟩ := Fin.ext hc
  rw [e]

/-- The positive pairs of the two arrangements agree. -/
theorem posK_eq_posR (q p : Arr) (r : Fin 8192) : posK q p r = posR q p r := by
  unfold posK posR
  rw [show zero = 0 from Ideal.ofBits_zero_f32, zero_add]
  split_ifs with h
  · rw [sim_lo_hi q p r ⟨r.val + 4096, by omega⟩ h rfl]
    have e : (⟨r.val % 4096, Nat.mod_lt _ (by norm_num)⟩ : Fin 4096) = ⟨r.val, h⟩ := Fin.ext (Nat.mod_eq_of_lt h)
    rw [e]
  · rw [sim_hi_lo q p r ⟨r.val - 4096, by omega⟩ h rfl]
    have e : (⟨r.val % 4096, Nat.mod_lt _ (by norm_num)⟩ : Fin 4096) = ⟨r.val - 4096, by omega⟩ :=
      Fin.ext (show r.val % 4096 = r.val - 4096 by omega)
    rw [e]

end Cert.Loss

end
-- ==== Proof.MathLoss.lean ====
/-
  The two arrangements of the loss are equal on real inputs.

  Both are the same function of the rows' positive pairs and denominators: the mean over the rows of
  `-(positive / (1/2) - log denominator)`.  The positive pairs agree for arbitrary inputs, and the denominators agree
  once every entry of both arrays is a real number; so the two losses are then equal term by term.
-/
import proofs.«159884_j32023276159237_2_alg».proof.Proof.MathDenom
import proofs.«159884_j32023276159237_2_alg».proof.Proof.MathPos

noncomputable section

open scoped BigOperators

namespace Cert.Loss

open Idealize.ShloMosaic Idealize.ShloMosaic.ValueIdx

/-- On arrays all of whose entries are real numbers the tiled and the masked arrangement give the same loss. -/
theorem lossK_eq_lossR (q p : Arr) (hq : ∀ i, ∃ x : ℝ, q i = (x : EReal)) (hp : ∀ i, ∃ x : ℝ, p i = (x : EReal)) :
    lossK q p = lossR q p := by
  obtain ⟨q', rfl⟩ := exists_up q hq
  obtain ⟨p', rfl⟩ := exists_up p hp
  unfold lossK lossR
  simp only [posK_eq_posR, denomK_eq_denomR]

end Cert.Loss

end
-- ==== Proof.MathFinite.lean ====
/-
  Finiteness out of the precondition.  The precondition is the conjunction of three statements "every entry of the
  array has absolute value below +∞", one per argument array.  Over the extended reals `|x| < +∞` says exactly that
  `x` is neither `+∞` nor `-∞`, that is, `x` is a real number.
-/
import proofs.«159884_j32023276159237_2_alg».proof.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.Finite

open Idealize.ShloMosaic Idealize.ShloMosaic.ValueIdx

instance : Subsingleton Cert.Pre_finite_inputs.S_.Idx := ⟨fun a b => funext fun d => d.elim0⟩

/-- The word `0x7F800000` denotes `+∞`. -/
theorem inf_word : Ideal.ofBits .f32 0x7F800000#32 = (⊤ : EReal) := by
  simp [Ideal.ofBits, Ideal.ieee]

/-- A one-bit word made from a Boolean is 1 only when the Boolean is true. -/
theorem ofBool_eq_one {b : Bool} (h : BitVec.ofBool b = 1#1) : b = true := by
  revert h; cases b <;> decide

/-- An extended real whose absolute value `max x (-x)` lies strictly below `+∞` is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- One array's `all (|a| < +∞)`, read back at an entry. -/
theorem real_of_all [Cert.Pre_finite_inputs.Facts]
    (a : FVec Ideal Cert.Pre_finite_inputs.S4096x256 .f32)
    (hb : Cert.Pre_finite_inputs.S_.BroadcastsInDim Cert.Pre_finite_inputs.S4096x256 (![] : Fin 0 → Fin Cert.Pre_finite_inputs.S4096x256.rank))
    (hr : Cert.Pre_finite_inputs.S4096x256.ReducesTo [0, 1] Cert.Pre_finite_inputs.S_)
    (hu : 0 < Cert.Pre_finite_inputs.S_.numel)
    (e : Host.reduce IntOp.andi
          (cmpf CmpFPredicate.olt (Host.absf a)
            (broadcastInDim Cert.Pre_finite_inputs.S4096x256 ![] hb (constant Cert.Pre_finite_inputs.S_ FTy.f32 0x7F800000#32)))
          (constantI Cert.Pre_finite_inputs.S_ 1 1#1) hr hu ix0 = 1#1)
    (i : Cert.Pre_finite_inputs.S4096x256.Idx) : ∃ x : ℝ, a i = (x : EReal) := by
  have hi := Host.reduce_andi_all _ _ hr hu ix0 e i
  refine real_of_abs_lt_top (a i) ?_
  have hi' : BitVec.ofBool (decide (max (a i) (-(a i)) < Ideal.ofBits .f32 0x7F800000#32)) = 1#1 := hi
  have h2 := of_decide_eq_true (ofBool_eq_one hi')
  rwa [inf_word] at h2

theorem real_of_pre [Cert.Pre_finite_inputs.Facts]
    (a0 a1 a2 : FVec Ideal Cert.Pre_finite_inputs.S4096x256 .f32)
    (h : Cert.Pre_finite_inputs.fn (F := Ideal) a0 a1 a2 = (fun _ => 1#1)) :
    (∀ i, ∃ x : ℝ, a0 i = (x : EReal)) ∧ (∀ i, ∃ x : ℝ, a1 i = (x : EReal)) := by
  have h0 := congrFun h ValueIdx.ix0
  dsimp only [Cert.Pre_finite_inputs.fn] at h0
  obtain ⟨h01, _⟩ := IntOp.andi_eq_one.1 h0
  obtain ⟨ha0, ha1⟩ := IntOp.andi_eq_one.1 h01
  exact ⟨real_of_all a0 _ _ _ ha0, real_of_all a1 _ _ _ ha1⟩

end Cert.Finite

end
-- ==== Proof.Assemble.lean ====
/-
  The two claims that involve the reference program, assembled.

  The reference's run ends with its result at the composed term of its arguments and the arguments unchanged; dropping
  the result gives its frame.  For the value claim, the kernel's run is taken as given in the form "the result is the
  tiled arrangement of the loss of the first two arguments, the three arguments unchanged"; the reference's result
  is the masked arrangement of the loss of ITS first two arguments, which agree with the kernel's; and the precondition
  says every entry of the arguments is a real number, on which the two arrangements are equal.
-/
import proofs.«159884_j32023276159237_2_alg».proof.Defs
import proofs.«159884_j32023276159237_2_alg».proof.Proof.Gen.KernelIdeal
import proofs.«159884_j32023276159237_2_alg».proof.Proof.Gen.ReferenceIdeal
import proofs.«159884_j32023276159237_2_alg».proof.Proof.Gen.ReferenceIdeal.Run
import proofs.«159884_j32023276159237_2_alg».proof.Proof.Gen.Pre_finite_inputs
import proofs.«159884_j32023276159237_2_alg».proof.Proof.RefLoss
import proofs.«159884_j32023276159237_2_alg».proof.Proof.MathLoss
import proofs.«159884_j32023276159237_2_alg».proof.Proof.MathFinite

noncomputable section

open Idealize.ShloMosaic Idealize.ShloMosaic.TcCoe Idealize.SL.Sem

namespace Cert.Assemble

/-- The reference runs and leaves its arguments unchanged: its run with the result dropped. -/
theorem frame_ri : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.Value.run (F := Ideal) m ρ)

/-- The value claim, from the kernel's run: if every execution of the kernel ends with its result at the tiled
    arrangement of the loss of its first two arguments and its arguments unchanged, then from memories agreeing on the
    arguments, of which the precondition holds, both programs run and end with equal results. -/
theorem algebraic_of
    (hK : ∀ (m : (ℓ : Loc Cert.KernelIdeal.nD Cert.KernelIdeal.τ Cert.KernelIdeal.sig) → Buf (Elt Ideal) ℓ)
        (ρ : Dev Cert.KernelIdeal.nD → PrngReg),
      θ_run (Cert.KernelIdeal.defs (F := Ideal)) (onTc (τ := Cert.KernelIdeal.τ) (Cert.KernelIdeal.main (F := Ideal)))
        ⟨m, fun _ => 0, ρ⟩ (fun r => ∀ c : Dev Cert.KernelIdeal.nD,
          r.2.mem ((c.tc : Thread Cert.KernelIdeal.nD Cert.KernelIdeal.τ).loc Cert.KernelIdeal.main_v23)
              = (fun _ => Cert.Loss.lossK
                  (m ((c.tc : Thread Cert.KernelIdeal.nD Cert.KernelIdeal.τ).loc Cert.KernelIdeal.main_arg0))
                  (m ((c.tc : Thread Cert.KernelIdeal.nD Cert.KernelIdeal.τ).loc Cert.KernelIdeal.main_arg1)))
          ∧ r.2.mem ((c.tc : Thread Cert.KernelIdeal.nD Cert.KernelIdeal.τ).loc Cert.KernelIdeal.main_arg0)
              = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
              = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2)
              = m ((c.tc : Thread Cert.KernelIdeal.nD Cert.KernelIdeal.τ).loc Cert.KernelIdeal.main_arg2))) :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  refine ⟨fun c => fun _ => Cert.Loss.lossK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), hK m ρ, ?_⟩
  refine (θ_run Cert.ReferenceIdeal.defs _ _).mono (fun _ h c => ⟨(h c).1.trans ?_, (h c).2⟩)
    (Cert.ReferenceIdeal.Value.run (F := Ideal) m' ρ')
  rw [Cert.RefLoss.res_is_lossR, (hagree c).1, (hagree c).2.1]
  obtain ⟨h0, h1⟩ := Cert.Finite.real_of_pre _ _ _ (hpre c)
  funext _
  exact (Cert.Loss.lossK_eq_lossR _ _ h0 h1).symm

end Cert.Assemble

end
-- ==== Proof.lean ====
/-
  The certificate of the contrastive loss: a kernel that L2-normalises the rows of `query` and `pos`, stacks them, and
  computes each row's denominator by tiles — the row sums of exp(2·sim) over four column tiles, less the diagonal term
  in the tile that meets the diagonal — against a reference that multiplies exp(sim / (1/2)) by one minus the identity
  and sums; both end with the mean of -(positive / (1/2) - log denominator).

  Three facts make the five conjuncts.
  • The program runs and leaves its arguments alone, at any float instance: the host operations before the region, the
    region on its 16 × 4 grid with the running sum carried in a scratch buffer between the four tiles of a row block,
    and the host operations after it. The region reads ONE array through two windows, so that array's buffer is lent to
    the windows by halves and rejoined at the exit. This is proved once for the idealized program and once, by the same
    text, for the program as printed.
  • Over the extended reals the program's result is the loss in the tiled arrangement and the reference's is the loss in
    the masked arrangement, each as a function of the first two arguments.
  • On inputs that are all finite the two arrangements agree: every normalised entry is a real number, so every
    similarity and every exponential is real, the diagonal term cancels exactly, and a sum over 8192 columns is the sum
    of its four tiles. The precondition says the inputs are finite.
  The idealization rewrote nothing, so the fourth conjunct is trivial.
-/
import proofs.«159884_j32023276159237_2_alg».proof.Defs
import proofs.«159884_j32023276159237_2_alg».proof.Proof.Gen.Kernel
import proofs.«159884_j32023276159237_2_alg».proof.Proof.Gen.KernelIdeal
import proofs.«159884_j32023276159237_2_alg».proof.Proof.Gen.ReferenceIdeal
import proofs.«159884_j32023276159237_2_alg».proof.Proof.Gen.ReferenceIdeal.Run
import proofs.«159884_j32023276159237_2_alg».proof.Proof.Gen.ReferenceIdeal.Read
import proofs.«159884_j32023276159237_2_alg».proof.Proof.Gen.Pre_finite_inputs
import proofs.«159884_j32023276159237_2_alg».proof.Proof.BFrame
import proofs.«159884_j32023276159237_2_alg».proof.Proof.KValue
import proofs.«159884_j32023276159237_2_alg».proof.Proof.Assemble

noncomputable section

namespace Cert.Proof

open Idealize.ShloMosaic Idealize.SL.Sem

/-- The program as printed runs and leaves its arguments unchanged. -/
theorem frame_p : Cert.frame_Kernel (hKernel := Cert.Kernel.Gen.facts) (hPre_finite_inputs := Cert.Pre_finite_inputs.Gen.facts) :=
  fun m ρ _ => Cert.Kernel.Frm.frame m ρ

/-- So does the idealized program. -/
theorem frame_pi : Cert.frame_KernelIdeal (hKernelIdeal := Cert.KernelIdeal.Gen.facts) (hPre_finite_inputs := Cert.Pre_finite_inputs.Gen.facts) :=
  fun m ρ _ => Cert.KernelIdeal.Frm.frame m ρ

/-- The two idealized programs end with equal results on finite inputs. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) :=
  Cert.Assemble.algebraic_of fun m ρ => Cert.KernelIdeal.Frm.run_value m ρ

theorem claim : Cert.Claim :=
  ⟨Cert.Kernel.Gen.facts, Cert.KernelIdeal.Gen.facts, Cert.ReferenceIdeal.Gen.facts, Cert.Pre_finite_inputs.Gen.facts,
    frame_p, frame_pi, Cert.Assemble.frame_ri, trivial, algebraic⟩

end Cert.Proof

end
